-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x128 : Shape := ⟨3, ![32, 8192, 128]⟩
abbrev S32x8192 : Shape := ⟨2, ![32, 8192]⟩
abbrev S_ : Shape := ⟨0, ![]⟩

class Facts : Prop where
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel

variable [Facts]

def fn {F : FTy → Type} [FloatOps F] (main_arg0 : FVec F S32x8192x128 .f32) (main_arg1 : IVec S32x8192 32) : IVec S_ 1 :=
  let main_v0 : FVec F S32x8192x128 .f32 := Host.absf main_arg0
  let main_cst : FVec F S_ .f32 := constant S_ .f32 0x7F800000#32
  let main_v1 : FVec F S32x8192x128 .f32 := broadcastInDim S32x8192x128 ![] bcast_S_S32x8192x128 main_cst
  let main_v2 : IVec S32x8192x128 1 := cmpf .olt main_v0 main_v1
  let main_c : IVec S_ 1 := constantI S_ 1 1#1
  let main_v3 : IVec S_ 1 := (fun x v => Host.reduce IntOp.andi x v reducesTo_S32x8192x128_S_d0_1_2 h_S_) main_v2 main_c
  main_v3
-- ==== Kernel.lean ====
abbrev S32x8192x128 : Shape := ⟨3, ![32, 8192, 128]⟩
abbrev S32x8192 : Shape := ⟨2, ![32, 8192]⟩
abbrev S8192 : Shape := ⟨1, ![8192]⟩
abbrev S1x8192 : Shape := ⟨2, ![1, 8192]⟩
abbrev S_ : Shape := ⟨0, ![]⟩
abbrev S32x8191 : Shape := ⟨2, ![32, 8191]⟩
abbrev S32x1 : Shape := ⟨2, ![32, 1]⟩
abbrev S32 : Shape := ⟨1, ![32]⟩
abbrev S32x8192x1 : Shape := ⟨3, ![32, 8192, 1]⟩
abbrev S32x8192x2 : Shape := ⟨3, ![32, 8192, 2]⟩
abbrev S8x1024x128 : Shape := ⟨3, ![8, 1024, 128]⟩
abbrev S8x1024 : Shape := ⟨2, ![8, 1024]⟩
abbrev S8x1024x1 : Shape := ⟨3, ![8, 1024, 1]⟩

abbrev nBuf : Space → Nat
  | .hbm => 173
  | .vmem => 16
  | .smem => 0
  | _ => 0

abbrev hbmTy0_0 (i : Nat) : BufTy := match i % 128 with
  | 0 => ⟨S32x8192x128, .f32⟩
  | 1 => ⟨S32x8192, .i32⟩
  | 2 => ⟨S8192, .i32⟩
  | 3 => ⟨S1x8192, .i32⟩
  | 4 => ⟨S32x8192, .i32⟩
  | 5 => ⟨S_, .i32⟩
  | 6 => ⟨S32x8192, .i32⟩
  | 7 => ⟨S32x8192, .i1⟩
  | 8 => ⟨S_, .i32⟩
  | 9 => ⟨S32x8192, .i32⟩
  | 10 => ⟨S32x8192, .i1⟩
  | 11 => ⟨S32x8192, .i1⟩
  | 12 => ⟨S32x8192, .i1⟩
  | 13 => ⟨S32x8192, .f32⟩
  | 14 => ⟨S32x8191, .i32⟩
  | 15 => ⟨S32x8191, .i32⟩
  | 16 => ⟨S32x8191, .i1⟩
  | 17 => ⟨S_, .i1⟩
  | 18 => ⟨S32x1, .i1⟩
  | 19 => ⟨S32x8192, .i1⟩
  | 20 => ⟨S_, .i1⟩
  | 21 => ⟨S32x1, .i1⟩
  | 22 => ⟨S32x8192, .i1⟩
  | 23 => ⟨S_, .i32⟩
  | 24 => ⟨S_, .i32⟩
  | 25 => ⟨S32x8192, .i32⟩
  | 26 => ⟨S32x8192, .i32⟩
  | 27 => ⟨S_, .i32⟩
  | 28 => ⟨S_, .i32⟩
  | 29 => ⟨S32x8192, .i32⟩
  | 30 => ⟨S_, .i32⟩
  | 31 => ⟨S32x8192, .i32⟩
  | 32 => ⟨S32x8192, .i32⟩
  | 33 => ⟨S_, .i32⟩
  | 34 => ⟨S_, .i32⟩
  | 35 => ⟨S32x8192, .i32⟩
  | 36 => ⟨S32x8192, .i32⟩
  | 37 => ⟨S32x8192, .i32⟩
  | 38 => ⟨S_, .i32⟩
  | 39 => ⟨S_, .i32⟩
  | 40 => ⟨S32x8192, .i32⟩
  | 41 => ⟨S32x8192, .i32⟩
  | 42 => ⟨S32x8192, .i32⟩
  | 43 => ⟨S32x8192, .i32⟩
  | 44 => ⟨S32x8192, .f32⟩
  | 45 => ⟨S_, .i32⟩
  | 46 => ⟨S32x8192, .i32⟩
  | 47 => ⟨S32x8192, .i32⟩
  | 48 => ⟨S_, .i32⟩
  | 49 => ⟨S32x8192, .i32⟩
  | 50 => ⟨S32x8192, .i32⟩
  | 51 => ⟨S32x8192, .f32⟩
  | 52 => ⟨S32x8192, .f32⟩
  | 53 => ⟨S32x8192, .i32⟩
  | 54 => ⟨S32x8192, .i32⟩
  | 55 => ⟨S_, .i32⟩
  | 56 => ⟨S32x8192, .i32⟩
  | 57 => ⟨S32x8192, .i1⟩
  | 58 => ⟨S_, .i32⟩
  | 59 => ⟨S32x8192, .i32⟩
  | 60 => ⟨S32x8192, .i32⟩
  | 61 => ⟨S_, .i32⟩
  | 62 => ⟨S32x8192, .i32⟩
  | 63 => ⟨S32x8192, .i1⟩
  | 64 => ⟨S_, .i32⟩
  | 65 => ⟨S32x8192, .i32⟩
  | 66 => ⟨S32x8192, .i32⟩
  | 67 => ⟨S32x8192, .i32⟩
  | 68 => ⟨S_, .i32⟩
  | 69 => ⟨S32x8192, .i32⟩
  | 70 => ⟨S32x8192, .i1⟩
  | 71 => ⟨S_, .i32⟩
  | 72 => ⟨S32x8192, .i32⟩
  | 73 => ⟨S32x8192, .i1⟩
  | 74 => ⟨S_, .i32⟩
  | 75 => ⟨S32x8192, .i32⟩
  | 76 => ⟨S32x8192, .i1⟩
  | 77 => ⟨S32x8192, .i1⟩
  | 78 => ⟨S32x8192, .i1⟩
  | 79 => ⟨S32x8192, .i32⟩
  | 80 => ⟨S32x8192, .i32⟩
  | 81 => ⟨S_, .i32⟩
  | 82 => ⟨S_, .i32⟩
  | 83 => ⟨S32x8192, .i32⟩
  | 84 => ⟨S32x8192, .i32⟩
  | 85 => ⟨S32x8192, .i32⟩
  | 86 => ⟨S_, .i32⟩
  | 87 => ⟨S_, .i32⟩
  | 88 => ⟨S_, .i32⟩
  | 89 => ⟨S32x8192, .i32⟩
  | 90 => ⟨S32x8192, .i32⟩
  | 91 => ⟨S_, .i32⟩
  | 92 => ⟨S32x8192, .i32⟩
  | 93 => ⟨S32x8192, .i32⟩
  | 94 => ⟨S_, .i32⟩
  | 95 => ⟨S32x8192, .i32⟩
  | 96 => ⟨S32x8192, .i1⟩
  | 97 => ⟨S_, .i32⟩
  | 98 => ⟨S32x8192, .i32⟩
  | 99 => ⟨S32x8192, .i1⟩
  | 100 => ⟨S32x8192, .i1⟩
  | 101 => ⟨S32x8192, .f32⟩
  | 102 => ⟨S_, .f32⟩
  | 103 => ⟨S32x8192, .f32⟩
  | 104 => ⟨S_, .i32⟩
  | 105 => ⟨S32x8192, .i32⟩
  | 106 => ⟨S32x8192, .i1⟩
  | 107 => ⟨S32x8192, .f32⟩
  | 108 => ⟨S_, .i32⟩
  | 109 => ⟨S32x8192, .i32⟩
  | 110 => ⟨S32x8192, .i1⟩
  | 111 => ⟨S_, .f32⟩
  | 112 => ⟨S32x8192, .f32⟩
  | 113 => ⟨S32x8192, .f32⟩
  | 114 => ⟨S32x8192, .f32⟩
  | 115 => ⟨S_, .i32⟩
  | 116 => ⟨S32x8192, .i32⟩
  | 117 => ⟨S32x8192, .i1⟩
  | 118 => ⟨S_, .f32⟩
  | 119 => ⟨S32x8192, .f32⟩
  | 120 => ⟨S32x8192, .f32⟩
  | 121 => ⟨S32x8192, .f32⟩
  | 122 => ⟨S_, .f32⟩
  | 123 => ⟨S32x8192, .f32⟩
  | 124 => ⟨S32x8192, .f32⟩
  | 125 => ⟨S_, .f32⟩
  | 126 => ⟨S32x8192, .f32⟩
  | 127 => ⟨S32x8192, .f32⟩
  | _ => ⟨S32x8192x128, .f32⟩

abbrev hbmTy0_1 (i : Nat) : BufTy := match i % 128 with
  | 0 => ⟨S32x8192, .f32⟩
  | 1 => ⟨S_, .i32⟩
  | 2 => ⟨S32x8192, .i32⟩
  | 3 => ⟨S32x8192, .i1⟩
  | 4 => ⟨S32x8192, .f32⟩
  | 5 => ⟨S32, .i32⟩
  | 6 => ⟨S32x1, .i32⟩
  | 7 => ⟨S32x8192, .i32⟩
  | 8 => ⟨S_, .i32⟩
  | 9 => ⟨S32x8192, .i32⟩
  | 10 => ⟨S32x8192, .i1⟩
  | 11 => ⟨S_, .i32⟩
  | 12 => ⟨S32x8192, .i32⟩
  | 13 => ⟨S32x8192, .i32⟩
  | 14 => ⟨S32x8192, .i32⟩
  | 15 => ⟨S_, .i32⟩
  | 16 => ⟨S32x8192, .i32⟩
  | 17 => ⟨S32x8192, .i1⟩
  | 18 => ⟨S_, .i32⟩
  | 19 => ⟨S32x8192, .i32⟩
  | 20 => ⟨S32x8192, .i32⟩
  | 21 => ⟨S32x8192, .i32⟩
  | 22 => ⟨S32x8192x1, .i32⟩
  | 23 => ⟨S32x8192x1, .i32⟩
  | 24 => ⟨S32x8192x2, .i32⟩
  | 25 => ⟨S32x8192x128, .f32⟩
  | 26 => ⟨S_, .i32⟩
  | 27 => ⟨S32x8192, .i32⟩
  | 28 => ⟨S32x8192, .i1⟩
  | 29 => ⟨S_, .i32⟩
  | 30 => ⟨S32x8192, .i32⟩
  | 31 => ⟨S32x8192, .i32⟩
  | 32 => ⟨S32x8192, .i32⟩
  | 33 => ⟨S_, .i32⟩
  | 34 => ⟨S32x8192, .i32⟩
  | 35 => ⟨S32x8192, .i1⟩
  | 36 => ⟨S_, .i32⟩
  | 37 => ⟨S32x8192, .i32⟩
  | 38 => ⟨S32x8192, .i32⟩
  | 39 => ⟨S32x8192, .i32⟩
  | 40 => ⟨S32x8192x1, .i32⟩
  | 41 => ⟨S32x8192x1, .i32⟩
  | 42 => ⟨S32x8192x2, .i32⟩
  | 43 => ⟨S32x8192, .f32⟩
  | 44 => ⟨S32x8192x128, .f32⟩
  | _ => ⟨S32x8192x128, .f32⟩

abbrev hbmTy (i : Nat) : BufTy := match i / 128 with
  | 0 => hbmTy0_0 i
  | 1 => hbmTy0_1 i
  | _ => ⟨S32x8192x128, .f32⟩

abbrev bufTy : (tb : Table) → Fin (tcTables nBuf tb) → BufTy
  | .hbm, ⟨i, _⟩ => hbmTy i
  | .local _ .vmem, ⟨0, _⟩ => ⟨S8x1024x128, .f32⟩
  | .local _ .vmem, ⟨1, _⟩ => ⟨S8x1024x128, .f32⟩
  | .local _ .vmem, ⟨2, _⟩ => ⟨S8x1024x128, .f32⟩
  | .local _ .vmem, ⟨3, _⟩ => ⟨S8x1024x128, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024x128, .f32⟩
  | .local _ .vmem, ⟨15, _⟩ => ⟨S8x1024x128, .f32⟩
  | _, _ => ⟨S32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_call1_c : Ref sig .tc := ⟨.hbm, 27, rfl⟩
abbrev main_call1_v0 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_call2_v0 : Ref sig .tc := ⟨.hbm, 34, rfl⟩
abbrev main_call2_v1 : Ref sig .tc := ⟨.hbm, 35, rfl⟩
abbrev main_v21 : Ref sig .tc := ⟨.hbm, 36, rfl⟩
abbrev main_v22 : Ref sig .tc := ⟨.hbm, 37, rfl⟩
abbrev main_call4_c : Ref sig .tc := ⟨.hbm, 38, rfl⟩
abbrev main_call4_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_call6_c : Ref sig .tc := ⟨.hbm, 61, rfl⟩
abbrev main_call6_v0 : Ref sig .tc := ⟨.hbm, 62, rfl⟩
abbrev main_call6_v1 : Ref sig .tc := ⟨.hbm, 63, rfl⟩
abbrev main_call6_c_0 : Ref sig .tc := ⟨.hbm, 64, rfl⟩
abbrev main_call6_v2 : Ref sig .tc := ⟨.hbm, 65, rfl⟩
abbrev main_call6_v3 : Ref sig .tc := ⟨.hbm, 66, rfl⟩
abbrev main_call6_v4 : Ref sig .tc := ⟨.hbm, 67, rfl⟩
abbrev main_call6_c_1 : Ref sig .tc := ⟨.hbm, 68, rfl⟩
abbrev main_call6_v5 : Ref sig .tc := ⟨.hbm, 69, rfl⟩
abbrev main_call6_v6 : Ref sig .tc := ⟨.hbm, 70, rfl⟩
abbrev main_call6_c_2 : Ref sig .tc := ⟨.hbm, 71, rfl⟩
abbrev main_call6_v7 : Ref sig .tc := ⟨.hbm, 72, rfl⟩
abbrev main_call6_v8 : Ref sig .tc := ⟨.hbm, 73, rfl⟩
abbrev main_call6_c_3 : Ref sig .tc := ⟨.hbm, 74, rfl⟩
abbrev main_call6_v9 : Ref sig .tc := ⟨.hbm, 75, rfl⟩
abbrev main_call6_v10 : Ref sig .tc := ⟨.hbm, 76, rfl⟩
abbrev main_call6_v11 : Ref sig .tc := ⟨.hbm, 77, rfl⟩
abbrev main_call6_v12 : Ref sig .tc := ⟨.hbm, 78, rfl⟩
abbrev main_call6_v13 : Ref sig .tc := ⟨.hbm, 79, rfl⟩
abbrev main_v40 : Ref sig .tc := ⟨.hbm, 80, rfl⟩
abbrev main_c_10 : Ref sig .tc := ⟨.hbm, 81, rfl⟩
abbrev main_call7_v0 : Ref sig .tc := ⟨.hbm, 82, rfl⟩
abbrev main_call7_v1 : Ref sig .tc := ⟨.hbm, 83, rfl⟩
abbrev main_v41 : Ref sig .tc := ⟨.hbm, 84, rfl⟩
abbrev main_v42 : Ref sig .tc := ⟨.hbm, 85, rfl⟩
abbrev main_c_11 : Ref sig .tc := ⟨.hbm, 86, rfl⟩
abbrev main_c_12 : Ref sig .tc := ⟨.hbm, 87, rfl⟩
abbrev main_call8_v0 : Ref sig .tc := ⟨.hbm, 88, rfl⟩
abbrev main_call8_v1 : Ref sig .tc := ⟨.hbm, 89, rfl⟩
abbrev main_call8_v2 : Ref sig .tc := ⟨.hbm, 90, rfl⟩
abbrev main_call8_v3 : Ref sig .tc := ⟨.hbm, 91, rfl⟩
abbrev main_call8_v4 : Ref sig .tc := ⟨.hbm, 92, rfl⟩
abbrev main_v43 : Ref sig .tc := ⟨.hbm, 93, rfl⟩
abbrev main_c_13 : Ref sig .tc := ⟨.hbm, 94, rfl⟩
abbrev main_v44 : Ref sig .tc := ⟨.hbm, 95, rfl⟩
abbrev main_v45 : Ref sig .tc := ⟨.hbm, 96, rfl⟩
abbrev main_c_14 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_cst : Ref sig .tc := ⟨.hbm, 102, rfl⟩
abbrev main_v50 : Ref sig .tc := ⟨.hbm, 103, rfl⟩
abbrev main_c_15 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_c_16 : Ref sig .tc := ⟨.hbm, 108, rfl⟩
abbrev main_v54 : Ref sig .tc := ⟨.hbm, 109, rfl⟩
abbrev main_v55 : Ref sig .tc := ⟨.hbm, 110, rfl⟩
abbrev main_cst_17 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_c_18 : Ref sig .tc := ⟨.hbm, 115, rfl⟩
abbrev main_v59 : Ref sig .tc := ⟨.hbm, 116, rfl⟩
abbrev main_v60 : Ref sig .tc := ⟨.hbm, 117, rfl⟩
abbrev main_cst_19 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_cst_20 : Ref sig .tc := ⟨.hbm, 122, rfl⟩
abbrev main_v64 : Ref sig .tc := ⟨.hbm, 123, rfl⟩
abbrev main_v65 : Ref sig .tc := ⟨.hbm, 124, rfl⟩
abbrev main_cst_21 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_c_22 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_c_23 : Ref sig .tc := ⟨.hbm, 136, rfl⟩
abbrev main_v75 : Ref sig .tc := ⟨.hbm, 137, rfl⟩
abbrev main_v76 : Ref sig .tc := ⟨.hbm, 138, rfl⟩
abbrev main_c_24 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_c_25 : Ref sig .tc := ⟨.hbm, 143, rfl⟩
abbrev main_v80 : Ref sig .tc := ⟨.hbm, 144, rfl⟩
abbrev main_v81 : Ref sig .tc := ⟨.hbm, 145, rfl⟩
abbrev main_c_26 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_c_27 : Ref sig .tc := ⟨.hbm, 154, rfl⟩
abbrev main_v89 : Ref sig .tc := ⟨.hbm, 155, rfl⟩
abbrev main_v90 : Ref sig .tc := ⟨.hbm, 156, rfl⟩
abbrev main_c_28 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_c_29 : Ref sig .tc := ⟨.hbm, 161, rfl⟩
abbrev main_v94 : Ref sig .tc := ⟨.hbm, 162, rfl⟩
abbrev main_v95 : Ref sig .tc := ⟨.hbm, 163, rfl⟩
abbrev main_c_30 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S8192_S1x8192_1 : S8192.BroadcastsInDim S1x8192 (![1] : Fin 1 → Fin S1x8192.rank)
  bcast_S1x8192_S32x8192_0_1 : S1x8192.BroadcastsInDim S32x8192 (![0, 1] : Fin 2 → Fin S32x8192.rank)
  bcast_S_S32x8192 : S_.BroadcastsInDim S32x8192 (![] : Fin 0 → Fin S32x8192.rank)
  slices_S32x8192_S32x8191_0_1 : S32x8192.Slices ![0, 1] S32x8191
  slices_S32x8192_S32x8191_0_0 : S32x8192.Slices ![0, 0] S32x8191
  bcast_S_S32x1 : S_.BroadcastsInDim S32x1 (![] : Fin 0 → Fin S32x1.rank)
  concatenates_S32x1_S32x8191_S32x8192_d1 : Shape.Concatenates [S32x1, S32x8191] S32x8192 1
  concatenates_S32x8191_S32x1_S32x8192_d1 : Shape.Concatenates [S32x8191, S32x1] S32x8192 1
  bcast_S_S_ : S_.BroadcastsInDim S_ (![] : Fin 0 → Fin S_.rank)
  reduceWindows_S32x8192_S32x8192_w1s1p0_0_w8192s1p8191_0 : S32x8192.ReduceWindows (![1, 8192] : Fin 2 → Nat) ![1, 1] ![0, 8191] ![0, 0] S32x8192
  h_S_ : 0 < S_.numel
  bcast_S32_S32x1_0 : S32.BroadcastsInDim S32x1 (![0] : Fin 1 → Fin S32x1.rank)
  bcast_S32x1_S32x8192_0_1 : S32x1.BroadcastsInDim S32x8192 (![0, 1] : Fin 2 → Fin S32x8192.rank)
  bcast_S32x8192_S32x8192x1_0_1 : S32x8192.BroadcastsInDim S32x8192x1 (![0, 1] : Fin 2 → Fin S32x8192x1.rank)
  concatenates_S32x8192x1_S32x8192x1_S32x8192x2_d2 : Shape.Concatenates [S32x8192x1, S32x8192x1] S32x8192x2 2
  inb_S8x1024x128_S8x1024x128_0_0_0 : ∀ a, (![0, 0, 0] : Fin 3 → Nat) a + S8x1024x128.size a ≤ S8x1024x128.size a
  h_S8x1024x128 : 0 < S8x1024x128.numel
  shapeCasts_S8x1024x128_S8x1024x128 : S8x1024x128.ShapeCasts S8x1024x128
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S8x1024_S8x1024x1 : S8x1024.ShapeCasts S8x1024x1
  broadcasts_S8x1024x1_S8x1024x128 : S8x1024x1.Broadcasts S8x1024x128
  iota_S8x1024x128_d2_w32 : S8x1024x128.Iotas .tc 32 [2]
  gather_S32x8192x128_S32x8192x2_S32x8192x128_2_01_n_n_01_2_11128_wf : GatherDims.WF S32x8192x128 S32x8192x2 S32x8192x128 [2] [0, 1] [] [0, 1] [] 2 ![1, 1, 128]
  gather_S32x8192_S32x8192x2_S32x8192_n_01_n_n_01_2_11_wf : GatherDims.WF S32x8192 S32x8192x2 S32x8192 [] [0, 1] [] [0, 1] [] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x128.size a ≤ S32x8192x128.size a
  hwx0_0 : ∀ i : grid0.Coords, EltTy.bits .f32 = 32 ∨ (Rect.block (s := S32x8192x128) S8x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024x128.size a ≤ S32x8192x128.size a
  hwx0_1 : ∀ i : grid0.Coords, EltTy.bits .f32 = 32 ∨ (Rect.block (s := S32x8192x128) S8x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x8192.size a
  hwx0_2 : ∀ i : grid0.Coords, EltTy.bits .f32 = 32 ∨ (Rect.block (s := S32x8192) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x8192.size a
  hwx0_3 : ∀ i : grid0.Coords, EltTy.bits .f32 = 32 ∨ (Rect.block (s := S32x8192) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S32x8192.size a
  hwx0_4 : ∀ i : grid0.Coords, EltTy.bits .f32 = 32 ∨ (Rect.block (s := S32x8192) S8x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S32x8192.size a
  hwx0_5 : ∀ i : grid0.Coords, EltTy.bits .f32 = 32 ∨ (Rect.block (s := S32x8192) S8x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x1024.size a ≤ S32x8192.size a
  hwx0_6 : ∀ i : grid0.Coords, EltTy.bits .f32 = 32 ∨ (Rect.block (s := S32x8192) S8x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x1024x128.size a ≤ S32x8192x128.size a
  hwx0_7 : ∀ i : grid0.Coords, EltTy.bits .f32 = 32 ∨ (Rect.block (s := S32x8192x128) S8x1024x128.size (cc0_transform_7 i) (hinb0_7 i)).WholeWords (EltTy.packing .f32)

variable [Facts₀]

def gather_S32x8192x128_S32x8192x2_S32x8192x128_2_01_n_n_01_2_11128 : GatherDims S32x8192x128 S32x8192x2 S32x8192x128 where
  offsetDims := [2]
  collapsedSliceDims := [0, 1]
  operandBatchingDims := []
  startIndicesBatchingDims := []
  startIndexMap := [0, 1]
  indexVectorDim := 2
  sliceSizes := ![1, 1, 128]
  wf := gather_S32x8192x128_S32x8192x2_S32x8192x128_2_01_n_n_01_2_11128_wf
def gather_S32x8192_S32x8192x2_S32x8192_n_01_n_n_01_2_11 : GatherDims S32x8192 S32x8192x2 S32x8192 where
  offsetDims := []
  collapsedSliceDims := [0, 1]
  operandBatchingDims := []
  startIndicesBatchingDims := []
  startIndexMap := [0, 1]
  indexVectorDim := 2
  sliceSizes := ![1, 1]
  wf := gather_S32x8192_S32x8192x2_S32x8192_n_01_n_n_01_2_11_wf

abbrev win0_0 : Pipeline.Window sig grid0 :=
  Pipeline.Window.ofSpec (Memref.whole main_arg0) S8x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v88) S8x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v102) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v49) S8x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v68) S8x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v71) S8x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v103) S8x1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x8192x128 : Shape := ⟨3, ![32, 8192, 128]⟩
abbrev S32x8192 : Shape := ⟨2, ![32, 8192]⟩
abbrev S1 : Shape := ⟨1, ![1]⟩
abbrev S8192 : Shape := ⟨1, ![8192]⟩
abbrev S_ : Shape := ⟨0, ![]⟩
abbrev S32x8192x1 : Shape := ⟨3, ![32, 8192, 1]⟩
abbrev S32x8191 : Shape := ⟨2, ![32, 8191]⟩
abbrev S32x1 : Shape := ⟨2, ![32, 1]⟩
abbrev S1x8192 : Shape := ⟨2, ![1, 8192]⟩
abbrev S128 : Shape := ⟨1, ![128]⟩
abbrev S1x128 : Shape := ⟨2, ![1, 128]⟩
abbrev S1x1x128 : Shape := ⟨3, ![1, 1, 128]⟩

abbrev nBuf : Space → Nat
  | .hbm => 181
  | .vmem => 0
  | .smem => 0
  | _ => 0

abbrev hbmTy0_0 (i : Nat) : BufTy := match i % 128 with
  | 0 => ⟨S32x8192x128, .f32⟩
  | 1 => ⟨S32x8192, .i32⟩
  | 2 => ⟨S1, .i1⟩
  | 3 => ⟨S1, .i1⟩
  | 4 => ⟨S8192, .i32⟩
  | 5 => ⟨S_, .i32⟩
  | 6 => ⟨S32x8192, .i32⟩
  | 7 => ⟨S32x8192, .i1⟩
  | 8 => ⟨S_, .i32⟩
  | 9 => ⟨S32x8192, .i32⟩
  | 10 => ⟨S32x8192, .i1⟩
  | 11 => ⟨S32x8192, .i1⟩
  | 12 => ⟨S32x8192, .i1⟩
  | 13 => ⟨S32x8192x1, .i1⟩
  | 14 => ⟨S32x8192x1, .f32⟩
  | 15 => ⟨S32x8192x128, .f32⟩
  | 16 => ⟨S32x8192x128, .f32⟩
  | 17 => ⟨S32x8191, .i32⟩
  | 18 => ⟨S32x8191, .i32⟩
  | 19 => ⟨S32x8191, .i1⟩
  | 20 => ⟨S32x1, .i1⟩
  | 21 => ⟨S32x8192, .i1⟩
  | 22 => ⟨S32x1, .i1⟩
  | 23 => ⟨S32x8192, .i1⟩
  | 24 => ⟨S_, .i32⟩
  | 25 => ⟨S_, .i32⟩
  | 26 => ⟨S8192, .i32⟩
  | 27 => ⟨S32x8192, .i32⟩
  | 28 => ⟨S32x8192, .i32⟩
  | 29 => ⟨S32x8192, .i32⟩
  | 30 => ⟨S_, .i32⟩
  | 31 => ⟨S_, .i32⟩
  | 32 => ⟨S32x8192, .i32⟩
  | 33 => ⟨S_, .i32⟩
  | 34 => ⟨S8192, .i32⟩
  | 35 => ⟨S8192, .i32⟩
  | 36 => ⟨S_, .i32⟩
  | 37 => ⟨S_, .i32⟩
  | 38 => ⟨S8192, .i32⟩
  | 39 => ⟨S32x8192, .i32⟩
  | 40 => ⟨S32x8192, .i32⟩
  | 41 => ⟨S32x8192, .i32⟩
  | 42 => ⟨S32x8192, .i32⟩
  | 43 => ⟨S_, .i32⟩
  | 44 => ⟨S_, .i32⟩
  | 45 => ⟨S32x8192, .i32⟩
  | 46 => ⟨S32x8192, .i32⟩
  | 47 => ⟨S32x8192, .i32⟩
  | 48 => ⟨S1x8192, .i32⟩
  | 49 => ⟨S32x8192, .i32⟩
  | 50 => ⟨S32x8192, .i32⟩
  | 51 => ⟨S32x8192, .f32⟩
  | 52 => ⟨S_, .i32⟩
  | 53 => ⟨S32x8192, .i32⟩
  | 54 => ⟨S32x8192, .i32⟩
  | 55 => ⟨S_, .i32⟩
  | 56 => ⟨S32x8192, .i32⟩
  | 57 => ⟨S32x8192, .i32⟩
  | 58 => ⟨S32x8192, .f32⟩
  | 59 => ⟨S32x8192, .f32⟩
  | 60 => ⟨S32x8192, .i32⟩
  | 61 => ⟨S32x8192, .i32⟩
  | 62 => ⟨S_, .i32⟩
  | 63 => ⟨S32x8192, .i32⟩
  | 64 => ⟨S32x8192, .i1⟩
  | 65 => ⟨S_, .i32⟩
  | 66 => ⟨S32x8192, .i32⟩
  | 67 => ⟨S32x8192, .i32⟩
  | 68 => ⟨S_, .i32⟩
  | 69 => ⟨S32x8192, .i32⟩
  | 70 => ⟨S32x8192, .i1⟩
  | 71 => ⟨S_, .i32⟩
  | 72 => ⟨S8192, .i32⟩
  | 73 => ⟨S32x8192, .i32⟩
  | 74 => ⟨S32x8192, .i32⟩
  | 75 => ⟨S32x8192, .i32⟩
  | 76 => ⟨S_, .i32⟩
  | 77 => ⟨S32x8192, .i32⟩
  | 78 => ⟨S32x8192, .i1⟩
  | 79 => ⟨S_, .i32⟩
  | 80 => ⟨S32x8192, .i32⟩
  | 81 => ⟨S32x8192, .i1⟩
  | 82 => ⟨S_, .i32⟩
  | 83 => ⟨S32x8192, .i32⟩
  | 84 => ⟨S32x8192, .i1⟩
  | 85 => ⟨S32x8192, .i1⟩
  | 86 => ⟨S32x8192, .i1⟩
  | 87 => ⟨S32x8192, .i32⟩
  | 88 => ⟨S32x8192, .i32⟩
  | 89 => ⟨S_, .i32⟩
  | 90 => ⟨S_, .i32⟩
  | 91 => ⟨S8192, .i32⟩
  | 92 => ⟨S32x8192, .i32⟩
  | 93 => ⟨S32x8192, .i32⟩
  | 94 => ⟨S32x8192, .i32⟩
  | 95 => ⟨S_, .i32⟩
  | 96 => ⟨S_, .i32⟩
  | 97 => ⟨S_, .i32⟩
  | 98 => ⟨S32x8192, .i32⟩
  | 99 => ⟨S32x8192, .i32⟩
  | 100 => ⟨S_, .i32⟩
  | 101 => ⟨S32x8192, .i32⟩
  | 102 => ⟨S32x8192, .i32⟩
  | 103 => ⟨S_, .i32⟩
  | 104 => ⟨S32x8192, .i32⟩
  | 105 => ⟨S32x8192, .i1⟩
  | 106 => ⟨S_, .i32⟩
  | 107 => ⟨S32x8192, .i32⟩
  | 108 => ⟨S32x8192, .i1⟩
  | 109 => ⟨S32x8192, .i1⟩
  | 110 => ⟨S32x8192x1, .i1⟩
  | 111 => ⟨S_, .i32⟩
  | 112 => ⟨S32x8192, .i32⟩
  | 113 => ⟨S32x8192, .i1⟩
  | 114 => ⟨S_, .i32⟩
  | 115 => ⟨S32x8192, .i32⟩
  | 116 => ⟨S32x8192, .i32⟩
  | 117 => ⟨S32x8192, .i32⟩
  | 118 => ⟨S32x8192x1, .i32⟩
  | 119 => ⟨S32x8192x128, .f32⟩
  | 120 => ⟨S32x8192x128, .i1⟩
  | 121 => ⟨S32x8192x128, .f32⟩
  | 122 => ⟨S_, .f32⟩
  | 123 => ⟨S8192, .f32⟩
  | 124 => ⟨S_, .i32⟩
  | 125 => ⟨S32x8192, .i32⟩
  | 126 => ⟨S32x8192, .i1⟩
  | 127 => ⟨S32x8192, .f32⟩
  | _ => ⟨S32x8192x128, .f32⟩

abbrev hbmTy0_1 (i : Nat) : BufTy := match i % 128 with
  | 0 => ⟨S32x8192, .f32⟩
  | 1 => ⟨S_, .i32⟩
  | 2 => ⟨S32x8192, .i32⟩
  | 3 => ⟨S32x8192, .i1⟩
  | 4 => ⟨S_, .f32⟩
  | 5 => ⟨S32x8192, .f32⟩
  | 6 => ⟨S32x8192, .f32⟩
  | 7 => ⟨S32x8192, .f32⟩
  | 8 => ⟨S_, .i32⟩
  | 9 => ⟨S32x8192, .i32⟩
  | 10 => ⟨S32x8192, .i1⟩
  | 11 => ⟨S_, .f32⟩
  | 12 => ⟨S32x8192, .f32⟩
  | 13 => ⟨S32x8192, .f32⟩
  | 14 => ⟨S32x8192, .f32⟩
  | 15 => ⟨S_, .f32⟩
  | 16 => ⟨S32x8192, .f32⟩
  | 17 => ⟨S32x8192, .f32⟩
  | 18 => ⟨S_, .f32⟩
  | 19 => ⟨S32x8192, .f32⟩
  | 20 => ⟨S32x8192, .f32⟩
  | 21 => ⟨S32x8192, .f32⟩
  | 22 => ⟨S32x8192x1, .f32⟩
  | 23 => ⟨S32x8192x128, .f32⟩
  | 24 => ⟨S32x8192x128, .f32⟩
  | 25 => ⟨S128, .i32⟩
  | 26 => ⟨S_, .i32⟩
  | 27 => ⟨S128, .i32⟩
  | 28 => ⟨S128, .i1⟩
  | 29 => ⟨S_, .f32⟩
  | 30 => ⟨S_, .f32⟩
  | 31 => ⟨S128, .f32⟩
  | 32 => ⟨S128, .f32⟩
  | 33 => ⟨S128, .f32⟩
  | 34 => ⟨S128, .f32⟩
  | 35 => ⟨S_, .i32⟩
  | 36 => ⟨S32x8192, .i32⟩
  | 37 => ⟨S32x8192, .i1⟩
  | 38 => ⟨S32x8192x1, .i1⟩
  | 39 => ⟨S1x128, .f32⟩
  | 40 => ⟨S1x1x128, .f32⟩
  | 41 => ⟨S32x8192x128, .f32⟩
  | 42 => ⟨S32x8192x128, .f32⟩
  | 43 => ⟨S32x8192x128, .i1⟩
  | 44 => ⟨S32x8192x128, .f32⟩
  | 45 => ⟨S_, .f32⟩
  | 46 => ⟨S_, .f32⟩
  | 47 => ⟨S_, .f32⟩
  | 48 => ⟨S32x8192x128, .f32⟩
  | 49 => ⟨S32x8192x128, .f32⟩
  | 50 => ⟨S_, .f32⟩
  | 51 => ⟨S32x8192x128, .f32⟩
  | 52 => ⟨S32x8192x128, .f32⟩
  | _ => ⟨S32x8192x128, .f32⟩

abbrev hbmTy (i : Nat) : BufTy := match i / 128 with
  | 0 => hbmTy0_0 i
  | 1 => hbmTy0_1 i
  | _ => ⟨S32x8192x128, .f32⟩

abbrev bufTy : (tb : Table) → Fin (tcTables nBuf tb) → BufTy
  | .hbm, ⟨i, _⟩ => hbmTy i
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_v18 : Ref sig .tc := ⟨.hbm, 29, rfl⟩
abbrev main_call1_c : Ref sig .tc := ⟨.hbm, 30, rfl⟩
abbrev main_call1_v0 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_v22 : Ref sig .tc := ⟨.hbm, 41, rfl⟩
abbrev main_v23 : Ref sig .tc := ⟨.hbm, 42, rfl⟩
abbrev main_call4_c : Ref sig .tc := ⟨.hbm, 43, rfl⟩
abbrev main_call4_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_v42 : Ref sig .tc := ⟨.hbm, 67, rfl⟩
abbrev main_call6_c : Ref sig .tc := ⟨.hbm, 68, rfl⟩
abbrev main_call6_v0 : Ref sig .tc := ⟨.hbm, 69, rfl⟩
abbrev main_call6_v1 : Ref sig .tc := ⟨.hbm, 70, rfl⟩
abbrev main_call6_c_0 : Ref sig .tc := ⟨.hbm, 71, rfl⟩
abbrev main_call6_v2 : Ref sig .tc := ⟨.hbm, 72, rfl⟩
abbrev main_call6_call0_v0 : Ref sig .tc := ⟨.hbm, 73, rfl⟩
abbrev main_call6_v3 : Ref sig .tc := ⟨.hbm, 74, rfl⟩
abbrev main_call6_v4 : Ref sig .tc := ⟨.hbm, 75, rfl⟩
abbrev main_call6_c_1 : Ref sig .tc := ⟨.hbm, 76, rfl⟩
abbrev main_call6_v5 : Ref sig .tc := ⟨.hbm, 77, rfl⟩
abbrev main_call6_v6 : Ref sig .tc := ⟨.hbm, 78, rfl⟩
abbrev main_call6_c_2 : Ref sig .tc := ⟨.hbm, 79, rfl⟩
abbrev main_call6_v7 : Ref sig .tc := ⟨.hbm, 80, rfl⟩
abbrev main_call6_v8 : Ref sig .tc := ⟨.hbm, 81, rfl⟩
abbrev main_call6_c_3 : Ref sig .tc := ⟨.hbm, 82, rfl⟩
abbrev main_call6_v9 : Ref sig .tc := ⟨.hbm, 83, rfl⟩
abbrev main_call6_v10 : Ref sig .tc := ⟨.hbm, 84, rfl⟩
abbrev main_call6_v11 : Ref sig .tc := ⟨.hbm, 85, rfl⟩
abbrev main_call6_v12 : Ref sig .tc := ⟨.hbm, 86, rfl⟩
abbrev main_call6_v13 : Ref sig .tc := ⟨.hbm, 87, rfl⟩
abbrev main_v43 : Ref sig .tc := ⟨.hbm, 88, rfl⟩
abbrev main_c_10 : Ref sig .tc := ⟨.hbm, 89, rfl⟩
abbrev main_call7_v0 : Ref sig .tc := ⟨.hbm, 90, rfl⟩
abbrev main_call7_v1 : Ref sig .tc := ⟨.hbm, 91, rfl⟩
abbrev main_call7_v2 : Ref sig .tc := ⟨.hbm, 92, rfl⟩
abbrev main_v44 : Ref sig .tc := ⟨.hbm, 93, rfl⟩
abbrev main_v45 : Ref sig .tc := ⟨.hbm, 94, rfl⟩
abbrev main_c_11 : Ref sig .tc := ⟨.hbm, 95, rfl⟩
abbrev main_c_12 : Ref sig .tc := ⟨.hbm, 96, rfl⟩
abbrev main_call8_v0 : Ref sig .tc := ⟨.hbm, 97, rfl⟩
abbrev main_call8_v1 : Ref sig .tc := ⟨.hbm, 98, rfl⟩
abbrev main_call8_v2 : Ref sig .tc := ⟨.hbm, 99, rfl⟩
abbrev main_call8_v3 : Ref sig .tc := ⟨.hbm, 100, rfl⟩
abbrev main_call8_v4 : Ref sig .tc := ⟨.hbm, 101, rfl⟩
abbrev main_v46 : Ref sig .tc := ⟨.hbm, 102, rfl⟩
abbrev main_c_13 : Ref sig .tc := ⟨.hbm, 103, rfl⟩
abbrev main_v47 : Ref sig .tc := ⟨.hbm, 104, rfl⟩
abbrev main_v48 : Ref sig .tc := ⟨.hbm, 105, rfl⟩
abbrev main_c_14 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_c_15 : Ref sig .tc := ⟨.hbm, 111, rfl⟩
abbrev main_v53 : Ref sig .tc := ⟨.hbm, 112, rfl⟩
abbrev main_v54 : Ref sig .tc := ⟨.hbm, 113, rfl⟩
abbrev main_c_16 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_call9_v0 : Ref sig .tc := ⟨.hbm, 120, rfl⟩
abbrev main_v60 : Ref sig .tc := ⟨.hbm, 121, rfl⟩
abbrev main_cst : Ref sig .tc := ⟨.hbm, 122, rfl⟩
abbrev main_v61 : Ref sig .tc := ⟨.hbm, 123, rfl⟩
abbrev main_c_17 : Ref sig .tc := ⟨.hbm, 124, rfl⟩
abbrev main_v62 : Ref sig .tc := ⟨.hbm, 125, rfl⟩
abbrev main_v63 : Ref sig .tc := ⟨.hbm, 126, rfl⟩
abbrev main_call10_v0 : Ref sig .tc := ⟨.hbm, 127, rfl⟩
abbrev main_v64 : Ref sig .tc := ⟨.hbm, 128, rfl⟩
abbrev main_c_18 : Ref sig .tc := ⟨.hbm, 129, rfl⟩
abbrev main_v65 : Ref sig .tc := ⟨.hbm, 130, rfl⟩
abbrev main_v66 : Ref sig .tc := ⟨.hbm, 131, rfl⟩
abbrev main_cst_19 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_c_20 : Ref sig .tc := ⟨.hbm, 136, rfl⟩
abbrev main_v70 : Ref sig .tc := ⟨.hbm, 137, rfl⟩
abbrev main_v71 : Ref sig .tc := ⟨.hbm, 138, rfl⟩
abbrev main_cst_21 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_cst_22 : Ref sig .tc := ⟨.hbm, 143, rfl⟩
abbrev main_v75 : Ref sig .tc := ⟨.hbm, 144, rfl⟩
abbrev main_v76 : Ref sig .tc := ⟨.hbm, 145, rfl⟩
abbrev main_cst_23 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_c_24 : Ref sig .tc := ⟨.hbm, 154, rfl⟩
abbrev main_v84 : Ref sig .tc := ⟨.hbm, 155, rfl⟩
abbrev main_v85 : Ref sig .tc := ⟨.hbm, 156, rfl⟩
abbrev main_cst_25 : Ref sig .tc := ⟨.hbm, 157, rfl⟩
abbrev main_cst_26 : Ref sig .tc := ⟨.hbm, 158, rfl⟩
abbrev main_call13_v0 : Ref sig .tc := ⟨.hbm, 159, rfl⟩
abbrev main_call13_v1 : Ref sig .tc := ⟨.hbm, 160, rfl⟩
abbrev main_v86 : Ref sig .tc := ⟨.hbm, 161, rfl⟩
abbrev main_v87 : Ref sig .tc := ⟨.hbm, 162, rfl⟩
abbrev main_c_27 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_call14_v0 : Ref sig .tc := ⟨.hbm, 171, rfl⟩
abbrev main_v95 : Ref sig .tc := ⟨.hbm, 172, rfl⟩
abbrev main_cst_28 : Ref sig .tc := ⟨.hbm, 173, rfl⟩
abbrev main_cst_29 : Ref sig .tc := ⟨.hbm, 174, rfl⟩
abbrev main_call15_v0 : Ref sig .tc := ⟨.hbm, 175, rfl⟩
abbrev main_call15_v1 : Ref sig .tc := ⟨.hbm, 176, rfl⟩
abbrev main_call15_v2 : Ref sig .tc := ⟨.hbm, 177, rfl⟩
abbrev main_call15_v3 : Ref sig .tc := ⟨.hbm, 178, rfl⟩
abbrev main_call15_v4 : Ref sig .tc := ⟨.hbm, 179, rfl⟩
abbrev main_v96 : Ref sig .tc := ⟨.hbm, 180, rfl⟩

abbrev nD : Nat := 1
abbrev τ : Topo := Topo.v7x

variable {F : FTy → Type} [FloatOps F]

class Facts₀ : Prop where
  bcast_S_S32x8192 : S_.BroadcastsInDim S32x8192 (![] : Fin 0 → Fin S32x8192.rank)
  bcast_S32x8192_S32x8192x1_0_1 : S32x8192.BroadcastsInDim S32x8192x1 (![0, 1] : Fin 2 → Fin S32x8192x1.rank)
  bcast_S32x8192x1_S32x8192x128_0_1_2 : S32x8192x1.BroadcastsInDim S32x8192x128 (![0, 1, 2] : Fin 3 → Fin S32x8192x128.rank)
  slices_S32x8192_S32x8191_0_1 : S32x8192.Slices ![0, 1] S32x8191
  slices_S32x8192_S32x8191_0_0 : S32x8192.Slices ![0, 0] S32x8191
  bcast_S1_S32x1_1 : S1.BroadcastsInDim S32x1 (![1] : Fin 1 → Fin S32x1.rank)
  concatenates_S32x1_S32x8191_S32x8192_d1 : Shape.Concatenates [S32x1, S32x8191] S32x8192 1
  concatenates_S32x8191_S32x1_S32x8192_d1 : Shape.Concatenates [S32x8191, S32x1] S32x8192 1
  bcast_S_S8192 : S_.BroadcastsInDim S8192 (![] : Fin 0 → Fin S8192.rank)
  bcast_S8192_S32x8192_1 : S8192.BroadcastsInDim S32x8192 (![1] : Fin 1 → Fin S32x8192.rank)
  bcast_S_S_ : S_.BroadcastsInDim S_ (![] : Fin 0 → Fin S_.rank)
  reduceWindows_S32x8192_S32x8192_w1s1p0_0_w8192s1p8191_0 : S32x8192.ReduceWindows (![1, 8192] : Fin 2 → Nat) ![1, 1] ![0, 8191] ![0, 0] S32x8192
  h_S_ : 0 < S_.numel
  bcast_S8192_S1x8192_1 : S8192.BroadcastsInDim S1x8192 (![1] : Fin 1 → Fin S1x8192.rank)
  bcast_S1x8192_S32x8192_0_1 : S1x8192.BroadcastsInDim S32x8192 (![0, 1] : Fin 2 → Fin S32x8192.rank)
  bcast_S_S128 : S_.BroadcastsInDim S128 (![] : Fin 0 → Fin S128.rank)
  bcast_S128_S1x128_1 : S128.BroadcastsInDim S1x128 (![1] : Fin 1 → Fin S1x128.rank)
  bcast_S1x128_S1x1x128_1_2 : S1x128.BroadcastsInDim S1x1x128 (![1, 2] : Fin 2 → Fin S1x1x128.rank)
  bcast_S1x1x128_S32x8192x128_0_1_2 : S1x1x128.BroadcastsInDim S32x8192x128 (![0, 1, 2] : Fin 3 → Fin S32x8192x128.rank)
  bcast_S_S32x8192x128 : S_.BroadcastsInDim S32x8192x128 (![] : Fin 0 → Fin S32x8192x128.rank)
  gather_S32x8192x128_S32x8192x1_S32x8192x128_2_1_0_0_1_2_11128_wf : GatherDims.WF S32x8192x128 S32x8192x1 S32x8192x128 [2] [1] [0] [1] [0] 2 ![1, 1, 128]

variable [Facts₀]

def gather_S32x8192x128_S32x8192x1_S32x8192x128_2_1_0_0_1_2_11128 : GatherDims S32x8192x128 S32x8192x1 S32x8192x128 where
  offsetDims := [2]
  collapsedSliceDims := [1]
  operandBatchingDims := [0]
  startIndicesBatchingDims := [0]
  startIndexMap := [1]
  indexVectorDim := 2
  sliceSizes := ![1, 1, 128]
  wf := gather_S32x8192x128_S32x8192x1_S32x8192x128_2_1_0_0_1_2_11128_wf

class Facts : Prop extends Facts₀ where

variable [Facts]
-- ==== Proof.Spec.lean ====
/-
  The common mathematics of the two programs, stated once, with no program in sight.

  Per batch row b and frame t the labels L(b,t) fix: whether the frame is kept (label not 0 or 7); the contiguous
  run of equal labels the frame lies in, by its first frame `start` (a running maximum of the positions where the
  label changes) and its exclusive end (a running minimum, taken from the right, of the positions after which it
  changes); the frame's position and fraction inside the run; the loop length min(run length, start) and the
  source frame start − len + (pos mod len), clamped into [0, 8191]; the loop mask (label 2 and a positive loop
  length); the gain (1, the fraction, 1 − fraction, or 1 − ½ sin(π·fraction) by label); the effect mask (label 5).
  Both programs compute these by the same integer and float operations; they differ only in how a few constants
  and the position index are spread over the [32, 8192] grid before they are used. Those few arrays are the
  parameters of the definitions below (`ones`, `w0`, `w1`, `oneB`, `zeroW`, `oneF`): each program supplies its
  own spelling, and the spellings are equal as arrays (SpecAtoms).
-/
import Idealize.ShloMosaic.Lib.StableHlo
import Idealize.ShloMosaic.PureOps

noncomputable section

namespace Cert.Spec

open Idealize.ShloMosaic

abbrev S32x8192x128 : Shape := ⟨3, ![32, 8192, 128]⟩
abbrev S32x8192x1 : Shape := ⟨3, ![32, 8192, 1]⟩
abbrev S32x8192x2 : Shape := ⟨3, ![32, 8192, 2]⟩
abbrev S32x8192 : Shape := ⟨2, ![32, 8192]⟩
abbrev S32x8191 : Shape := ⟨2, ![32, 8191]⟩
abbrev S32x1 : Shape := ⟨2, ![32, 1]⟩
abbrev S1x8192 : Shape := ⟨2, ![1, 8192]⟩
abbrev S8192 : Shape := ⟨1, ![8192]⟩
abbrev S32 : Shape := ⟨1, ![32]⟩
abbrev S1 : Shape := ⟨1, ![1]⟩
abbrev S128 : Shape := ⟨1, ![128]⟩
abbrev S1x128 : Shape := ⟨2, ![1, 128]⟩
abbrev S1x1x128 : Shape := ⟨3, ![1, 1, 128]⟩
abbrev S_ : Shape := ⟨0, ![]⟩

/-! The shape relations the operations below take, decided on the literal shapes. -/
theorem bc_S_S32x8192 : S_.BroadcastsInDim S32x8192 (![] : Fin 0 → Fin S32x8192.rank) := by decide
theorem bc_S_S8192 : S_.BroadcastsInDim S8192 (![] : Fin 0 → Fin S8192.rank) := by decide
theorem bc_S_S_ : S_.BroadcastsInDim S_ (![] : Fin 0 → Fin S_.rank) := by decide
theorem bc_S_S32x1 : S_.BroadcastsInDim S32x1 (![] : Fin 0 → Fin S32x1.rank) := by decide
theorem bc_S_S128 : S_.BroadcastsInDim S128 (![] : Fin 0 → Fin S128.rank) := by decide
theorem bc_S_S32x8192x128 : S_.BroadcastsInDim S32x8192x128 (![] : Fin 0 → Fin S32x8192x128.rank) := by decide
theorem bc_S1_S32x1 : S1.BroadcastsInDim S32x1 (![1] : Fin 1 → Fin S32x1.rank) := by decide
theorem bc_S8192_S1x8192 : S8192.BroadcastsInDim S1x8192 (![1] : Fin 1 → Fin S1x8192.rank) := by decide
theorem bc_S1x8192_S32x8192 : S1x8192.BroadcastsInDim S32x8192 (![0, 1] : Fin 2 → Fin S32x8192.rank) := by decide
theorem bc_S8192_S32x8192 : S8192.BroadcastsInDim S32x8192 (![1] : Fin 1 → Fin S32x8192.rank) := by decide
theorem bc_S32_S32x1 : S32.BroadcastsInDim S32x1 (![0] : Fin 1 → Fin S32x1.rank) := by decide
theorem bc_S32x1_S32x8192 : S32x1.BroadcastsInDim S32x8192 (![0, 1] : Fin 2 → Fin S32x8192.rank) := by decide
theorem bc_S32x8192_S32x8192x1 : S32x8192.BroadcastsInDim S32x8192x1 (![0, 1] : Fin 2 → Fin S32x8192x1.rank) := by decide
theorem bc_S32x8192x1_S32x8192x128 : S32x8192x1.BroadcastsInDim S32x8192x128 (![0, 1, 2] : Fin 3 → Fin S32x8192x128.rank) := by decide
theorem bc_S128_S1x128 : S128.BroadcastsInDim S1x128 (![1] : Fin 1 → Fin S1x128.rank) := by decide
theorem bc_S1x128_S1x1x128 : S1x128.BroadcastsInDim S1x1x128 (![1, 2] : Fin 2 → Fin S1x1x128.rank) := by decide
theorem bc_S1x1x128_S32x8192x128 : S1x1x128.BroadcastsInDim S32x8192x128 (![0, 1, 2] : Fin 3 → Fin S32x8192x128.rank) := by decide
theorem sl_01 : S32x8192.Slices ![0, 1] S32x8191 := by decide
theorem sl_00 : S32x8192.Slices ![0, 0] S32x8191 := by decide
theorem cc_first : Shape.Concatenates [S32x1, S32x8191] S32x8192 1 := by decide
theorem cc_last : Shape.Concatenates [S32x8191, S32x1] S32x8192 1 := by decide
theorem cc_pair : Shape.Concatenates [S32x8192x1, S32x8192x1] S32x8192x2 2 := by decide
theorem rw_row : S32x8192.ReduceWindows (![1, 8192] : Fin 2 → Nat) ![1, 1] ![0, 8191] ![0, 0] S32x8192 := by decide
theorem h_S_ : 0 < S_.numel := by decide
theorem wf_rows : GatherDims.WF S32x8192x128 S32x8192x1 S32x8192x128 [2] [1] [0] [1] [0] 2 ![1, 1, 128] := by decide
theorem wf_pair3 : GatherDims.WF S32x8192x128 S32x8192x2 S32x8192x128 [2] [0, 1] [] [0, 1] [] 2 ![1, 1, 128] := by decide
theorem wf_pair2 : GatherDims.WF S32x8192 S32x8192x2 S32x8192 [] [0, 1] [] [0, 1] [] 2 ![1, 1] := by decide

variable {F : FTy → Type} [FloatOps F]

/-! ## Constants spread over the grid, and the position index -/

/-- An integer constant at every (b, t). -/
def cI (v : BitVec 32) : IVec S32x8192 32 := broadcastInDim S32x8192 ![] bc_S_S32x8192 (constantI S_ 32 v)
/-- A float constant (by its f32 pattern) at every (b, t). -/
def cF (v : BitVec 32) : FVec F S32x8192 .f32 := broadcastInDim S32x8192 ![] bc_S_S32x8192 (constant S_ .f32 v)
/-- The frame position t at every (b, t), spread through a [1, 8192] row. -/
def idxB : IVec S32x8192 32 :=
  broadcastInDim S32x8192 ![0, 1] bc_S1x8192_S32x8192 (broadcastInDim S1x8192 ![1] bc_S8192_S1x8192 (iotaInDim S8192 32 0))

/-! ## The label chain -/

/-- The frame is kept: its label is neither 0 nor 7. -/
def keepI (L : IVec S32x8192 32) : IVec S32x8192 1 := noti (ori (cmpi .eq L (cI 0#32)) (cmpi .eq L (cI 7#32)))
/-- The label changes between frames t and t+1 (t < 8191). -/
def diff (L : IVec S32x8192 32) : IVec S32x8191 1 :=
  cmpi .ne (extractStridedSlice S32x8191 ![0, 1] L sl_01) (extractStridedSlice S32x8191 ![0, 0] L sl_00)
/-- A run starts at t: t = 0 or the label changed before t. -/
def change (ones : IVec S32x1 1) (L : IVec S32x8192 32) : IVec S32x8192 1 :=
  concatenate S32x8192 1 [⟨S32x1, ones⟩, ⟨S32x8191, diff L⟩] cc_first
/-- A run ends at t: t = 8191 or the label changes after t. -/
def last (ones : IVec S32x1 1) (L : IVec S32x8192 32) : IVec S32x8192 1 :=
  concatenate S32x8192 1 [⟨S32x8191, diff L⟩, ⟨S32x1, ones⟩] cc_last
/-- The running maximum along a row, from the left. -/
def cummax (x : IVec S32x8192 32) : IVec S32x8192 32 :=
  Host.reduceWindow IntOp.maxsi ![1, 8192] ![1, 1] ![0, 8191] ![0, 0] x
    (broadcastInDim S_ ![] bc_S_S_ (constantI S_ 32 2147483648#32)) rw_row h_S_
/-- The running minimum along a row, from the left. -/
def cummin (x : IVec S32x8192 32) : IVec S32x8192 32 :=
  Host.reduceWindow IntOp.minsi ![1, 8192] ![1, 1] ![0, 8191] ![0, 0] x
    (broadcastInDim S_ ![] bc_S_S_ (constantI S_ 32 2147483647#32)) rw_row h_S_
/-- A row reversed. -/
def flip (x : IVec S32x8192 32) : IVec S32x8192 32 := Host.reverse [1] x

/-- The run's first frame, from `w0` = (t where a run starts, else 0). -/
def start (w0 : IVec S32x8192 32) : IVec S32x8192 32 := cummax w0
/-- The run's exclusive end, from `w1` = (t + 1 where a run ends, else 8192). -/
def endx (w1 : IVec S32x8192 32) : IVec S32x8192 32 := flip (cummin (flip w1))
/-- The run's length. -/
def segLen (st en : IVec S32x8192 32) : IVec S32x8192 32 := subi en st
/-- The frame's position inside its run. -/
def pos (st : IVec S32x8192 32) : IVec S32x8192 32 := subi idxB st
/-- The frame's fraction inside its run: pos / max(len − 1, 1). -/
def frac (st en : IVec S32x8192 32) : FVec F S32x8192 .f32 :=
  Host.divf (sitofp .f32 (pos st)) (sitofp .f32 (maxsi (subi (segLen st en) (cI 1#32)) (cI 1#32)))
/-- The loop length: min(run length, start). -/
def lpLen (st en : IVec S32x8192 32) : IVec S32x8192 32 := minsi (segLen st en) st
/-- Python's a mod b for integers (b = 0 read as 1, the sign following b), `oneB` being the constant 1 on the grid. -/
def pymod (oneB : IVec S32x8192 32) (a b : IVec S32x8192 32) : IVec S32x8192 32 :=
  select (andi (cmpi .ne (cmpi .slt (Host.remsi a (select (cmpi .eq b (cI 0#32)) oneB b)) (cI 0#32))
      (cmpi .slt (select (cmpi .eq b (cI 0#32)) oneB b) (cI 0#32)))
      (cmpi .ne (Host.remsi a (select (cmpi .eq b (cI 0#32)) oneB b)) (cI 0#32)))
    (addi (Host.remsi a (select (cmpi .eq b (cI 0#32)) oneB b)) (select (cmpi .eq b (cI 0#32)) oneB b))
    (Host.remsi a (select (cmpi .eq b (cI 0#32)) oneB b))
/-- The loop's source frame, clamped into [0, 8191]; `zeroW` is the constant 0 on the grid. -/
def src (oneB zeroW : IVec S32x8192 32) (st en : IVec S32x8192 32) : IVec S32x8192 32 :=
  minsi (cI 8191#32) (maxsi (cI 0#32)
    (addi (subi st (lpLen st en))
      (select (cmpi .sgt (lpLen st en) (cI 0#32)) (pymod oneB (pos st) (maxsi (lpLen st en) (cI 1#32))) zeroW)))
/-- An index array with negative entries wrapped by n (a no-op on a clamped index; both programs carry it). -/
def wrap (n : BitVec 32) (s : IVec S32x8192 32) : IVec S32x8192 32 := select (cmpi .slt s (cI 0#32)) (addi s (cI n)) s
/-- The loop mask: label 2 and a positive loop length. -/
def loopI (L st en : IVec S32x8192 32) : IVec S32x8192 1 := andi (cmpi .eq L (cI 2#32)) (cmpi .sgt (lpLen st en) (cI 0#32))
/-- The gain: the fraction at label 3, 1 − fraction at 4, 1 − ½·sin(π·fraction) at 6, else 1 (`oneF` the constant 1). -/
def gain (oneF : FVec F S32x8192 .f32) (L st en : IVec S32x8192 32) : FVec F S32x8192 .f32 :=
  select (cmpi .eq L (cI 6#32))
    (subf (cF 0x3F800000#32) (mulf (cF 0x3F000000#32) (Host.sin (mulf (cF 0x40490FDB#32) (frac st en)))))
    (select (cmpi .eq L (cI 4#32)) (subf (cF 0x3F800000#32) (frac st en))
      (select (cmpi .eq L (cI 3#32)) (frac st en) oneF))
/-- The effect mask: label 5. -/
def effI (L : IVec S32x8192 32) : IVec S32x8192 1 := cmpi .eq L (cI 5#32)

end Cert.Spec

end
-- ==== Proof.SpecPrograms.lean ====
/-
  The two programs' own spellings over the common chain (Spec): how each spreads its constants and the frame
  position over the grid, which arrays the kernel's seven operand windows hold, and the reference's result.
  The kernel masks and gathers separately — x[b', s]·keep[b', s] with the pair (b', s) of batch row and source
  frame as a two-component start index — and blends by arithmetic with the 0/1 masks; the reference masks first,
  gathers rows of the masked array under a batch axis, and blends by selection.
-/
import proofs.«180310_j25288767439135_1_alg».proof.Proof.Spec

noncomputable section

namespace Cert.Spec

open Idealize.ShloMosaic

variable {F : FTy → Type} [FloatOps F]

/-! ## The kernel's spellings -/

/-- A column of ones, from a scalar. -/
def onesK : IVec S32x1 1 := broadcastInDim S32x1 ![] bc_S_S32x1 (constantI S_ 1 1#1)
/-- t where a run starts, else 0. -/
def w0K (L : IVec S32x8192 32) : IVec S32x8192 32 := select (change onesK L) idxB (cI 0#32)
/-- t + 1 where a run ends, else 8192. -/
def w1K (L : IVec S32x8192 32) : IVec S32x8192 32 := select (last onesK L) (addi idxB (cI 1#32)) (cI 8192#32)
def stK (L : IVec S32x8192 32) : IVec S32x8192 32 := start (w0K L)
def enK (L : IVec S32x8192 32) : IVec S32x8192 32 := endx (w1K L)
/-- The source frame. -/
def srcK (L : IVec S32x8192 32) : IVec S32x8192 32 := src (cI 1#32) (cI 0#32) (stK L) (enK L)
/-- The batch row b at every (b, t), spread through a [32, 1] column. -/
def bIdx : IVec S32x8192 32 :=
  broadcastInDim S32x8192 ![0, 1] bc_S32x1_S32x8192 (broadcastInDim S32x1 ![0] bc_S32_S32x1 (iotaInDim S32 32 0))
/-- The start indices (b, source frame) of the kernel's two gathers. -/
def gidxK (L : IVec S32x8192 32) : IVec S32x8192x2 32 :=
  concatenate S32x8192x2 2 [⟨S32x8192x1, broadcastInDim S32x8192x1 ![0, 1] bc_S32x8192_S32x8192x1 (wrap 32#32 bIdx)⟩,
    ⟨S32x8192x1, broadcastInDim S32x8192x1 ![0, 1] bc_S32x8192_S32x8192x1 (wrap 8192#32 (srcK L))⟩] cc_pair
/-- x[b', s] for a pair start index, on the mel array. -/
def gPair3 : GatherDims S32x8192x128 S32x8192x2 S32x8192x128 where
  offsetDims := [2]
  collapsedSliceDims := [0, 1]
  operandBatchingDims := []
  startIndicesBatchingDims := []
  startIndexMap := [0, 1]
  indexVectorDim := 2
  sliceSizes := ![1, 1, 128]
  wf := wf_pair3
/-- k[b', s] for a pair start index, on a [32, 8192] array. -/
def gPair2 : GatherDims S32x8192 S32x8192x2 S32x8192 where
  offsetDims := []
  collapsedSliceDims := [0, 1]
  operandBatchingDims := []
  startIndicesBatchingDims := []
  startIndexMap := [0, 1]
  indexVectorDim := 2
  sliceSizes := ![1, 1]
  wf := wf_pair2
/-- Window 1: the source frames' mel rows. -/
def xsrcK (mel : FVec F S32x8192x128 .f32) (L : IVec S32x8192 32) : FVec F S32x8192x128 .f32 := Host.gather gPair3 mel (gidxK L)
/-- Window 2: the keep mask as 0/1. -/
def keepFK (L : IVec S32x8192 32) : FVec F S32x8192 .f32 := uitofp .f32 (keepI L)
/-- Window 3: the keep mask at the source frame. -/
def keepsrcK (L : IVec S32x8192 32) : FVec F S32x8192 .f32 := Host.gather gPair2 (keepFK (F := F) L) (gidxK L)
/-- Window 4: the loop mask as 0/1. -/
def loopFK (L : IVec S32x8192 32) : FVec F S32x8192 .f32 := uitofp .f32 (loopI L (stK L) (enK L))
/-- Window 5: the gain. -/
def gainK (L : IVec S32x8192 32) : FVec F S32x8192 .f32 := gain (cF 0x3F800000#32) L (stK L) (enK L)
/-- Window 6: the effect mask as 0/1. -/
def effFK (L : IVec S32x8192 32) : FVec F S32x8192 .f32 := uitofp .f32 (effI L)

/-! ## The reference's spellings -/

/-- A column of ones, from a one-entry vector. -/
def onesR : IVec S32x1 1 := broadcastInDim S32x1 ![1] bc_S1_S32x1 (constantI S1 1 1#1)
/-- A row [8192] repeated over the 32 batch rows. -/
def spread {α : Type} (x : S8192.Idx → α) : S32x8192.Idx → α := broadcastInDim S32x8192 ![1] bc_S8192_S32x8192 x
/-- An integer constant along a row. -/
def cRow (v : BitVec 32) : IVec S8192 32 := broadcastInDim S8192 ![] bc_S_S8192 (constantI S_ 32 v)
def w0R (L : IVec S32x8192 32) : IVec S32x8192 32 :=
  select (change onesR L) (spread (iotaInDim S8192 32 0)) (spread (cRow 0#32))
def w1R (L : IVec S32x8192 32) : IVec S32x8192 32 :=
  select (last onesR L) (spread (addi (iotaInDim S8192 32 0) (cRow 1#32))) (spread (cRow 8192#32))
def stR (L : IVec S32x8192 32) : IVec S32x8192 32 := start (w0R L)
def enR (L : IVec S32x8192 32) : IVec S32x8192 32 := endx (w1R L)
def srcR (L : IVec S32x8192 32) : IVec S32x8192 32 := src (spread (cRow 1#32)) (spread (cRow 0#32)) (stR L) (enR L)
/-- The constant 1 along a row, repeated over the batch rows. -/
def oneFR : FVec F S32x8192 .f32 := spread (broadcastInDim S8192 ![] bc_S_S8192 (constant S_ .f32 0x3F800000#32))
/-- A [32, 8192] array repeated along the 128 mel channels. -/
def chan {α : Type} (x : S32x8192.Idx → α) : S32x8192x128.Idx → α :=
  broadcastInDim S32x8192x128 ![0, 1, 2] bc_S32x8192x1_S32x8192x128 (broadcastInDim S32x8192x1 ![0, 1] bc_S32x8192_S32x8192x1 x)
/-- The masked mel array: mel · keep. -/
def x10 (mel : FVec F S32x8192x128 .f32) (L : IVec S32x8192 32) : FVec F S32x8192x128 .f32 :=
  mulf mel (broadcastInDim S32x8192x128 ![0, 1, 2] bc_S32x8192x1_S32x8192x128
    (uitofp .f32 (broadcastInDim S32x8192x1 ![0, 1] bc_S32x8192_S32x8192x1 (keepI L))))
/-- Rows of a [32, 8192, 128] array at a per-(b, t) frame index, the batch axis carried along. -/
def gRows : GatherDims S32x8192x128 S32x8192x1 S32x8192x128 where
  offsetDims := [2]
  collapsedSliceDims := [1]
  operandBatchingDims := [0]
  startIndicesBatchingDims := [0]
  startIndexMap := [1]
  indexVectorDim := 2
  sliceSizes := ![1, 1, 128]
  wf := wf_rows
/-- The masked array at the source frame. -/
def x59 (mel : FVec F S32x8192x128 .f32) (L : IVec S32x8192 32) : FVec F S32x8192x128 .f32 :=
  Host.gather gRows (x10 mel L) (broadcastInDim S32x8192x1 ![0, 1] bc_S32x8192_S32x8192x1 (wrap 8192#32 (srcR L)))
/-- The loop blended in by selection. -/
def x60 (mel : FVec F S32x8192x128 .f32) (L : IVec S32x8192 32) : FVec F S32x8192x128 .f32 :=
  select (chan (loopI L (stR L) (enR L))) (x59 mel L) (x10 mel L)
/-- Times the gain. -/
def x82 (mel : FVec F S32x8192x128 .f32) (L : IVec S32x8192 32) : FVec F S32x8192x128 .f32 :=
  mulf (x60 mel L) (chan (gain (oneFR (F := F)) L (stR L) (enR L)))
/-- The low-pass factor per mel channel: 0.3 from channel 64 on, else 1. -/
def lpRow : FVec F S128 .f32 :=
  select (cmpi .sge (iotaInDim S128 32 0) (broadcastInDim S128 ![] bc_S_S128 (constantI S_ 32 64#32)))
    (broadcastInDim S128 ![] bc_S_S128 (constant S_ .f32 0x3E99999A#32))
    (broadcastInDim S128 ![] bc_S_S128 (constant S_ .f32 0x3F800000#32))
/-- The low-pass factor at every (b, t, l). -/
def lp3 : FVec F S32x8192x128 .f32 :=
  broadcastInDim S32x8192x128 ![0, 1, 2] bc_S1x1x128_S32x8192x128
    (broadcastInDim S1x1x128 ![1, 2] bc_S1x128_S1x1x128 (broadcastInDim S1x128 ![1] bc_S128_S1x128 (lpRow (F := F))))
/-- The effect applied by selection. -/
def x95 (mel : FVec F S32x8192x128 .f32) (L : IVec S32x8192 32) : FVec F S32x8192x128 .f32 :=
  select (chan (effI L)) (mulf (x82 mel L) (lp3 (F := F))) (x82 mel L)
/-- The reference's result: clipped into [0, 1]. -/
def outR (mel : FVec F S32x8192x128 .f32) (L : IVec S32x8192 32) : FVec F S32x8192x128 .f32 :=
  minimumf (broadcastInDim S32x8192x128 ![] bc_S_S32x8192x128 (constant S_ .f32 0x3F800000#32))
    (maximumf (broadcastInDim S32x8192x128 ![] bc_S_S32x8192x128 (constant S_ .f32 0x00000000#32)) (x95 mel L))

end Cert.Spec

end
-- ==== Proof.LibAppend.lean ====
/-
  A list in parts: three laws about `l₁ ++ l₂`.

  A property that holds of every member of two lists holds of every member of their concatenation (stated once for
  `List.Forall`, once for `∀ x ∈ l`); and the buffer contents after a straight-line list of operations `l₁ ++ l₂` are the
  contents after `l₂` FROM the contents after `l₁`. With them a long operation list given as a concatenation of short ones is
  handled one short list at a time.
-/
import Idealize.ShloMosaic.Lib.StableHlo.Run

namespace Cert.ListParts

open Idealize.ShloMosaic Idealize.ShloMosaic.StableHlo

/-- `List.Forall` of a concatenation, from its two parts. -/
theorem forall_append {α : Type} {P : α → Prop} {l₁ l₂ : List α} (h₁ : l₁.Forall P) (h₂ : l₂.Forall P) :
    (l₁ ++ l₂).Forall P :=
  List.forall_iff_forall_mem.mpr fun x hx =>
    (List.mem_append.mp hx).elim (List.forall_iff_forall_mem.mp h₁ x) (List.forall_iff_forall_mem.mp h₂ x)

/-- A property of every member of a concatenation, from its two parts. -/
theorem mem_append_all {α : Type} {P : α → Prop} {l₁ l₂ : List α} (h₁ : ∀ x ∈ l₁, P x) (h₂ : ∀ x ∈ l₂, P x) :
    ∀ x ∈ l₁ ++ l₂, P x :=
  fun x hx => (List.mem_append.mp hx).elim (h₁ x) (h₂ x)

/-- The contents after two lists of operations in a row are the second list's, from the first list's. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih (op.result V)

end Cert.ListParts
-- ==== Proof.KernelArrays.lean ====
/-
  What the kernel's seven operand windows stand on when its region is entered: the arrays its host operations
  computed from the two arguments, named by the specification's terms. Window 0 stands on the mel argument
  itself; the others on the gathered source rows, the keep mask, the keep mask at the source frame, the loop
  mask, the gain and the effect mask. The host operations are read in nine stretches — the runs' first frames;
  their ends; the loop length and the fraction; the remainder; the source frame; the loop mask and the gain;
  the start indices; the first gather; the second — each stretch from arbitrary contents, the few arrays it takes
  from earlier stretches standing as they are found, and then put in a row.
-/
import proofs.«180310_j25288767439135_1_alg».proof.Proof.Gen.KernelIdeal.Frame
import proofs.«180310_j25288767439135_1_alg».proof.Proof.SpecPrograms
import proofs.«180310_j25288767439135_1_alg».proof.Proof.LibAppend
import Idealize.ShloMosaic.Lib.StableHlo.Run

set_option maxRecDepth 16384
-- one theorem at a time: each reads a stretch of up to fifty operations, and side by side they hold several gigabytes
set_option Elab.async false

noncomputable section

namespace Cert.KernelLeg

open Cert.KernelIdeal Cert.KernelIdeal.Gen Idealize.ShloMosaic Idealize.ShloMosaic.StableHlo Idealize.ShloMosaic.TcCoe Idealize.SL.Sem

variable {F : FTy → Type} [FloatOps F]

/-- Up to the runs' first frames. -/
abbrev PA1 : List (HloOp τ sig (Elt F)) := hostOps0 ++ (hostOps0_1 ++ hostOps0_2)
/-- From there to the runs' ends. -/
abbrev PA2 : List (HloOp τ sig (Elt F)) := hostOps0_3 ++ (hostOps0_4 ++ (hostOps0_5 ++ (hostOps0_6 ++ hostOps0_7)))
/-- Run length, position, fraction, loop length. -/
abbrev PB1 : List (HloOp τ sig (Elt F)) := hostOps0_8
/-- The remainder. -/
abbrev PB2 : List (HloOp τ sig (Elt F)) := hostOps0_9
/-- The source frame. -/
abbrev PB3 : List (HloOp τ sig (Elt F)) := hostOps0_10 ++ (hostOps0_11 ++ (hostOps0_12 ++ hostOps0_13))
/-- The loop mask and the gain. -/
abbrev PC : List (HloOp τ sig (Elt F)) := hostOps0_14 ++ (hostOps0_15 ++ (hostOps0_16 ++ (hostOps0_17 ++ (hostOps0_18 ++ hostOps0_19))))
/-- The effect mask and the two components of the start indices. -/
abbrev PD1 : List (HloOp τ sig (Elt F)) := hostOps0_20.take 23
/-- The start indices joined, the first gather, and the components again. -/
abbrev PD2 : List (HloOp τ sig (Elt F)) := (hostOps0_20.drop 23).take 18
/-- The start indices joined again and the second gather. -/
abbrev PD3 : List (HloOp τ sig (Elt F)) := (hostOps0_20.drop 23).drop 18

set_option maxHeartbeats 4000000 in
theorem PA1_arg0 (W : Valuation τ sig (Elt F)) : after PA1 W (main_arg0 : DevRef τ sig) = W (main_arg0 : DevRef τ sig) := by
  simp only [PA1, hostOps0, hostOps0_1, hostOps0_2, List.cons_append, List.nil_append]
  after_results_simp

set_option maxHeartbeats 4000000 in
theorem PA1_arg1 (W : Valuation τ sig (Elt F)) : after PA1 W (main_arg1 : DevRef τ sig) = W (main_arg1 : DevRef τ sig) := by
  simp only [PA1, hostOps0, hostOps0_1, hostOps0_2, List.cons_append, List.nil_append]
  after_results_simp

attribute [local irreducible] Host.reduceWindow Host.gather Host.reverse concatenate Host.remsi Host.sin Host.divf in
set_option maxHeartbeats 4000000 in
/-- The frame position on the grid. -/
theorem PA1_v2 (W : Valuation τ sig (Elt F)) :
    after PA1 W (main_v2 : DevRef τ sig) = (Cert.Spec.idxB : IVec Cert.Spec.S32x8192 32) := by
  simp only [PA1, hostOps0, hostOps0_1, hostOps0_2, List.cons_append, List.nil_append]
  after_results_simp
  rfl

attribute [local irreducible] Host.reduceWindow Host.gather Host.reverse concatenate Host.remsi Host.sin Host.divf in
set_option maxHeartbeats 4000000 in
/-- The keep mask as 0/1. -/
theorem PA1_v9 (W : Valuation τ sig (Elt F)) :
    after PA1 W (main_v9 : DevRef τ sig) = (Cert.Spec.keepFK (W (main_arg1 : DevRef τ sig)) : FVec F Cert.Spec.S32x8192 .f32) := by
  simp only [PA1, hostOps0, hostOps0_1, hostOps0_2, List.cons_append, List.nil_append]
  after_results_simp
  rfl

attribute [local irreducible] Host.reduceWindow Host.gather Host.reverse concatenate Host.remsi Host.sin Host.divf in
set_option maxHeartbeats 4000000 in
/-- Where a run ends. -/
theorem PA1_v16 (W : Valuation τ sig (Elt F)) :
    after PA1 W (main_v16 : DevRef τ sig) = Cert.Spec.last Cert.Spec.onesK (W (main_arg1 : DevRef τ sig)) := by
  simp only [PA1, hostOps0, hostOps0_1, hostOps0_2, List.cons_append, List.nil_append]
  after_results_simp
  rfl

attribute [local irreducible] Host.reduceWindow Host.gather Host.reverse concatenate Host.remsi Host.sin Host.divf in
set_option maxHeartbeats 4000000 in
/-- The run's first frame. -/
theorem PA1_v18 (W : Valuation τ sig (Elt F)) :
    after PA1 W (main_v18 : DevRef τ sig) = Cert.Spec.stK (W (main_arg1 : DevRef τ sig)) := by
  simp only [PA1, hostOps0, hostOps0_1, hostOps0_2, List.cons_append, List.nil_append]
  after_results_simp
  rfl

set_option maxHeartbeats 4000000 in
theorem PA2_arg0 (W : Valuation τ sig (Elt F)) : after PA2 W (main_arg0 : DevRef τ sig) = W (main_arg0 : DevRef τ sig) := by
  simp only [PA2, hostOps0_3, hostOps0_4, hostOps0_5, hostOps0_6, hostOps0_7, List.cons_append, List.nil_append]
  after_results_simp

set_option maxHeartbeats 4000000 in
theorem PA2_arg1 (W : Valuation τ sig (Elt F)) : after PA2 W (main_arg1 : DevRef τ sig) = W (main_arg1 : DevRef τ sig) := by
  simp only [PA2, hostOps0_3, hostOps0_4, hostOps0_5, hostOps0_6, hostOps0_7, List.cons_append, List.nil_append]
  after_results_simp

set_option maxHeartbeats 4000000 in
theorem PA2_v2 (W : Valuation τ sig (Elt F)) : after PA2 W (main_v2 : DevRef τ sig) = W (main_v2 : DevRef τ sig) := by
  simp only [PA2, hostOps0_3, hostOps0_4, hostOps0_5, hostOps0_6, hostOps0_7, List.cons_append, List.nil_append]
  after_results_simp

set_option maxHeartbeats 4000000 in
theorem PA2_v9 (W : Valuation τ sig (Elt F)) : after PA2 W (main_v9 : DevRef τ sig) = W (main_v9 : DevRef τ sig) := by
  simp only [PA2, hostOps0_3, hostOps0_4, hostOps0_5, hostOps0_6, hostOps0_7, List.cons_append, List.nil_append]
  after_results_simp

set_option maxHeartbeats 4000000 in
theorem PA2_v18 (W : Valuation τ sig (Elt F)) : after PA2 W (main_v18 : DevRef τ sig) = W (main_v18 : DevRef τ sig) := by
  simp only [PA2, hostOps0_3, hostOps0_4, hostOps0_5, hostOps0_6, hostOps0_7, List.cons_append, List.nil_append]
  after_results_simp

attribute [local irreducible] Host.reduceWindow Host.gather Host.reverse concatenate Host.remsi Host.sin Host.divf in
set_option maxHeartbeats 4000000 in
/-- The run's exclusive end, from where runs end and the position. -/
theorem PA2_v24 (W : Valuation τ sig (Elt F)) :
    after PA2 W (main_v24 : DevRef τ sig) = Cert.Spec.endx (select (W (main_v16 : DevRef τ sig)) (addi (W (main_v2 : DevRef τ sig)) (Cert.Spec.cI 1#32)) (Cert.Spec.cI 8192#32)) := by
  simp only [PA2, hostOps0_3, hostOps0_4, hostOps0_5, hostOps0_6, hostOps0_7, List.cons_append, List.nil_append]
  after_results_simp
  rfl

set_option maxHeartbeats 4000000 in
theorem PB1_arg0 (W : Valuation τ sig (Elt F)) : after PB1 W (main_arg0 : DevRef τ sig) = W (main_arg0 : DevRef τ sig) := by
  simp only [PB1, hostOps0_8]
  after_results_simp

set_option maxHeartbeats 4000000 in
theorem PB1_arg1 (W : Valuation τ sig (Elt F)) : after PB1 W (main_arg1 : DevRef τ sig) = W (main_arg1 : DevRef τ sig) := by
  simp only [PB1, hostOps0_8]
  after_results_simp

set_option maxHeartbeats 4000000 in
theorem PB1_v9 (W : Valuation τ sig (Elt F)) : after PB1 W (main_v9 : DevRef τ sig) = W (main_v9 : DevRef τ sig) := by
  simp only [PB1, hostOps0_8]
  after_results_simp

attribute [local irreducible] Host.reduceWindow Host.gather Host.reverse concatenate Host.remsi Host.sin Host.divf in
set_option maxHeartbeats 4000000 in
/-- The position inside the run. -/
theorem PB1_v26 (W : Valuation τ sig (Elt F)) :
    after PB1 W (main_v26 : DevRef τ sig) = subi (W (main_v2 : DevRef τ sig)) (W (main_v18 : DevRef τ sig)) := by
  simp only [PB1, hostOps0_8]
  after_results_simp

attribute [local irreducible] Host.reduceWindow Host.gather Host.reverse concatenate Host.remsi Host.sin Host.divf in
set_option maxHeartbeats 4000000 in
/-- The fraction inside the run. -/
theorem PB1_v33 (W : Valuation τ sig (Elt F)) (h2 : (W (main_v2 : DevRef τ sig)) = (Cert.Spec.idxB : IVec Cert.Spec.S32x8192 32)) :
    after PB1 W (main_v33 : DevRef τ sig) = (Cert.Spec.frac (W (main_v18 : DevRef τ sig)) (W (main_v24 : DevRef τ sig)) : FVec F Cert.Spec.S32x8192 .f32) := by
  simp only [PB1, hostOps0_8]
  after_results_simp
  rw [h2]
  rfl

attribute [local irreducible] Host.reduceWindow Host.gather Host.reverse concatenate Host.remsi Host.sin Host.divf in
set_option maxHeartbeats 4000000 in
/-- The loop length. -/
theorem PB1_v34 (W : Valuation τ sig (Elt F)) :
    after PB1 W (main_v34 : DevRef τ sig) = (Cert.Spec.lpLen (W (main_v18 : DevRef τ sig)) (W (main_v24 : DevRef τ sig))) := by
  simp only [PB1, hostOps0_8]
  after_results_simp
  rfl

attribute [local irreducible] Host.reduceWindow Host.gather Host.reverse concatenate Host.remsi Host.sin Host.divf in
set_option maxHeartbeats 4000000 in
/-- The first frame less the loop length. -/
theorem PB1_v35 (W : Valuation τ sig (Elt F)) :
    after PB1 W (main_v35 : DevRef τ sig) = subi (W (main_v18 : DevRef τ sig)) (Cert.Spec.lpLen (W (main_v18 : DevRef τ sig)) (W (main_v24 : DevRef τ sig))) := by
  simp only [PB1, hostOps0_8]
  after_results_simp
  rfl

attribute [local irreducible] Host.reduceWindow Host.gather Host.reverse concatenate Host.remsi Host.sin Host.divf in
set_option maxHeartbeats 4000000 in
/-- The loop length is positive. -/
theorem PB1_v37 (W : Valuation τ sig (Elt F)) :
    after PB1 W (main_v37 : DevRef τ sig) = cmpi .sgt (Cert.Spec.lpLen (W (main_v18 : DevRef τ sig)) (W (main_v24 : DevRef τ sig))) (Cert.Spec.cI 0#32) := by
  simp only [PB1, hostOps0_8]
  after_results_simp
  rfl

attribute [local irreducible] Host.reduceWindow Host.gather Host.reverse concatenate Host.remsi Host.sin Host.divf in
set_option maxHeartbeats 4000000 in
/-- The loop length, at least 1. -/
theorem PB1_v39 (W : Valuation τ sig (Elt F)) :
    after PB1 W (main_v39 : DevRef τ sig) = maxsi (Cert.Spec.lpLen (W (main_v18 : DevRef τ sig)) (W (main_v24 : DevRef τ sig))) (Cert.Spec.cI 1#32) := by
  simp only [PB1, hostOps0_8]
  after_results_simp
  rfl

set_option maxHeartbeats 4000000 in
theorem PB2_arg0 (W : Valuation τ sig (Elt F)) : after PB2 W (main_arg0 : DevRef τ sig) = W (main_arg0 : DevRef τ sig) := by
  simp only [PB2, hostOps0_9]
  after_results_simp

set_option maxHeartbeats 4000000 in
theorem PB2_arg1 (W : Valuation τ sig (Elt F)) : after PB2 W (main_arg1 : DevRef τ sig) = W (main_arg1 : DevRef τ sig) := by
  simp only [PB2, hostOps0_9]
  after_results_simp

set_option maxHeartbeats 4000000 in
theorem PB2_v9 (W : Valuation τ sig (Elt F)) : after PB2 W (main_v9 : DevRef τ sig) = W (main_v9 : DevRef τ sig) := by
  simp only [PB2, hostOps0_9]
  after_results_simp

set_option maxHeartbeats 4000000 in
theorem PB2_v33 (W : Valuation τ sig (Elt F)) : after PB2 W (main_v33 : DevRef τ sig) = W (main_v33 : DevRef τ sig) := by
  simp only [PB2, hostOps0_9]
  after_results_simp

set_option maxHeartbeats 4000000 in
theorem PB2_v34 (W : Valuation τ sig (Elt F)) : after PB2 W (main_v34 : DevRef τ sig) = W (main_v34 : DevRef τ sig) := by
  simp only [PB2, hostOps0_9]
  after_results_simp

set_option maxHeartbeats 4000000 in
theorem PB2_v35 (W : Valuation τ sig (Elt F)) : after PB2 W (main_v35 : DevRef τ sig) = W (main_v35 : DevRef τ sig) := by
  simp only [PB2, hostOps0_9]
  after_results_simp

set_option maxHeartbeats 4000000 in
theorem PB2_v37 (W : Valuation τ sig (Elt F)) : after PB2 W (main_v37 : DevRef τ sig) = W (main_v37 : DevRef τ sig) := by
  simp only [PB2, hostOps0_9]
  after_results_simp

attribute [local irreducible] Host.reduceWindow Host.gather Host.reverse concatenate Host.remsi Host.sin Host.divf in
set_option maxHeartbeats 4000000 in
/-- The position modulo the loop length. -/
theorem PB2_v40 (W : Valuation τ sig (Elt F)) :
    after PB2 W (main_v40 : DevRef τ sig) = Cert.Spec.pymod (Cert.Spec.cI 1#32) (W (main_v26 : DevRef τ sig)) (W (main_v39 : DevRef τ sig)) := by
  simp only [PB2, hostOps0_9]
  after_results_simp
  rfl

set_option maxHeartbeats 4000000 in
theorem PB3_arg0 (W : Valuation τ sig (Elt F)) : after PB3 W (main_arg0 : DevRef τ sig) = W (main_arg0 : DevRef τ sig) := by
  simp only [PB3, hostOps0_10, hostOps0_11, hostOps0_12, hostOps0_13, List.cons_append, List.nil_append]
  after_results_simp

set_option maxHeartbeats 4000000 in
theorem PB3_arg1 (W : Valuation τ sig (Elt F)) : after PB3 W (main_arg1 : DevRef τ sig) = W (main_arg1 : DevRef τ sig) := by
  simp only [PB3, hostOps0_10, hostOps0_11, hostOps0_12, hostOps0_13, List.cons_append, List.nil_append]
  after_results_simp

set_option maxHeartbeats 4000000 in
theorem PB3_v9 (W : Valuation τ sig (Elt F)) : after PB3 W (main_v9 : DevRef τ sig) = W (main_v9 : DevRef τ sig) := by
  simp only [PB3, hostOps0_10, hostOps0_11, hostOps0_12, hostOps0_13, List.cons_append, List.nil_append]
  after_results_simp

set_option maxHeartbeats 4000000 in
theorem PB3_v33 (W : Valuation τ sig (Elt F)) : after PB3 W (main_v33 : DevRef τ sig) = W (main_v33 : DevRef τ sig) := by
  simp only [PB3, hostOps0_10, hostOps0_11, hostOps0_12, hostOps0_13, List.cons_append, List.nil_append]
  after_results_simp

set_option maxHeartbeats 4000000 in
theorem PB3_v34 (W : Valuation τ sig (Elt F)) : after PB3 W (main_v34 : DevRef τ sig) = W (main_v34 : DevRef τ sig) := by
  simp only [PB3, hostOps0_10, hostOps0_11, hostOps0_12, hostOps0_13, List.cons_append, List.nil_append]
  after_results_simp

attribute [local irreducible] Host.reduceWindow Host.gather Host.reverse concatenate Host.remsi Host.sin Host.divf in
set_option maxHeartbeats 4000000 in
/-- The source frame, clamped. -/
theorem PB3_v43 (W : Valuation τ sig (Elt F)) :
    after PB3 W (main_v43 : DevRef τ sig) = minsi (Cert.Spec.cI 8191#32) (maxsi (Cert.Spec.cI 0#32) (addi (W (main_v35 : DevRef τ sig)) (select (W (main_v37 : DevRef τ sig)) (W (main_v40 : DevRef τ sig)) (Cert.Spec.cI 0#32)))) := by
  simp only [PB3, hostOps0_10, hostOps0_11, hostOps0_12, hostOps0_13, List.cons_append, List.nil_append]
  after_results_simp
  rfl

set_option maxHeartbeats 4000000 in
theorem PC_arg0 (W : Valuation τ sig (Elt F)) : after PC W (main_arg0 : DevRef τ sig) = W (main_arg0 : DevRef τ sig) := by
  simp only [PC, hostOps0_14, hostOps0_15, hostOps0_16, hostOps0_17, hostOps0_18, hostOps0_19, List.cons_append, List.nil_append]
  after_results_simp

set_option maxHeartbeats 4000000 in
theorem PC_arg1 (W : Valuation τ sig (Elt F)) : after PC W (main_arg1 : DevRef τ sig) = W (main_arg1 : DevRef τ sig) := by
  simp only [PC, hostOps0_14, hostOps0_15, hostOps0_16, hostOps0_17, hostOps0_18, hostOps0_19, List.cons_append, List.nil_append]
  after_results_simp

set_option maxHeartbeats 4000000 in
theorem PC_v9 (W : Valuation τ sig (Elt F)) : after PC W (main_v9 : DevRef τ sig) = W (main_v9 : DevRef τ sig) := by
  simp only [PC, hostOps0_14, hostOps0_15, hostOps0_16, hostOps0_17, hostOps0_18, hostOps0_19, List.cons_append, List.nil_append]
  after_results_simp

set_option maxHeartbeats 4000000 in
theorem PC_v43 (W : Valuation τ sig (Elt F)) : after PC W (main_v43 : DevRef τ sig) = W (main_v43 : DevRef τ sig) := by
  simp only [PC, hostOps0_14, hostOps0_15, hostOps0_16, hostOps0_17, hostOps0_18, hostOps0_19, List.cons_append, List.nil_append]
  after_results_simp

attribute [local irreducible] Host.reduceWindow Host.gather Host.reverse concatenate Host.remsi Host.sin Host.divf in
set_option maxHeartbeats 4000000 in
/-- The loop mask as 0/1, from the loop length. -/
theorem PC_v49 (W : Valuation τ sig (Elt F)) (st en : IVec Cert.Spec.S32x8192 32) (h34 : (W (main_v34 : DevRef τ sig)) = Cert.Spec.lpLen st en) :
    after PC W (main_v49 : DevRef τ sig) = (uitofp .f32 (Cert.Spec.loopI (W (main_arg1 : DevRef τ sig)) st en) : FVec F Cert.Spec.S32x8192 .f32) := by
  simp only [PC, hostOps0_14, hostOps0_15, hostOps0_16, hostOps0_17, hostOps0_18, hostOps0_19, List.cons_append, List.nil_append]
  after_results_simp
  rw [h34]
  rfl

attribute [local irreducible] Host.reduceWindow Host.gather Host.reverse concatenate Host.remsi Host.sin Host.divf in
set_option maxHeartbeats 4000000 in
/-- The gain, from the fraction. -/
theorem PC_v68 (W : Valuation τ sig (Elt F)) (st en : IVec Cert.Spec.S32x8192 32) (h33 : (W (main_v33 : DevRef τ sig)) = (Cert.Spec.frac st en : FVec F Cert.Spec.S32x8192 .f32)) :
    after PC W (main_v68 : DevRef τ sig) = (Cert.Spec.gain (Cert.Spec.cF 0x3F800000#32) (W (main_arg1 : DevRef τ sig)) st en : FVec F Cert.Spec.S32x8192 .f32) := by
  simp only [PC, hostOps0_14, hostOps0_15, hostOps0_16, hostOps0_17, hostOps0_18, hostOps0_19, List.cons_append, List.nil_append]
  after_results_simp
  rw [h33]
  rfl

set_option maxHeartbeats 4000000 in
theorem PD1_arg0 (W : Valuation τ sig (Elt F)) : after PD1 W (main_arg0 : DevRef τ sig) = W (main_arg0 : DevRef τ sig) := by
  simp only [PD1, hostOps0_20, List.take_succ_cons, List.take_zero]
  after_results_simp

set_option maxHeartbeats 4000000 in
theorem PD1_v9 (W : Valuation τ sig (Elt F)) : after PD1 W (main_v9 : DevRef τ sig) = W (main_v9 : DevRef τ sig) := by
  simp only [PD1, hostOps0_20, List.take_succ_cons, List.take_zero]
  after_results_simp

set_option maxHeartbeats 4000000 in
theorem PD1_v43 (W : Valuation τ sig (Elt F)) : after PD1 W (main_v43 : DevRef τ sig) = W (main_v43 : DevRef τ sig) := by
  simp only [PD1, hostOps0_20, List.take_succ_cons, List.take_zero]
  after_results_simp

set_option maxHeartbeats 4000000 in
theorem PD1_v49 (W : Valuation τ sig (Elt F)) : after PD1 W (main_v49 : DevRef τ sig) = W (main_v49 : DevRef τ sig) := by
  simp only [PD1, hostOps0_20, List.take_succ_cons, List.take_zero]
  after_results_simp

set_option maxHeartbeats 4000000 in
theorem PD1_v68 (W : Valuation τ sig (Elt F)) : after PD1 W (main_v68 : DevRef τ sig) = W (main_v68 : DevRef τ sig) := by
  simp only [PD1, hostOps0_20, List.take_succ_cons, List.take_zero]
  after_results_simp

attribute [local irreducible] Host.reduceWindow Host.gather Host.reverse concatenate Host.remsi Host.sin Host.divf in
set_option maxHeartbeats 4000000 in
/-- The effect mask as 0/1. -/
theorem PD1_v71 (W : Valuation τ sig (Elt F)) :
    after PD1 W (main_v71 : DevRef τ sig) = (Cert.Spec.effFK (W (main_arg1 : DevRef τ sig)) : FVec F Cert.Spec.S32x8192 .f32) := by
  simp only [PD1, hostOps0_20, List.take_succ_cons, List.take_zero]
  after_results_simp
  rfl

attribute [local irreducible] Host.reduceWindow Host.gather Host.reverse concatenate Host.remsi Host.sin Host.divf in
set_option maxHeartbeats 4000000 in
/-- The batch row on the grid. -/
theorem PD1_v74 (W : Valuation τ sig (Elt F)) :
    after PD1 W (main_v74 : DevRef τ sig) = (Cert.Spec.bIdx : IVec Cert.Spec.S32x8192 32) := by
  simp only [PD1, hostOps0_20, List.take_succ_cons, List.take_zero]
  after_results_simp
  rfl

attribute [local irreducible] Host.reduceWindow Host.gather Host.reverse concatenate Host.remsi Host.sin Host.divf in
set_option maxHeartbeats 4000000 in
/-- The batch component of the start indices. -/
theorem PD1_v85 (W : Valuation τ sig (Elt F)) :
    after PD1 W (main_v85 : DevRef τ sig) = broadcastInDim Cert.Spec.S32x8192x1 ![0, 1] Cert.Spec.bc_S32x8192_S32x8192x1 (Cert.Spec.wrap 32#32 Cert.Spec.bIdx) := by
  simp only [PD1, hostOps0_20, List.take_succ_cons, List.take_zero]
  after_results_simp
  rfl

attribute [local irreducible] Host.reduceWindow Host.gather Host.reverse concatenate Host.remsi Host.sin Host.divf in
set_option maxHeartbeats 4000000 in
/-- The frame component of the start indices. -/
theorem PD1_v86 (W : Valuation τ sig (Elt F)) :
    after PD1 W (main_v86 : DevRef τ sig) = broadcastInDim Cert.Spec.S32x8192x1 ![0, 1] Cert.Spec.bc_S32x8192_S32x8192x1 (Cert.Spec.wrap 8192#32 (W (main_v43 : DevRef τ sig))) := by
  simp only [PD1, hostOps0_20, List.take_succ_cons, List.take_zero]
  after_results_simp
  rfl

set_option maxHeartbeats 4000000 in
theorem PD2_v9 (W : Valuation τ sig (Elt F)) : after PD2 W (main_v9 : DevRef τ sig) = W (main_v9 : DevRef τ sig) := by
  simp only [PD2, hostOps0_20, List.drop_succ_cons, List.drop_zero, List.take_succ_cons, List.take_zero]
  after_results_simp

set_option maxHeartbeats 4000000 in
theorem PD2_v49 (W : Valuation τ sig (Elt F)) : after PD2 W (main_v49 : DevRef τ sig) = W (main_v49 : DevRef τ sig) := by
  simp only [PD2, hostOps0_20, List.drop_succ_cons, List.drop_zero, List.take_succ_cons, List.take_zero]
  after_results_simp

set_option maxHeartbeats 4000000 in
theorem PD2_v68 (W : Valuation τ sig (Elt F)) : after PD2 W (main_v68 : DevRef τ sig) = W (main_v68 : DevRef τ sig) := by
  simp only [PD2, hostOps0_20, List.drop_succ_cons, List.drop_zero, List.take_succ_cons, List.take_zero]
  after_results_simp

set_option maxHeartbeats 4000000 in
theorem PD2_v71 (W : Valuation τ sig (Elt F)) : after PD2 W (main_v71 : DevRef τ sig) = W (main_v71 : DevRef τ sig) := by
  simp only [PD2, hostOps0_20, List.drop_succ_cons, List.drop_zero, List.take_succ_cons, List.take_zero]
  after_results_simp

attribute [local irreducible] Host.reduceWindow Host.gather Host.reverse concatenate Host.remsi Host.sin Host.divf in
set_option maxHeartbeats 4000000 in
/-- The gathered source rows, from the two components of the start indices. -/
theorem PD2_v88 (W : Valuation τ sig (Elt F)) (a b : IVec Cert.Spec.S32x8192x1 32) (ha : (W (main_v85 : DevRef τ sig)) = a) (hb : (W (main_v86 : DevRef τ sig)) = b) :
    after PD2 W (main_v88 : DevRef τ sig) = (Host.gather Cert.Spec.gPair3 (W (main_arg0 : DevRef τ sig)) (concatenate Cert.Spec.S32x8192x2 2 [⟨Cert.Spec.S32x8192x1, a⟩, ⟨Cert.Spec.S32x8192x1, b⟩] Cert.Spec.cc_pair) : FVec F Cert.Spec.S32x8192x128 .f32) := by
  subst ha hb
  simp only [PD2, hostOps0_20, List.drop_succ_cons, List.drop_zero, List.take_succ_cons, List.take_zero]
  after_results_simp
  rfl

attribute [local irreducible] Host.reduceWindow Host.gather Host.reverse concatenate Host.remsi Host.sin Host.divf in
set_option maxHeartbeats 4000000 in
/-- The batch component again. -/
theorem PD2_v99 (W : Valuation τ sig (Elt F)) :
    after PD2 W (main_v99 : DevRef τ sig) = broadcastInDim Cert.Spec.S32x8192x1 ![0, 1] Cert.Spec.bc_S32x8192_S32x8192x1 (Cert.Spec.wrap 32#32 (W (main_v74 : DevRef τ sig))) := by
  simp only [PD2, hostOps0_20, List.drop_succ_cons, List.drop_zero, List.take_succ_cons, List.take_zero]
  after_results_simp
  rfl

attribute [local irreducible] Host.reduceWindow Host.gather Host.reverse concatenate Host.remsi Host.sin Host.divf in
set_option maxHeartbeats 4000000 in
/-- The frame component again. -/
theorem PD2_v100 (W : Valuation τ sig (Elt F)) :
    after PD2 W (main_v100 : DevRef τ sig) = broadcastInDim Cert.Spec.S32x8192x1 ![0, 1] Cert.Spec.bc_S32x8192_S32x8192x1 (Cert.Spec.wrap 8192#32 (W (main_v43 : DevRef τ sig))) := by
  simp only [PD2, hostOps0_20, List.drop_succ_cons, List.drop_zero, List.take_succ_cons, List.take_zero]
  after_results_simp
  rfl

set_option maxHeartbeats 4000000 in
theorem PD3_v9 (W : Valuation τ sig (Elt F)) : after PD3 W (main_v9 : DevRef τ sig) = W (main_v9 : DevRef τ sig) := by
  simp only [PD3, hostOps0_20, List.drop_succ_cons, List.drop_zero]
  after_results_simp

set_option maxHeartbeats 4000000 in
theorem PD3_v49 (W : Valuation τ sig (Elt F)) : after PD3 W (main_v49 : DevRef τ sig) = W (main_v49 : DevRef τ sig) := by
  simp only [PD3, hostOps0_20, List.drop_succ_cons, List.drop_zero]
  after_results_simp

set_option maxHeartbeats 4000000 in
theorem PD3_v68 (W : Valuation τ sig (Elt F)) : after PD3 W (main_v68 : DevRef τ sig) = W (main_v68 : DevRef τ sig) := by
  simp only [PD3, hostOps0_20, List.drop_succ_cons, List.drop_zero]
  after_results_simp

set_option maxHeartbeats 4000000 in
theorem PD3_v71 (W : Valuation τ sig (Elt F)) : after PD3 W (main_v71 : DevRef τ sig) = W (main_v71 : DevRef τ sig) := by
  simp only [PD3, hostOps0_20, List.drop_succ_cons, List.drop_zero]
  after_results_simp

set_option maxHeartbeats 4000000 in
theorem PD3_v88 (W : Valuation τ sig (Elt F)) : after PD3 W (main_v88 : DevRef τ sig) = W (main_v88 : DevRef τ sig) := by
  simp only [PD3, hostOps0_20, List.drop_succ_cons, List.drop_zero]
  after_results_simp

attribute [local irreducible] Host.reduceWindow Host.gather Host.reverse concatenate Host.remsi Host.sin Host.divf in
set_option maxHeartbeats 4000000 in
/-- The keep mask gathered, from the two components of the start indices. -/
theorem PD3_v102 (W : Valuation τ sig (Elt F)) (a b : IVec Cert.Spec.S32x8192x1 32) (ha : (W (main_v99 : DevRef τ sig)) = a) (hb : (W (main_v100 : DevRef τ sig)) = b) :
    after PD3 W (main_v102 : DevRef τ sig) = (Host.gather Cert.Spec.gPair2 (W (main_v9 : DevRef τ sig)) (concatenate Cert.Spec.S32x8192x2 2 [⟨Cert.Spec.S32x8192x1, a⟩, ⟨Cert.Spec.S32x8192x1, b⟩] Cert.Spec.cc_pair) : FVec F Cert.Spec.S32x8192 .f32) := by
  subst ha hb
  simp only [PD3, hostOps0_20, List.drop_succ_cons, List.drop_zero]
  after_results_simp
  rfl

/-! ## The stretches in a row, from arbitrary contents W0: L = W0 at the labels, M = W0 at the mel array -/

variable (W0 : Valuation τ sig (Elt F))

theorem X2_arg0 : after PA2 (after PA1 W0) (main_arg0 : DevRef τ sig) = W0 (main_arg0 : DevRef τ sig) := by
  rw [PA2_arg0, PA1_arg0]
theorem X2_arg1 : after PA2 (after PA1 W0) (main_arg1 : DevRef τ sig) = W0 (main_arg1 : DevRef τ sig) := by
  rw [PA2_arg1, PA1_arg1]
theorem X2_v2 : after PA2 (after PA1 W0) (main_v2 : DevRef τ sig) = (Cert.Spec.idxB : IVec Cert.Spec.S32x8192 32) := by
  rw [PA2_v2, PA1_v2]
theorem X2_v9 : after PA2 (after PA1 W0) (main_v9 : DevRef τ sig) = (Cert.Spec.keepFK (W0 (main_arg1 : DevRef τ sig)) : FVec F Cert.Spec.S32x8192 .f32) := by
  rw [PA2_v9, PA1_v9]
theorem X2_v18 : after PA2 (after PA1 W0) (main_v18 : DevRef τ sig) = Cert.Spec.stK (W0 (main_arg1 : DevRef τ sig)) := by
  rw [PA2_v18, PA1_v18]
theorem X2_v24 : after PA2 (after PA1 W0) (main_v24 : DevRef τ sig) = Cert.Spec.enK (W0 (main_arg1 : DevRef τ sig)) := by
  rw [PA2_v24, PA1_v16, PA1_v2]; rfl
theorem X3_arg0 : after PB1 (after PA2 (after PA1 W0)) (main_arg0 : DevRef τ sig) = W0 (main_arg0 : DevRef τ sig) := by
  rw [PB1_arg0, X2_arg0]
theorem X3_arg1 : after PB1 (after PA2 (after PA1 W0)) (main_arg1 : DevRef τ sig) = W0 (main_arg1 : DevRef τ sig) := by
  rw [PB1_arg1, X2_arg1]
theorem X3_v9 : after PB1 (after PA2 (after PA1 W0)) (main_v9 : DevRef τ sig) = (Cert.Spec.keepFK (W0 (main_arg1 : DevRef τ sig)) : FVec F Cert.Spec.S32x8192 .f32) := by
  rw [PB1_v9, X2_v9]
theorem X3_v26 : after PB1 (after PA2 (after PA1 W0)) (main_v26 : DevRef τ sig) = Cert.Spec.pos (Cert.Spec.stK (W0 (main_arg1 : DevRef τ sig))) := by
  rw [PB1_v26, X2_v2, X2_v18]; rfl
theorem X3_v33 : after PB1 (after PA2 (after PA1 W0)) (main_v33 : DevRef τ sig) = (Cert.Spec.frac (Cert.Spec.stK (W0 (main_arg1 : DevRef τ sig))) (Cert.Spec.enK (W0 (main_arg1 : DevRef τ sig))) : FVec F Cert.Spec.S32x8192 .f32) := by
  rw [PB1_v33 _ (X2_v2 W0), X2_v18, X2_v24]
theorem X3_v34 : after PB1 (after PA2 (after PA1 W0)) (main_v34 : DevRef τ sig) = (Cert.Spec.lpLen (Cert.Spec.stK (W0 (main_arg1 : DevRef τ sig))) (Cert.Spec.enK (W0 (main_arg1 : DevRef τ sig)))) := by
  rw [PB1_v34, X2_v18, X2_v24]
theorem X3_v35 : after PB1 (after PA2 (after PA1 W0)) (main_v35 : DevRef τ sig) = subi (Cert.Spec.stK (W0 (main_arg1 : DevRef τ sig))) (Cert.Spec.lpLen (Cert.Spec.stK (W0 (main_arg1 : DevRef τ sig))) (Cert.Spec.enK (W0 (main_arg1 : DevRef τ sig)))) := by
  rw [PB1_v35, X2_v18, X2_v24]
theorem X3_v37 : after PB1 (after PA2 (after PA1 W0)) (main_v37 : DevRef τ sig) = cmpi .sgt (Cert.Spec.lpLen (Cert.Spec.stK (W0 (main_arg1 : DevRef τ sig))) (Cert.Spec.enK (W0 (main_arg1 : DevRef τ sig)))) (Cert.Spec.cI 0#32) := by
  rw [PB1_v37, X2_v18, X2_v24]
theorem X3_v39 : after PB1 (after PA2 (after PA1 W0)) (main_v39 : DevRef τ sig) = maxsi (Cert.Spec.lpLen (Cert.Spec.stK (W0 (main_arg1 : DevRef τ sig))) (Cert.Spec.enK (W0 (main_arg1 : DevRef τ sig)))) (Cert.Spec.cI 1#32) := by
  rw [PB1_v39, X2_v18, X2_v24]
theorem X4_arg0 : after PB2 (after PB1 (after PA2 (after PA1 W0))) (main_arg0 : DevRef τ sig) = W0 (main_arg0 : DevRef τ sig) := by
  rw [PB2_arg0, X3_arg0]
theorem X4_arg1 : after PB2 (after PB1 (after PA2 (after PA1 W0))) (main_arg1 : DevRef τ sig) = W0 (main_arg1 : DevRef τ sig) := by
  rw [PB2_arg1, X3_arg1]
theorem X4_v9 : after PB2 (after PB1 (after PA2 (after PA1 W0))) (main_v9 : DevRef τ sig) = (Cert.Spec.keepFK (W0 (main_arg1 : DevRef τ sig)) : FVec F Cert.Spec.S32x8192 .f32) := by
  rw [PB2_v9, X3_v9]
theorem X4_v33 : after PB2 (after PB1 (after PA2 (after PA1 W0))) (main_v33 : DevRef τ sig) = (Cert.Spec.frac (Cert.Spec.stK (W0 (main_arg1 : DevRef τ sig))) (Cert.Spec.enK (W0 (main_arg1 : DevRef τ sig))) : FVec F Cert.Spec.S32x8192 .f32) := by
  rw [PB2_v33, X3_v33]
theorem X4_v34 : after PB2 (after PB1 (after PA2 (after PA1 W0))) (main_v34 : DevRef τ sig) = (Cert.Spec.lpLen (Cert.Spec.stK (W0 (main_arg1 : DevRef τ sig))) (Cert.Spec.enK (W0 (main_arg1 : DevRef τ sig)))) := by
  rw [PB2_v34, X3_v34]
theorem X4_v35 : after PB2 (after PB1 (after PA2 (after PA1 W0))) (main_v35 : DevRef τ sig) = subi (Cert.Spec.stK (W0 (main_arg1 : DevRef τ sig))) (Cert.Spec.lpLen (Cert.Spec.stK (W0 (main_arg1 : DevRef τ sig))) (Cert.Spec.enK (W0 (main_arg1 : DevRef τ sig)))) := by
  rw [PB2_v35, X3_v35]
theorem X4_v37 : after PB2 (after PB1 (after PA2 (after PA1 W0))) (main_v37 : DevRef τ sig) = cmpi .sgt (Cert.Spec.lpLen (Cert.Spec.stK (W0 (main_arg1 : DevRef τ sig))) (Cert.Spec.enK (W0 (main_arg1 : DevRef τ sig)))) (Cert.Spec.cI 0#32) := by
  rw [PB2_v37, X3_v37]
theorem X4_v40 : after PB2 (after PB1 (after PA2 (after PA1 W0))) (main_v40 : DevRef τ sig) = Cert.Spec.pymod (Cert.Spec.cI 1#32) (Cert.Spec.pos (Cert.Spec.stK (W0 (main_arg1 : DevRef τ sig)))) (maxsi (Cert.Spec.lpLen (Cert.Spec.stK (W0 (main_arg1 : DevRef τ sig))) (Cert.Spec.enK (W0 (main_arg1 : DevRef τ sig)))) (Cert.Spec.cI 1#32)) := by
  rw [PB2_v40, X3_v26, X3_v39]
theorem X5_arg0 : after PB3 (after PB2 (after PB1 (after PA2 (after PA1 W0)))) (main_arg0 : DevRef τ sig) = W0 (main_arg0 : DevRef τ sig) := by
  rw [PB3_arg0, X4_arg0]
theorem X5_arg1 : after PB3 (after PB2 (after PB1 (after PA2 (after PA1 W0)))) (main_arg1 : DevRef τ sig) = W0 (main_arg1 : DevRef τ sig) := by
  rw [PB3_arg1, X4_arg1]
theorem X5_v9 : after PB3 (after PB2 (after PB1 (after PA2 (after PA1 W0)))) (main_v9 : DevRef τ sig) = (Cert.Spec.keepFK (W0 (main_arg1 : DevRef τ sig)) : FVec F Cert.Spec.S32x8192 .f32) := by
  rw [PB3_v9, X4_v9]
theorem X5_v33 : after PB3 (after PB2 (after PB1 (after PA2 (after PA1 W0)))) (main_v33 : DevRef τ sig) = (Cert.Spec.frac (Cert.Spec.stK (W0 (main_arg1 : DevRef τ sig))) (Cert.Spec.enK (W0 (main_arg1 : DevRef τ sig))) : FVec F Cert.Spec.S32x8192 .f32) := by
  rw [PB3_v33, X4_v33]
theorem X5_v34 : after PB3 (after PB2 (after PB1 (after PA2 (after PA1 W0)))) (main_v34 : DevRef τ sig) = (Cert.Spec.lpLen (Cert.Spec.stK (W0 (main_arg1 : DevRef τ sig))) (Cert.Spec.enK (W0 (main_arg1 : DevRef τ sig)))) := by
  rw [PB3_v34, X4_v34]
theorem X5_v43 : after PB3 (after PB2 (after PB1 (after PA2 (after PA1 W0)))) (main_v43 : DevRef τ sig) = Cert.Spec.srcK (W0 (main_arg1 : DevRef τ sig)) := by
  rw [PB3_v43, X4_v35, X4_v37, X4_v40]; rfl
theorem X6_arg0 : after PC (after PB3 (after PB2 (after PB1 (after PA2 (after PA1 W0))))) (main_arg0 : DevRef τ sig) = W0 (main_arg0 : DevRef τ sig) := by
  rw [PC_arg0, X5_arg0]
theorem X6_arg1 : after PC (after PB3 (after PB2 (after PB1 (after PA2 (after PA1 W0))))) (main_arg1 : DevRef τ sig) = W0 (main_arg1 : DevRef τ sig) := by
  rw [PC_arg1, X5_arg1]
theorem X6_v9 : after PC (after PB3 (after PB2 (after PB1 (after PA2 (after PA1 W0))))) (main_v9 : DevRef τ sig) = (Cert.Spec.keepFK (W0 (main_arg1 : DevRef τ sig)) : FVec F Cert.Spec.S32x8192 .f32) := by
  rw [PC_v9, X5_v9]
theorem X6_v43 : after PC (after PB3 (after PB2 (after PB1 (after PA2 (after PA1 W0))))) (main_v43 : DevRef τ sig) = Cert.Spec.srcK (W0 (main_arg1 : DevRef τ sig)) := by
  rw [PC_v43, X5_v43]
theorem X6_v49 : after PC (after PB3 (after PB2 (after PB1 (after PA2 (after PA1 W0))))) (main_v49 : DevRef τ sig) = (Cert.Spec.loopFK (W0 (main_arg1 : DevRef τ sig)) : FVec F Cert.Spec.S32x8192 .f32) := by
  rw [PC_v49 _ _ _ (X5_v34 W0), X5_arg1]; rfl
theorem X6_v68 : after PC (after PB3 (after PB2 (after PB1 (after PA2 (after PA1 W0))))) (main_v68 : DevRef τ sig) = (Cert.Spec.gainK (W0 (main_arg1 : DevRef τ sig)) : FVec F Cert.Spec.S32x8192 .f32) := by
  rw [PC_v68 _ _ _ (X5_v33 W0), X5_arg1]; rfl
theorem X7_arg0 : after PD1 (after PC (after PB3 (after PB2 (after PB1 (after PA2 (after PA1 W0)))))) (main_arg0 : DevRef τ sig) = W0 (main_arg0 : DevRef τ sig) := by
  rw [PD1_arg0, X6_arg0]
theorem X7_v9 : after PD1 (after PC (after PB3 (after PB2 (after PB1 (after PA2 (after PA1 W0)))))) (main_v9 : DevRef τ sig) = (Cert.Spec.keepFK (W0 (main_arg1 : DevRef τ sig)) : FVec F Cert.Spec.S32x8192 .f32) := by
  rw [PD1_v9, X6_v9]
theorem X7_v43 : after PD1 (after PC (after PB3 (after PB2 (after PB1 (after PA2 (after PA1 W0)))))) (main_v43 : DevRef τ sig) = Cert.Spec.srcK (W0 (main_arg1 : DevRef τ sig)) := by
  rw [PD1_v43, X6_v43]
theorem X7_v49 : after PD1 (after PC (after PB3 (after PB2 (after PB1 (after PA2 (after PA1 W0)))))) (main_v49 : DevRef τ sig) = (Cert.Spec.loopFK (W0 (main_arg1 : DevRef τ sig)) : FVec F Cert.Spec.S32x8192 .f32) := by
  rw [PD1_v49, X6_v49]
theorem X7_v68 : after PD1 (after PC (after PB3 (after PB2 (after PB1 (after PA2 (after PA1 W0)))))) (main_v68 : DevRef τ sig) = (Cert.Spec.gainK (W0 (main_arg1 : DevRef τ sig)) : FVec F Cert.Spec.S32x8192 .f32) := by
  rw [PD1_v68, X6_v68]
theorem X7_v71 : after PD1 (after PC (after PB3 (after PB2 (after PB1 (after PA2 (after PA1 W0)))))) (main_v71 : DevRef τ sig) = (Cert.Spec.effFK (W0 (main_arg1 : DevRef τ sig)) : FVec F Cert.Spec.S32x8192 .f32) := by
  rw [PD1_v71, X6_arg1]
theorem X7_v74 : after PD1 (after PC (after PB3 (after PB2 (after PB1 (after PA2 (after PA1 W0)))))) (main_v74 : DevRef τ sig) = (Cert.Spec.bIdx : IVec Cert.Spec.S32x8192 32) := by
  rw [PD1_v74]
theorem X7_v85 : after PD1 (after PC (after PB3 (after PB2 (after PB1 (after PA2 (after PA1 W0)))))) (main_v85 : DevRef τ sig) = broadcastInDim Cert.Spec.S32x8192x1 ![0, 1] Cert.Spec.bc_S32x8192_S32x8192x1 (Cert.Spec.wrap 32#32 Cert.Spec.bIdx) := by
  rw [PD1_v85]
theorem X7_v86 : after PD1 (after PC (after PB3 (after PB2 (after PB1 (after PA2 (after PA1 W0)))))) (main_v86 : DevRef τ sig) = broadcastInDim Cert.Spec.S32x8192x1 ![0, 1] Cert.Spec.bc_S32x8192_S32x8192x1 (Cert.Spec.wrap 8192#32 (Cert.Spec.srcK (W0 (main_arg1 : DevRef τ sig)))) := by
  rw [PD1_v86, X6_v43]
theorem X8_v9 : after PD2 (after PD1 (after PC (after PB3 (after PB2 (after PB1 (after PA2 (after PA1 W0))))))) (main_v9 : DevRef τ sig) = (Cert.Spec.keepFK (W0 (main_arg1 : DevRef τ sig)) : FVec F Cert.Spec.S32x8192 .f32) := by
  rw [PD2_v9, X7_v9]
theorem X8_v49 : after PD2 (after PD1 (after PC (after PB3 (after PB2 (after PB1 (after PA2 (after PA1 W0))))))) (main_v49 : DevRef τ sig) = (Cert.Spec.loopFK (W0 (main_arg1 : DevRef τ sig)) : FVec F Cert.Spec.S32x8192 .f32) := by
  rw [PD2_v49, X7_v49]
theorem X8_v68 : after PD2 (after PD1 (after PC (after PB3 (after PB2 (after PB1 (after PA2 (after PA1 W0))))))) (main_v68 : DevRef τ sig) = (Cert.Spec.gainK (W0 (main_arg1 : DevRef τ sig)) : FVec F Cert.Spec.S32x8192 .f32) := by
  rw [PD2_v68, X7_v68]
theorem X8_v71 : after PD2 (after PD1 (after PC (after PB3 (after PB2 (after PB1 (after PA2 (after PA1 W0))))))) (main_v71 : DevRef τ sig) = (Cert.Spec.effFK (W0 (main_arg1 : DevRef τ sig)) : FVec F Cert.Spec.S32x8192 .f32) := by
  rw [PD2_v71, X7_v71]
theorem X8_v88 : after PD2 (after PD1 (after PC (after PB3 (after PB2 (after PB1 (after PA2 (after PA1 W0))))))) (main_v88 : DevRef τ sig) = (Cert.Spec.xsrcK (W0 (main_arg0 : DevRef τ sig)) (W0 (main_arg1 : DevRef τ sig)) : FVec F Cert.Spec.S32x8192x128 .f32) := by
  rw [PD2_v88 _ _ _ (X7_v85 W0) (X7_v86 W0), X7_arg0]; rfl
theorem X8_v99 : after PD2 (after PD1 (after PC (after PB3 (after PB2 (after PB1 (after PA2 (after PA1 W0))))))) (main_v99 : DevRef τ sig) = broadcastInDim Cert.Spec.S32x8192x1 ![0, 1] Cert.Spec.bc_S32x8192_S32x8192x1 (Cert.Spec.wrap 32#32 Cert.Spec.bIdx) := by
  rw [PD2_v99, X7_v74]
theorem X8_v100 : after PD2 (after PD1 (after PC (after PB3 (after PB2 (after PB1 (after PA2 (after PA1 W0))))))) (main_v100 : DevRef τ sig) = broadcastInDim Cert.Spec.S32x8192x1 ![0, 1] Cert.Spec.bc_S32x8192_S32x8192x1 (Cert.Spec.wrap 8192#32 (Cert.Spec.srcK (W0 (main_arg1 : DevRef τ sig)))) := by
  rw [PD2_v100, X7_v43]
theorem X9_v9 : after PD3 (after PD2 (after PD1 (after PC (after PB3 (after PB2 (after PB1 (after PA2 (after PA1 W0)))))))) (main_v9 : DevRef τ sig) = (Cert.Spec.keepFK (W0 (main_arg1 : DevRef τ sig)) : FVec F Cert.Spec.S32x8192 .f32) := by
  rw [PD3_v9, X8_v9]
theorem X9_v49 : after PD3 (after PD2 (after PD1 (after PC (after PB3 (after PB2 (after PB1 (after PA2 (after PA1 W0)))))))) (main_v49 : DevRef τ sig) = (Cert.Spec.loopFK (W0 (main_arg1 : DevRef τ sig)) : FVec F Cert.Spec.S32x8192 .f32) := by
  rw [PD3_v49, X8_v49]
theorem X9_v68 : after PD3 (after PD2 (after PD1 (after PC (after PB3 (after PB2 (after PB1 (after PA2 (after PA1 W0)))))))) (main_v68 : DevRef τ sig) = (Cert.Spec.gainK (W0 (main_arg1 : DevRef τ sig)) : FVec F Cert.Spec.S32x8192 .f32) := by
  rw [PD3_v68, X8_v68]
theorem X9_v71 : after PD3 (after PD2 (after PD1 (after PC (after PB3 (after PB2 (after PB1 (after PA2 (after PA1 W0)))))))) (main_v71 : DevRef τ sig) = (Cert.Spec.effFK (W0 (main_arg1 : DevRef τ sig)) : FVec F Cert.Spec.S32x8192 .f32) := by
  rw [PD3_v71, X8_v71]
theorem X9_v88 : after PD3 (after PD2 (after PD1 (after PC (after PB3 (after PB2 (after PB1 (after PA2 (after PA1 W0)))))))) (main_v88 : DevRef τ sig) = (Cert.Spec.xsrcK (W0 (main_arg0 : DevRef τ sig)) (W0 (main_arg1 : DevRef τ sig)) : FVec F Cert.Spec.S32x8192x128 .f32) := by
  rw [PD3_v88, X8_v88]
theorem X9_v102 : after PD3 (after PD2 (after PD1 (after PC (after PB3 (after PB2 (after PB1 (after PA2 (after PA1 W0)))))))) (main_v102 : DevRef τ sig) = (Cert.Spec.keepsrcK (W0 (main_arg1 : DevRef τ sig)) : FVec F Cert.Spec.S32x8192 .f32) := by
  rw [PD3_v102 _ _ _ (X8_v99 W0) (X8_v100 W0), X8_v9]; rfl

/-! ## The arrays the region finds -/

variable (m : (ℓ : Loc nD τ sig) → Buf (Elt F) ℓ)

/-- The last stretch of host operations is its three parts in a row. -/
theorem hostOps0_20_parts : (hostOps0_20 : List (HloOp τ sig (Elt F))) = PD1 ++ (PD2 ++ PD3) := by
  rw [PD2, PD3, List.take_append_drop, PD1, List.take_append_drop]

/-- The contents at the region's entry are the nine stretches' in a row, from the launch memory. -/
theorem V_at (c : Dev nD) (b : Ref sig .tc) :
    V m c b = after PD3 (after PD2 (after PD1 (after PC (after PB3 (after PB2 (after PB1 (after PA2 (after PA1 (fun b => m (c, b)))))))))) (b : DevRef τ sig) := by
  dsimp only [Gen.V]
  simp only [List.flatten_cons, List.flatten_nil, List.append_nil]
  rw [hostOps0_20_parts]
  simp only [PA1, PA2, PB1, PB2, PB3, PC, Cert.ListParts.after_append]

/-- Window 2's array is the keep mask as 0/1. -/
theorem V_keep (c : Dev nD) : (V m c main_v9 : S32x8192.Idx → F .f32) = Cert.Spec.keepFK (m ((c : Thread nD τ).loc main_arg1)) :=
  (V_at m c main_v9).trans (X9_v9 _)
/-- Window 1's array holds the mel rows of the source frames. -/
theorem V_xsrc (c : Dev nD) : (V m c main_v88 : S32x8192x128.Idx → F .f32)
    = Cert.Spec.xsrcK (m ((c : Thread nD τ).loc main_arg0)) (m ((c : Thread nD τ).loc main_arg1)) :=
  (V_at m c main_v88).trans (X9_v88 _)
/-- Window 3's array is the keep mask at the source frame. -/
theorem V_keepsrc (c : Dev nD) : (V m c main_v102 : S32x8192.Idx → F .f32) = Cert.Spec.keepsrcK (m ((c : Thread nD τ).loc main_arg1)) :=
  (V_at m c main_v102).trans (X9_v102 _)
/-- Window 4's array is the loop mask as 0/1. -/
theorem V_loop (c : Dev nD) : (V m c main_v49 : S32x8192.Idx → F .f32) = Cert.Spec.loopFK (m ((c : Thread nD τ).loc main_arg1)) :=
  (V_at m c main_v49).trans (X9_v49 _)
/-- Window 5's array is the gain. -/
theorem V_gain (c : Dev nD) : (V m c main_v68 : S32x8192.Idx → F .f32) = Cert.Spec.gainK (m ((c : Thread nD τ).loc main_arg1)) :=
  (V_at m c main_v68).trans (X9_v68 _)
/-- Window 6's array is the effect mask as 0/1. -/
theorem V_eff (c : Dev nD) : (V m c main_v71 : S32x8192.Idx → F .f32) = Cert.Spec.effFK (m ((c : Thread nD τ).loc main_arg1)) :=
  (V_at m c main_v71).trans (X9_v71 _)

end Cert.KernelLeg

end
-- ==== Proof.SpecKernel.lean ====
/-
  The kernel's result as one function of its seven operand arrays, entry by entry: at (b, t, l),
  clip₀¹( ((a0·a2)·(1 − a4) + (a1·a3)·a4) · a5 · (a6·lp(l) + (1 − a6)) ), the [32, 8192] operands a2 … a6 read at (b, t).
-/
import proofs.«180310_j25288767439135_1_alg».proof.Proof.Spec

noncomputable section

namespace Cert.Spec

open Idealize.ShloMosaic

variable {F : FTy → Type} [FloatOps F]

/-- The (b, t) part of an index (b, t, l). -/
abbrev bt (i : S32x8192x128.Idx) : S32x8192.Idx := fun a => match a with
  | ⟨0, _⟩ => ⟨(i 0).val, (i 0).isLt⟩
  | ⟨1, _⟩ => ⟨(i 1).val, (i 1).isLt⟩

/-- The low-pass factor of mel channel n: 0.3 from channel 64 on, else 1. -/
def lpK (n : Nat) : F .f32 :=
  Scalar.select (IntOp.cmpi .sge (BitVec.ofNat 32 n) 64#32) (Scalar.ofBits .f32 0x3E99999A#32) (Scalar.ofBits .f32 0x3F800000#32)

/-- The output array as one function of the seven operand arrays: mel·keep blended with (source·keep at source)
    by the loop mask, times the gain, times (eff·lp + (1 − eff)), clipped into [0, 1]. -/
def GK (a0 a1 : S32x8192x128.Idx → F .f32) (a2 a3 a4 a5 a6 : S32x8192.Idx → F .f32) : S32x8192x128.Idx → F .f32 := fun i =>
  FloatOps.minimumf (Scalar.ofBits .f32 0x3F800000#32) (FloatOps.maximumf (Scalar.ofBits .f32 0x00000000#32)
    (FloatOps.mulf (FloatOps.mulf (FloatOps.addf
        (FloatOps.mulf (FloatOps.mulf (a0 i) (a2 (bt i))) (FloatOps.subf (Scalar.ofBits .f32 0x3F800000#32) (a4 (bt i))))
        (FloatOps.mulf (FloatOps.mulf (a1 i) (a3 (bt i))) (a4 (bt i)))) (a5 (bt i)))
      (FloatOps.addf (FloatOps.mulf (a6 (bt i)) (lpK (i 2).val)) (FloatOps.subf (Scalar.ofBits .f32 0x3F800000#32) (a6 (bt i))))))

end Cert.Spec

end
-- ==== Proof.KernelBlocks.lean ====
/-
  From blocks to the whole array. The kernel's grid is 4 × 8 points; point (i, j) works on rows 8i … 8i+7 and
  frames 1024j … 1024j+1023 of every operand, all 128 mel channels at once. What a point leaves in its output
  block is, entry by entry, one function `GK` of the seven operand arrays at the same (b, t, l) — the five
  [32, 8192] operands read at (b, t) — so, the 32 blocks tiling the output array, the array ends as `GK` of the
  operand arrays.
-/
import proofs.«180310_j25288767439135_1_alg».proof.Proof.Gen.KernelIdeal.Value
import proofs.«180310_j25288767439135_1_alg».proof.Proof.SpecKernel
import Idealize.ShloMosaic.Lib.Pipeline.Value

set_option maxRecDepth 16384

noncomputable section

namespace Cert.KernelLeg

open Cert.KernelIdeal Cert.KernelIdeal.Gen Cert.KernelIdeal.Value Idealize.ShloMosaic Idealize.ShloMosaic.TcCoe Idealize.SL.Sem
open Idealize.ShloMosaic.Pipeline (Dat)
open Cert.Spec (bt lpK GK)

variable {F : FTy → Type} [FloatOps F]
variable (m : (ℓ : Loc nD τ sig) → Buf (Elt F) ℓ) (ρ : Dev nD → PrngReg)

/-- The body's channel factor at a block index depends on the channel only. -/
theorem pay4_apply (y : S8x1024x128.Idx) : (k0_pay4 (F := F)) y = lpK (y 2).val := by
  unfold k0_pay4 lpK
  show Scalar.select (IntOp.cmpi .sge (iota .tc S8x1024x128 32 [2] _ y) 64#32) _ _ = _
  rw [iota_single_apply]
  rfl

/-- The block's entry at y is `GK` at i as soon as each load at y is the matching array at i. -/
theorem E7_eq_GK (P0 : Vec F S8x1024x128 .f32) (P1 P2 : Vec F S8x1024 .f32) (P3 : Vec F S8x1024x128 .f32) (P4 P5 P6 : Vec F S8x1024 .f32)
    (a0 a1 : S32x8192x128.Idx → Elt F .f32) (a2 a3 a4 a5 a6 : S32x8192.Idx → Elt F .f32) (y : S8x1024x128.Idx) (i : S32x8192x128.Idx)
    (h0 : P0 (ix7_0 y) = a0 i) (h1 : P1 (ix7_1 y) = a2 (bt i)) (h2 : P2 (ix7_2 y) = a4 (bt i)) (h3 : P3 (ix7_3 y) = a1 i)
    (h4 : P4 (ix7_4 y) = a3 (bt i)) (h5 : P2 (ix7_5 y) = a4 (bt i)) (h6 : P5 (ix7_6 y) = a5 (bt i)) (h7 : P6 (ix7_7 y) = a6 (bt i))
    (h8 : (k0_pay4 (F := F)) (ix7_8 y) = lpK (i 2).val) (h9 : P6 (ix7_9 y) = a6 (bt i)) :
    E7 P0 P1 P2 P3 P4 P5 P6 y = GK a0 a1 a2 a3 a4 a5 a6 i := by
  show FloatOps.minimumf _ (FloatOps.maximumf _ (FloatOps.mulf (FloatOps.mulf (FloatOps.addf (FloatOps.mulf (FloatOps.mulf (P0 (ix7_0 y)) (P1 (ix7_1 y))) (FloatOps.subf _ (P2 (ix7_2 y)))) (FloatOps.mulf (FloatOps.mulf (P3 (ix7_3 y)) (P4 (ix7_4 y))) (P2 (ix7_5 y)))) (P5 (ix7_6 y))) (FloatOps.addf (FloatOps.mulf (P6 (ix7_7 y)) ((k0_pay4 (F := F)) (ix7_8 y))) (FloatOps.subf _ (P6 (ix7_9 y)))))) = _
  rw [h0, h1, h2, h3, h4]
  try rw [h5]
  rw [h6, h7, h8]
  try rw [h9]
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 32 grid points: every operand's block moves with the output's on the
    row and frame axes and sits at 0 on the channel axis; the output's block indices stay within 4 × 8. -/
theorem idx_facts : ∀ t : Fin cfg0.N,
    win0_0.index t (0 : Fin 3) = win0_7.index t (0 : Fin 3) ∧ win0_0.index t (1 : Fin 3) = win0_7.index t (1 : Fin 3) ∧ win0_0.index t (2 : Fin 3) = 0
    ∧ win0_1.index t (0 : Fin 3) = win0_7.index t (0 : Fin 3) ∧ win0_1.index t (1 : Fin 3) = win0_7.index t (1 : Fin 3) ∧ win0_1.index t (2 : Fin 3) = 0
    ∧ win0_2.index t (0 : Fin 2) = win0_7.index t (0 : Fin 3) ∧ win0_2.index t (1 : Fin 2) = win0_7.index t (1 : Fin 3)
    ∧ win0_3.index t (0 : Fin 2) = win0_7.index t (0 : Fin 3) ∧ win0_3.index t (1 : Fin 2) = win0_7.index t (1 : Fin 3)
    ∧ win0_4.index t (0 : Fin 2) = win0_7.index t (0 : Fin 3) ∧ win0_4.index t (1 : Fin 2) = win0_7.index t (1 : Fin 3)
    ∧ win0_5.index t (0 : Fin 2) = win0_7.index t (0 : Fin 3) ∧ win0_5.index t (1 : Fin 2) = win0_7.index t (1 : Fin 3)
    ∧ win0_6.index t (0 : Fin 2) = win0_7.index t (0 : Fin 3) ∧ win0_6.index t (1 : Fin 2) = win0_7.index t (1 : Fin 3)
    ∧ win0_7.index t (0 : Fin 3) ≤ 3 ∧ win0_7.index t (1 : Fin 3) ≤ 7 ∧ win0_7.index t (2 : Fin 3) = 0 :=
  (by decide +kernel : ∀ t : Fin grid0.N, _)

/-- Every block of the 4 × 8 tiling is some point's. -/
theorem idx_onto : ∀ (q0 : Fin 4) (q1 : Fin 8), ∃ t : Fin cfg0.N, win0_7.index t = ![q0.val, q1.val, 0] :=
  (by decide +kernel : ∀ (q0 : Fin 4) (q1 : Fin 8), ∃ t : Fin grid0.N, win0_7.index t = ![q0.val, q1.val, 0])

/-! ## A window's block read at an entry is its array at the entry's place -/

theorem blk0 (c : Dev nD) (t : Fin cfg0.N) (y : S8x1024x128.Idx) : iblk m c 0 t y = V m c main_arg0 (((cfg0.win 0).blk t).view.emb y) := rfl
theorem blk1 (c : Dev nD) (t : Fin cfg0.N) (y : S8x1024x128.Idx) : iblk m c 1 t y = V m c main_v88 (((cfg0.win 1).blk t).view.emb y) := rfl
theorem blk2 (c : Dev nD) (t : Fin cfg0.N) (y : S8x1024.Idx) : iblk m c 2 t y = V m c main_v9 (((cfg0.win 2).blk t).view.emb y) := rfl
theorem blk3 (c : Dev nD) (t : Fin cfg0.N) (y : S8x1024.Idx) : iblk m c 3 t y = V m c main_v102 (((cfg0.win 3).blk t).view.emb y) := rfl
theorem blk4 (c : Dev nD) (t : Fin cfg0.N) (y : S8x1024.Idx) : iblk m c 4 t y = V m c main_v49 (((cfg0.win 4).blk t).view.emb y) := rfl
theorem blk5 (c : Dev nD) (t : Fin cfg0.N) (y : S8x1024.Idx) : iblk m c 5 t y = V m c main_v68 (((cfg0.win 5).blk t).view.emb y) := rfl
theorem blk6 (c : Dev nD) (t : Fin cfg0.N) (y : S8x1024.Idx) : iblk m c 6 t y = V m c main_v71 (((cfg0.win 6).blk t).view.emb y) := rfl

/-- WHAT POINT t WRITES BACK is block t of `GK` of the operand arrays as the region finds them. -/
theorem flushed_eq (c : Dev nD) (t : Fin cfg0.N) :
    (dats m 0 c).flushed 7 t = ((cfg0.win 7).blk t).view.read (Elt F)
      (GK (V m c main_arg0) (V m c main_v88) (V m c main_v9) (V m c main_v102) (V m c main_v49) (V m c main_v68) (V m c main_v71)) := by
  rw [flushed7]
  obtain ⟨e00, e01, e02, e10, e11, e12, e20, e21, e30, e31, e40, e41, e50, e51, e60, e61, b0, b1, e72⟩ := idx_facts t
  funext y
  have hy0 : (y 0).val < 8 := (y 0).isLt
  have hy1 : (y 1).val < 1024 := (y 1).isLt
  have hy2 : (y 2).val < 128 := (y 2).isLt
  show out0_7 (iblk m c 0 t) (iblk m c 1 t) (iblk m c 2 t) (iblk m c 3 t) (iblk m c 4 t) (iblk m c 5 t) (iblk m c 6 t) y
    = GK (V m c main_arg0) (V m c main_v88) (V m c main_v9) (V m c main_v102) (V m c main_v49) (V m c main_v68) (V m c main_v71) (((cfg0.win 7).blk t).view.emb y)
  unfold out0_7
  simp only [View.ld_unit_zero (S := S8x1024x128) hz3, View.ld_unit_zero (S := S8x1024) hz2]
  refine (canon7_eq (iblk m c 0 t) (iblk m c 2 t) (iblk m c 4 t) (iblk m c 1 t) (iblk m c 3 t) (iblk m c 5 t) (iblk m c 6 t) y).trans ?_
  -- the place of a [8, 1024, 128] block entry, and of a [8, 1024] block entry, in the arrays
  have h0 : ((cfg0.win 0).blk t).view.emb (ix7_0 y) = ((cfg0.win 7).blk t).view.emb y := by
    funext a; apply Fin.ext
    match a with
    | ⟨0, _⟩ => show win0_0.index t (0 : Fin 3) * 8 + 1 * (y 0).val = win0_7.index t (0 : Fin 3) * 8 + 1 * (y 0).val; omega
    | ⟨1, _⟩ => show win0_0.index t (1 : Fin 3) * 1024 + 1 * (y 1).val = win0_7.index t (1 : Fin 3) * 1024 + 1 * (y 1).val; omega
    | ⟨2, _⟩ => show win0_0.index t (2 : Fin 3) * 128 + 1 * (y 2).val = win0_7.index t (2 : Fin 3) * 128 + 1 * (y 2).val; omega
  have h3 : ((cfg0.win 1).blk t).view.emb (ix7_3 y) = ((cfg0.win 7).blk t).view.emb y := by
    funext a; apply Fin.ext
    match a with
    | ⟨0, _⟩ => show win0_1.index t (0 : Fin 3) * 8 + 1 * (y 0).val = win0_7.index t (0 : Fin 3) * 8 + 1 * (y 0).val; omega
    | ⟨1, _⟩ => show win0_1.index t (1 : Fin 3) * 1024 + 1 * (y 1).val = win0_7.index t (1 : Fin 3) * 1024 + 1 * (y 1).val; omega
    | ⟨2, _⟩ => show win0_1.index t (2 : Fin 3) * 128 + 1 * (y 2).val = win0_7.index t (2 : Fin 3) * 128 + 1 * (y 2).val; omega
  have h1 : ((cfg0.win 2).blk t).view.emb (ix7_1 y) = bt (((cfg0.win 7).blk t).view.emb y) := by
    funext a; apply Fin.ext
    match a with
    | ⟨0, _⟩ => show win0_2.index t (0 : Fin 2) * 8 + 1 * (y 0).val = win0_7.index t (0 : Fin 3) * 8 + 1 * (y 0).val; omega
    | ⟨1, _⟩ => show win0_2.index t (1 : Fin 2) * 1024 + 1 * (y 1).val = win0_7.index t (1 : Fin 3) * 1024 + 1 * (y 1).val; omega
  have h4 : ((cfg0.win 3).blk t).view.emb (ix7_4 y) = bt (((cfg0.win 7).blk t).view.emb y) := by
    funext a; apply Fin.ext
    match a with
    | ⟨0, _⟩ => show win0_3.index t (0 : Fin 2) * 8 + 1 * (y 0).val = win0_7.index t (0 : Fin 3) * 8 + 1 * (y 0).val; omega
    | ⟨1, _⟩ => show win0_3.index t (1 : Fin 2) * 1024 + 1 * (y 1).val = win0_7.index t (1 : Fin 3) * 1024 + 1 * (y 1).val; omega
  have h2 : ((cfg0.win 4).blk t).view.emb (ix7_2 y) = bt (((cfg0.win 7).blk t).view.emb y) := by
    funext a; apply Fin.ext
    match a with
    | ⟨0, _⟩ => show win0_4.index t (0 : Fin 2) * 8 + 1 * (y 0).val = win0_7.index t (0 : Fin 3) * 8 + 1 * (y 0).val; omega
    | ⟨1, _⟩ => show win0_4.index t (1 : Fin 2) * 1024 + 1 * (y 1).val = win0_7.index t (1 : Fin 3) * 1024 + 1 * (y 1).val; omega
  have h6 : ((cfg0.win 5).blk t).view.emb (ix7_6 y) = bt (((cfg0.win 7).blk t).view.emb y) := by
    funext a; apply Fin.ext
    match a with
    | ⟨0, _⟩ => show win0_5.index t (0 : Fin 2) * 8 + 1 * (y 0).val = win0_7.index t (0 : Fin 3) * 8 + 1 * (y 0).val; omega
    | ⟨1, _⟩ => show win0_5.index t (1 : Fin 2) * 1024 + 1 * (y 1).val = win0_7.index t (1 : Fin 3) * 1024 + 1 * (y 1).val; omega
  have h7 : ((cfg0.win 6).blk t).view.emb (ix7_7 y) = bt (((cfg0.win 7).blk t).view.emb y) := by
    funext a; apply Fin.ext
    match a with
    | ⟨0, _⟩ => show win0_6.index t (0 : Fin 2) * 8 + 1 * (y 0).val = win0_7.index t (0 : Fin 3) * 8 + 1 * (y 0).val; omega
    | ⟨1, _⟩ => show win0_6.index t (1 : Fin 2) * 1024 + 1 * (y 1).val = win0_7.index t (1 : Fin 3) * 1024 + 1 * (y 1).val; omega
  have h8 : (k0_pay4 (F := F)) (ix7_8 y) = lpK ((((cfg0.win 7).blk t).view.emb y) 2).val := by
    rw [pay4_apply]
    show lpK (y 2).val = lpK (win0_7.index t (2 : Fin 3) * 128 + 1 * (y 2).val)
    rw [e72]; congr 1; omega
  exact E7_eq_GK (iblk m c 0 t) (iblk m c 2 t) (iblk m c 4 t) (iblk m c 1 t) (iblk m c 3 t) (iblk m c 5 t) (iblk m c 6 t)
    (V m c main_arg0) (V m c main_v88) (V m c main_v9) (V m c main_v102) (V m c main_v49) (V m c main_v68) (V m c main_v71)
    y (((cfg0.win 7).blk t).view.emb y)
    ((blk0 m c t (ix7_0 y)).trans (congrArg (V m c main_arg0) h0))
    ((blk2 m c t (ix7_1 y)).trans (congrArg (V m c main_v9) h1))
    ((blk4 m c t (ix7_2 y)).trans (congrArg (V m c main_v49) h2))
    ((blk1 m c t (ix7_3 y)).trans (congrArg (V m c main_v88) h3))
    ((blk3 m c t (ix7_4 y)).trans (congrArg (V m c main_v102) h4))
    ((blk4 m c t (ix7_5 y)).trans (congrArg (V m c main_v49) h2))
    ((blk5 m c t (ix7_6 y)).trans (congrArg (V m c main_v68) h6))
    ((blk6 m c t (ix7_7 y)).trans (congrArg (V m c main_v71) h7))
    h8
    ((blk6 m c t (ix7_9 y)).trans (congrArg (V m c main_v71) h7))

/-- An index of the array is in point t's block iff each coordinate is in the block's range on its axis. -/
theorem mem_blk7 (t : Fin cfg0.N) (i : S32x8192x128.Idx) :
    i ∈ ((cfg0.win 7).blk t).view.set ↔ ∀ a : Fin 3, win0_7.index t a * S8x1024x128.size a ≤ (i a).val ∧ (i a).val < win0_7.index t a * S8x1024x128.size a + S8x1024x128.size a := by
  show i ∈ ((View.whole main_v103).slice (win0_7.rect t)).set ↔ _
  rw [View.set_slice_whole, Rect.mem_set_unit]
  exact Iff.rfl

/-- The 32 blocks tile the array: the point that covers (b, t, l) is (b / 8, t / 1024). -/
theorem cover7 (i : S32x8192x128.Idx) : ∃ t : Fin cfg0.N, (cfg0.win 7).flush t = true ∧ i ∈ ((cfg0.win 7).blk t).view.set := by
  have hi0 : (i 0).val < 32 := (i 0).isLt
  have hi1 : (i 1).val < 8192 := (i 1).isLt
  have hi2 : (i 2).val < 128 := (i 2).isLt
  obtain ⟨t, ht⟩ := idx_onto ⟨(i 0).val / 8, by omega⟩ ⟨(i 1).val / 1024, by omega⟩
  have q0 : win0_7.index t (0 : Fin 3) = (i 0).val / 8 := congrFun ht 0
  have q1 : win0_7.index t (1 : Fin 3) = (i 1).val / 1024 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 8 ≤ (i 0).val ∧ (i 0).val < win0_7.index t (0 : Fin 3) * 8 + 8; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 128 ≤ (i 2).val ∧ (i 2).val < win0_7.index t (2 : Fin 3) * 128 + 128; omega

/-- THE ARRAY after the run is `GK` of the operand arrays as the region finds them. -/
theorem final7 (c : Dev nD) : (dats m 0 c).arrAt 7 cfg0.N
    = GK (V m c main_arg0) (V m c main_v88) (V m c main_v9) (V m c main_v102) (V m c main_v49) (V m c main_v68) (V m c main_v71) :=
  (dats m 0 c).arrAt_eq_of_cover 7 _ (fun t _ => flushed_eq m c t) cover7

end Cert.KernelLeg

end
-- ==== Proof.SpecAtoms.lean ====
/-
  The two programs' spellings of the grid constants and of the frame position are the same arrays, so every array of
  the common chain is the same whichever program's spelling it is built from; and the layout operations of the two
  programs — a broadcast along new axes, a concatenation of two one-component index arrays — read at coordinates.
-/
import proofs.«180310_j25288767439135_1_alg».proof.Proof.SpecPrograms
import Idealize.ShloMosaic.Lib.ValueIdx
import Idealize.ShloMosaic.Lib.Pipeline.Value

noncomputable section

namespace Cert.Spec

open Idealize.ShloMosaic Idealize.ShloMosaic.ValueIdx

variable {F : FTy → Type} [FloatOps F]

/-! ## The two spellings of the constants are the same arrays -/

/-- An integer constant spread along a row and then over the batch rows is the constant at every (b, t): a broadcast of
    a scalar reads the scalar, in one step or in two. -/
theorem spread_cRow (v : BitVec 32) : spread (cRow v) = cI v := by
  funext j; rfl

/-- The float constant 1 spread along a row and then over the batch rows is the constant 1 at every (b, t). -/
theorem oneFR_eq : (oneFR : FVec F S32x8192 .f32) = cF 0x3F800000#32 := by
  funext j; rfl

/-- A column of ones is the same column whether it is spread from a scalar or from a one-entry vector. -/
theorem onesR_eq : onesR = onesK := by
  funext j; rfl

/-- The frame position t at (b, t) is the same whether the row of positions is repeated over the batch rows directly or
    through a [1, 8192] row: either way the element at (b, t) is the word of t. -/
theorem spread_iota : spread (iotaInDim S8192 32 0) = idxB := by
  funext j
  obtain ⟨b, t, rfl⟩ : ∃ (b : Fin 32) (t : Fin 8192), j = ix2 b t := ⟨_, _, eq_ix2 j⟩
  rfl

/-- The position plus one, added along the row before spreading or on the grid after it, is the same array: the sum is
    taken element by element, and each operand is the same array either way. -/
theorem spread_iota_succ : spread (addi (iotaInDim S8192 32 0) (cRow 1#32)) = addi idxB (cI 1#32) := by
  funext j
  obtain ⟨b, t, rfl⟩ : ∃ (b : Fin 32) (t : Fin 8192), j = ix2 b t := ⟨_, _, eq_ix2 j⟩
  rfl

/-! ## The chain built from either spelling is the same -/

/-- The run-start positions array is the same in both spellings. -/
theorem w0R_eq (L : IVec S32x8192 32) : w0R L = w0K L := by
  unfold w0R w0K
  rw [onesR_eq, spread_iota, spread_cRow]

/-- The run-end positions array is the same in both spellings. -/
theorem w1R_eq (L : IVec S32x8192 32) : w1R L = w1K L := by
  unfold w1R w1K
  rw [onesR_eq, spread_iota_succ, spread_cRow]

/-- The run's first frame is the same in both spellings. -/
theorem stR_eq (L : IVec S32x8192 32) : stR L = stK L := by
  unfold stR stK
  rw [w0R_eq]

/-- The run's exclusive end is the same in both spellings. -/
theorem enR_eq (L : IVec S32x8192 32) : enR L = enK L := by
  unfold enR enK
  rw [w1R_eq]

/-- The source frame is the same in both spellings. -/
theorem srcR_eq (L : IVec S32x8192 32) : srcR L = srcK L := by
  unfold srcR srcK
  rw [spread_cRow, spread_cRow, stR_eq, enR_eq]

/-- The gain is the same in both spellings. -/
theorem gainR_eq (L : IVec S32x8192 32) : gain (oneFR (F := F)) L (stR L) (enR L) = gainK L := by
  unfold gainK
  rw [oneFR_eq, stR_eq, enR_eq]

/-- The loop mask is the same in both spellings. -/
theorem loopR_eq (L : IVec S32x8192 32) : loopI L (stR L) (enR L) = loopI L (stK L) (enK L) := by
  rw [stR_eq, enR_eq]

/-! ## Broadcasts read at coordinates -/

/-- A [32, 8192] array given a trailing unit axis, read at (b, t, 0), is the array at (b, t). -/
theorem bcast_unit_apply {α : Type} (x : S32x8192.Idx → α) (b : Fin 32) (t : Fin 8192) :
    (broadcastInDim S32x8192x1 ![0, 1] bc_S32x8192_S32x8192x1 x) (ix3 b t (0 : Fin 1)) = x (ix2 b t) := by
  refine broadcastInDim_apply _ _ x _ (ix2 b t) ?_
  intro a
  match a with
  | ⟨0, _⟩ => rfl
  | ⟨1, _⟩ => rfl

/-- A [32, 8192, 1] array repeated along the 128 channels, read at (b, t, l), is the array at (b, t, 0). -/
theorem bcast_chan_apply {α : Type} (y : S32x8192x1.Idx → α) (b : Fin 32) (t : Fin 8192) (l : Fin 128) :
    (broadcastInDim S32x8192x128 ![0, 1, 2] bc_S32x8192x1_S32x8192x128 y) (ix3 b t l) = y (ix3 b t (0 : Fin 1)) := by
  refine broadcastInDim_apply _ _ y _ (ix3 b t (0 : Fin 1)) ?_
  intro a
  match a with
  | ⟨0, _⟩ => rfl
  | ⟨1, _⟩ => rfl
  | ⟨2, _⟩ => rfl

/-- A [32, 8192] array repeated along the 128 channels, read at (b, t, l), is the array at (b, t). -/
theorem chan_apply {α : Type} (x : S32x8192.Idx → α) (b : Fin 32) (t : Fin 8192) (l : Fin 128) :
    chan x (ix3 b t l) = x (ix2 b t) := by
  unfold chan
  rw [bcast_chan_apply, bcast_unit_apply]

/-- The low-pass factor at (b, t, l) is the per-channel factor at l: the row is given two leading unit axes and then
    repeated over the batch rows and the frames. -/
theorem lp3_apply (b : Fin 32) (t : Fin 8192) (l : Fin 128) :
    (lp3 : FVec F S32x8192x128 .f32) (ix3 b t l) = lpRow (ix1 l) := by
  unfold lp3
  have h3 : ∀ (y : S1x1x128.Idx → F .f32),
      (broadcastInDim S32x8192x128 ![0, 1, 2] bc_S1x1x128_S32x8192x128 y) (ix3 b t l)
        = y (ix3 (0 : Fin 1) (0 : Fin 1) l) := by
    intro y
    refine broadcastInDim_apply _ _ y _ (ix3 (0 : Fin 1) (0 : Fin 1) l) ?_
    intro a
    match a with
    | ⟨0, _⟩ => rfl
    | ⟨1, _⟩ => rfl
    | ⟨2, _⟩ => rfl
  have h2 : ∀ (y : S1x128.Idx → F .f32),
      (broadcastInDim S1x1x128 ![1, 2] bc_S1x128_S1x1x128 y) (ix3 (0 : Fin 1) (0 : Fin 1) l)
        = y (ix2 (0 : Fin 1) l) := by
    intro y
    refine broadcastInDim_apply _ _ y _ (ix2 (0 : Fin 1) l) ?_
    intro a
    match a with
    | ⟨0, _⟩ => rfl
    | ⟨1, _⟩ => rfl
  have h1 : ∀ (y : S128.Idx → F .f32),
      (broadcastInDim S1x128 ![1] bc_S128_S1x128 y) (ix2 (0 : Fin 1) l) = y (ix1 l) := by
    intro y
    refine broadcastInDim_apply _ _ y _ (ix1 l) ?_
    intro a
    match a with
    | ⟨0, _⟩ => rfl
  rw [h3, h2, h1]

/-- A float constant spread from a scalar over the [32, 8192, 128] array reads, at every index, the float its word
    encodes. -/
theorem bcast_const3_apply (v : BitVec 32) (b : Fin 32) (t : Fin 8192) (l : Fin 128) :
    (broadcastInDim S32x8192x128 ![] bc_S_S32x8192x128 (constant S_ .f32 v) : FVec F S32x8192x128 .f32) (ix3 b t l)
      = FloatOps.ofBits .f32 v := rfl

/-! ## The kernel's start indices read at coordinates -/

/-- Component 0 of the kernel's start index at (b, t) is the wrapped batch-row index at (b, t): the two one-component
    arrays are laid side by side along the last axis, and position 0 falls in the first. -/
theorem gidxK_zero (L : IVec S32x8192 32) (b : Fin 32) (t : Fin 8192) :
    gidxK L (ix3 b t (0 : Fin 2)) = wrap 32#32 bIdx (ix2 b t) := by
  unfold gidxK
  rw [concatenate_pair_apply_left (2 : Fin S32x8192x2.rank) _ _ cc_pair (ix3 b t (0 : Fin 2)) rfl (ix3 b t (0 : Fin 1))
    (fun c => by
      match c with
      | ⟨0, _⟩ => rfl
      | ⟨1, _⟩ => rfl
      | ⟨2, _⟩ => rfl)]
  exact bcast_unit_apply _ b t

/-- Component 1 of the kernel's start index at (b, t) is the wrapped source frame at (b, t): position 1 along the last
    axis falls in the second of the two one-component arrays, at its position 0. -/
theorem gidxK_one (L : IVec S32x8192 32) (b : Fin 32) (t : Fin 8192) :
    gidxK L (ix3 b t (1 : Fin 2)) = wrap 8192#32 (srcK L) (ix2 b t) := by
  unfold gidxK
  rw [concatenate_pair_apply_right (2 : Fin S32x8192x2.rank) _ _ cc_pair (ix3 b t (1 : Fin 2)) rfl rfl (ix3 b t (0 : Fin 1))
    (fun c hc => by
      match c, hc with
      | ⟨0, _⟩, _ => rfl
      | ⟨1, _⟩, _ => rfl
      | ⟨2, _⟩, hc => exact absurd rfl hc)
    rfl]
  exact bcast_unit_apply _ b t

/-! ## The batch component of the kernel's start index is the batch row itself -/

/-- The batch-row index at (b, t) is the word of b: the column of row numbers repeated along the frames. -/
theorem bIdx_apply (b : Fin 32) (t : Fin 8192) : bIdx (ix2 b t) = BitVec.ofNat 32 b.val := rfl

/-- A row number below 32 is not negative as a signed 32-bit word, so wrapping leaves it as it is, and clamped into
    [0, 31] it is itself. -/
theorem wrap_row_word : ∀ b : Fin 32,
    min (Scalar.select (IntOp.cmpi .slt (BitVec.ofNat 32 b.val) 0#32) (IntOp.addi (BitVec.ofNat 32 b.val) 32#32)
      (BitVec.ofNat 32 b.val)).toInt.toNat (32 - 1) = b.val := by
  decide

/-- The batch component of the kernel's start index at (b, t), read signed and clamped into [0, 31], is b. -/
theorem wrap_bIdx_clamp (b : Fin 32) (t : Fin 8192) :
    min ((wrap 32#32 bIdx) (ix2 b t)).toInt.toNat (32 - 1) = b.val :=
  wrap_row_word b

end Cert.Spec

end
-- ==== Proof.LibGatherPairs.lean ====
/-
  Three forms of `stablehlo.gather` read at coordinates.  Each lemma takes the dimension numbers literally, over an
  arbitrary proof of their well-formedness conditions, and says which operand element a result element is: on every
  operand axis the operand index is the clamped start (the start index's component for that axis, read signed, cut into
  the range where the slice fits) plus the batching coordinate plus the offset coordinate, and for these dimension
  numbers exactly one of the three is present on each axis.
-/
import Idealize.ShloMosaic.Lib.ValueIdx
import Idealize.ShloMosaic.PureOps

noncomputable section

namespace Cert.LibGatherPairs

open Idealize.ShloMosaic Idealize.ShloMosaic.ValueIdx

variable {α : Type}

/-- The dimension numbers of a row gather with one batching axis: operand `[B, T, M]`, start indices `[B, T, 1]`,
    result `[B, T, M]`; axis 0 is batching on both sides, axis 1 of the operand is the one indexed (collapsed), axis 2
    is carried over whole as the result's offset axis. -/
abbrev rowDims (B T M : Nat)
    (wf : GatherDims.WF ⟨3, ![B, T, M]⟩ ⟨3, ![B, T, 1]⟩ ⟨3, ![B, T, M]⟩ [2] [1] [0] [1] [0] 2 ![1, 1, M]) :
    GatherDims ⟨3, ![B, T, M]⟩ ⟨3, ![B, T, 1]⟩ ⟨3, ![B, T, M]⟩ where
  offsetDims := [2]
  collapsedSliceDims := [1]
  operandBatchingDims := [0]
  startIndicesBatchingDims := [0]
  startIndexMap := [1]
  indexVectorDim := 2
  sliceSizes := ![1, 1, M]
  wf := wf

/-- The batched row gather read at `(b, t, l)`: the operand at row `idx[b, t, 0]` of batch `b`, the row number read
    as a signed integer and clamped into `[0, T − 1]`, column `l`. -/
theorem gather_row_apply {B T M w : Nat} (hT : 0 < T)
    (wf : GatherDims.WF ⟨3, ![B, T, M]⟩ ⟨3, ![B, T, 1]⟩ ⟨3, ![B, T, M]⟩ [2] [1] [0] [1] [0] 2 ![1, 1, M])
    (x : (⟨3, ![B, T, M]⟩ : Shape).Idx → α) (idx : IVec ⟨3, ![B, T, 1]⟩ w)
    (b : Fin B) (t : Fin T) (l : Fin M) :
    Host.gather (rowDims B T M wf) x idx (ix3 b t l)
      = x (ix3 b ⟨min (idx (ix3 b t (0 : Fin 1))).toInt.toNat (T - 1), by omega⟩ l) := by
  unfold Host.gather
  congr 1
  funext a
  refine Fin.ext ?_
  show (rowDims B T M wf).start (ix3 b t l) idx a + (rowDims B T M wf).batchCoord (ix3 b t l) a
    + (rowDims B T M wf).offCoord (ix3 b t l) a = _
  match a with
  | ⟨0, h0⟩ =>
    have hb : (⟨0, h0⟩ : Fin (⟨3, ![B, T, M]⟩ : Shape).rank) ∈ (rowDims B T M wf).operandBatchingDims :=
      List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, h1⟩ =>
    have hnb : (⟨1, h1⟩ : Fin (⟨3, ![B, T, M]⟩ : Shape).rank) ∉ (rowDims B T M wf).operandBatchingDims := by
      intro hm
      exact absurd (congrArg Fin.val (List.mem_singleton.mp hm)) (show (1 : Nat) ≠ 0 by decide)
    have hc : (⟨1, h1⟩ : Fin (⟨3, ![B, T, M]⟩ : Shape).rank) ∈ (rowDims B T M wf).collapsedSliceDims :=
      List.mem_singleton.mpr rfl
    have hm : (⟨1, h1⟩ : Fin (⟨3, ![B, T, M]⟩ : Shape).rank) ∈ (rowDims B T M wf).startIndexMap :=
      List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : (rowDims B T M wf).siIdx (ix3 b t l)
        ⟨List.idxOf (⟨1, h1⟩ : Fin (⟨3, ![B, T, M]⟩ : Shape).rank) (rowDims B T M wf).startIndexMap,
          List.idxOf_lt_length_iff.2 hm⟩ = ix3 b t (0 : Fin 1) := by
      funext c; refine Fin.ext ?_
      match c with
      | ⟨0, _⟩ => rfl
      | ⟨1, _⟩ => rfl
      | ⟨2, _⟩ => rfl
    rw [hsi]
    rfl
  | ⟨2, h2⟩ =>
    have hnb : (⟨2, h2⟩ : Fin (⟨3, ![B, T, M]⟩ : Shape).rank) ∉ (rowDims B T M wf).operandBatchingDims := by
      intro hm
      exact absurd (congrArg Fin.val (List.mem_singleton.mp hm)) (show (2 : Nat) ≠ 0 by decide)
    have hnc : (⟨2, h2⟩ : Fin (⟨3, ![B, T, M]⟩ : Shape).rank) ∉ (rowDims B T M wf).collapsedSliceDims := by
      intro hm
      exact absurd (congrArg Fin.val (List.mem_singleton.mp hm)) (show (2 : Nat) ≠ 1 by decide)
    have hnm : (⟨2, h2⟩ : Fin (⟨3, ![B, T, M]⟩ : Shape).rank) ∉ (rowDims B T M wf).startIndexMap := by
      intro hm
      exact absurd (congrArg Fin.val (List.mem_singleton.mp hm)) (show (2 : Nat) ≠ 1 by decide)
    have hk : (⟨2, h2⟩ : Fin (⟨3, ![B, T, M]⟩ : Shape).rank) ∈ (rowDims B T M wf).sKept :=
      (GatherDims.mem_sKept _ _).mpr ⟨hnc, hnb⟩
    rw [GatherDims.batchCoord_eq_zero _ _ _ hnb]
    unfold GatherDims.start GatherDims.offCoord
    rw [dif_neg hnm, dif_pos hk]
    simp only [Nat.zero_add, Nat.add_zero]
    rfl

/-- The dimension numbers of a gather at two-component start indices on a rank-3 operand: operand `[B, T, M]`, start
    indices `[B, T, 2]` (component 0 names axis 0, component 1 names axis 1), result `[B, T, M]`; axes 0 and 1 of the
    operand are indexed (collapsed), axis 2 is carried over whole as the result's offset axis; no batching axes. -/
abbrev pairDims3 (B T M : Nat)
    (wf : GatherDims.WF ⟨3, ![B, T, M]⟩ ⟨3, ![B, T, 2]⟩ ⟨3, ![B, T, M]⟩ [2] [0, 1] [] [0, 1] [] 2 ![1, 1, M]) :
    GatherDims ⟨3, ![B, T, M]⟩ ⟨3, ![B, T, 2]⟩ ⟨3, ![B, T, M]⟩ where
  offsetDims := [2]
  collapsedSliceDims := [0, 1]
  operandBatchingDims := []
  startIndicesBatchingDims := []
  startIndexMap := [0, 1]
  indexVectorDim := 2
  sliceSizes := ![1, 1, M]
  wf := wf

/-- The two-component gather on a rank-3 operand read at `(b, t, l)`: the operand at batch `idx[b, t, 0]` and row
    `idx[b, t, 1]`, each read as a signed integer and clamped into its axis (`[0, B − 1]`, `[0, T − 1]`), column `l`. -/
theorem gather_pair3_apply {B T M w : Nat} (hB : 0 < B) (hT : 0 < T)
    (wf : GatherDims.WF ⟨3, ![B, T, M]⟩ ⟨3, ![B, T, 2]⟩ ⟨3, ![B, T, M]⟩ [2] [0, 1] [] [0, 1] [] 2 ![1, 1, M])
    (x : (⟨3, ![B, T, M]⟩ : Shape).Idx → α) (idx : IVec ⟨3, ![B, T, 2]⟩ w)
    (b : Fin B) (t : Fin T) (l : Fin M) :
    Host.gather (pairDims3 B T M wf) x idx (ix3 b t l)
      = x (ix3 ⟨min (idx (ix3 b t (0 : Fin 2))).toInt.toNat (B - 1), by omega⟩
            ⟨min (idx (ix3 b t (1 : Fin 2))).toInt.toNat (T - 1), by omega⟩ l) := by
  unfold Host.gather
  congr 1
  funext a
  refine Fin.ext ?_
  show (pairDims3 B T M wf).start (ix3 b t l) idx a + (pairDims3 B T M wf).batchCoord (ix3 b t l) a
    + (pairDims3 B T M wf).offCoord (ix3 b t l) a = _
  rw [GatherDims.batchCoord_eq_zero _ _ _ List.not_mem_nil]
  match a with
  | ⟨0, h0⟩ =>
    have hc : (⟨0, h0⟩ : Fin (⟨3, ![B, T, M]⟩ : Shape).rank) ∈ (pairDims3 B T M wf).collapsedSliceDims := List.mem_cons_self
    have hm : (⟨0, h0⟩ : Fin (⟨3, ![B, T, M]⟩ : Shape).rank) ∈ (pairDims3 B T M wf).startIndexMap := List.mem_cons_self
    rw [GatherDims.offCoord_eq_zero _ _ _ (fun h => ((GatherDims.mem_sKept _ _).mp h).1 hc)]
    simp only [Nat.add_zero]
    unfold GatherDims.start
    rw [dif_pos hm]
    have hsi : (pairDims3 B T M wf).siIdx (ix3 b t l)
        ⟨List.idxOf (⟨0, h0⟩ : Fin (⟨3, ![B, T, M]⟩ : Shape).rank) (pairDims3 B T M wf).startIndexMap,
          List.idxOf_lt_length_iff.2 hm⟩ = ix3 b t (0 : Fin 2) := by
      funext c; refine Fin.ext ?_
      match c with
      | ⟨0, _⟩ => rfl
      | ⟨1, _⟩ => rfl
      | ⟨2, _⟩ => rfl
    rw [hsi]
    rfl
  | ⟨1, h1⟩ =>
    have hc : (⟨1, h1⟩ : Fin (⟨3, ![B, T, M]⟩ : Shape).rank) ∈ (pairDims3 B T M wf).collapsedSliceDims :=
      List.mem_cons_of_mem _ List.mem_cons_self
    have hm : (⟨1, h1⟩ : Fin (⟨3, ![B, T, M]⟩ : Shape).rank) ∈ (pairDims3 B T M wf).startIndexMap :=
      List.mem_cons_of_mem _ List.mem_cons_self
    rw [GatherDims.offCoord_eq_zero _ _ _ (fun h => ((GatherDims.mem_sKept _ _).mp h).1 hc)]
    simp only [Nat.add_zero]
    unfold GatherDims.start
    rw [dif_pos hm]
    have hsi : (pairDims3 B T M wf).siIdx (ix3 b t l)
        ⟨List.idxOf (⟨1, h1⟩ : Fin (⟨3, ![B, T, M]⟩ : Shape).rank) (pairDims3 B T M wf).startIndexMap,
          List.idxOf_lt_length_iff.2 hm⟩ = ix3 b t (1 : Fin 2) := by
      funext c; refine Fin.ext ?_
      match c with
      | ⟨0, _⟩ => rfl
      | ⟨1, _⟩ => rfl
      | ⟨2, _⟩ => rfl
    rw [hsi]
    rfl
  | ⟨2, h2⟩ =>
    have hnc : (⟨2, h2⟩ : Fin (⟨3, ![B, T, M]⟩ : Shape).rank) ∉ (pairDims3 B T M wf).collapsedSliceDims := by
      intro hm
      rcases List.mem_cons.mp hm with h | h
      · exact absurd (congrArg Fin.val h) (show (2 : Nat) ≠ 0 by decide)
      · exact absurd (congrArg Fin.val (List.mem_singleton.mp h)) (show (2 : Nat) ≠ 1 by decide)
    have hnm : (⟨2, h2⟩ : Fin (⟨3, ![B, T, M]⟩ : Shape).rank) ∉ (pairDims3 B T M wf).startIndexMap := hnc
    have hk : (⟨2, h2⟩ : Fin (⟨3, ![B, T, M]⟩ : Shape).rank) ∈ (pairDims3 B T M wf).sKept :=
      (GatherDims.mem_sKept _ _).mpr ⟨hnc, List.not_mem_nil⟩
    unfold GatherDims.start GatherDims.offCoord
    rw [dif_neg hnm, dif_pos hk]
    simp only [Nat.zero_add, Nat.add_zero]
    rfl

/-- The dimension numbers of a gather at two-component start indices on a rank-2 operand: operand `[B, T]`, start
    indices `[B, T, 2]` (component 0 names axis 0, component 1 names axis 1), result `[B, T]`; both operand axes are
    indexed (collapsed), so each result element is a single operand element; no offset and no batching axes. -/
abbrev pairDims2 (B T : Nat)
    (wf : GatherDims.WF ⟨2, ![B, T]⟩ ⟨3, ![B, T, 2]⟩ ⟨2, ![B, T]⟩ [] [0, 1] [] [0, 1] [] 2 ![1, 1]) :
    GatherDims ⟨2, ![B, T]⟩ ⟨3, ![B, T, 2]⟩ ⟨2, ![B, T]⟩ where
  offsetDims := []
  collapsedSliceDims := [0, 1]
  operandBatchingDims := []
  startIndicesBatchingDims := []
  startIndexMap := [0, 1]
  indexVectorDim := 2
  sliceSizes := ![1, 1]
  wf := wf

/-- The two-component gather on a rank-2 operand read at `(b, t)`: the operand at row `idx[b, t, 0]` and column
    `idx[b, t, 1]`, each read as a signed integer and clamped into its axis (`[0, B − 1]`, `[0, T − 1]`). -/
theorem gather_pair2_apply {B T w : Nat} (hB : 0 < B) (hT : 0 < T)
    (wf : GatherDims.WF ⟨2, ![B, T]⟩ ⟨3, ![B, T, 2]⟩ ⟨2, ![B, T]⟩ [] [0, 1] [] [0, 1] [] 2 ![1, 1])
    (x : (⟨2, ![B, T]⟩ : Shape).Idx → α) (idx : IVec ⟨3, ![B, T, 2]⟩ w)
    (b : Fin B) (t : Fin T) :
    Host.gather (pairDims2 B T wf) x idx (ix2 b t)
      = x (ix2 ⟨min (idx (ix3 b t (0 : Fin 2))).toInt.toNat (B - 1), by omega⟩
            ⟨min (idx (ix3 b t (1 : Fin 2))).toInt.toNat (T - 1), by omega⟩) := by
  unfold Host.gather
  congr 1
  funext a
  refine Fin.ext ?_
  show (pairDims2 B T wf).start (ix2 b t) idx a + (pairDims2 B T wf).batchCoord (ix2 b t) a
    + (pairDims2 B T wf).offCoord (ix2 b t) a = _
  rw [GatherDims.batchCoord_eq_zero _ _ _ List.not_mem_nil]
  match a with
  | ⟨0, h0⟩ =>
    have hc : (⟨0, h0⟩ : Fin (⟨2, ![B, T]⟩ : Shape).rank) ∈ (pairDims2 B T wf).collapsedSliceDims := List.mem_cons_self
    have hm : (⟨0, h0⟩ : Fin (⟨2, ![B, T]⟩ : Shape).rank) ∈ (pairDims2 B T wf).startIndexMap := List.mem_cons_self
    rw [GatherDims.offCoord_eq_zero _ _ _ (fun h => ((GatherDims.mem_sKept _ _).mp h).1 hc)]
    simp only [Nat.add_zero]
    unfold GatherDims.start
    rw [dif_pos hm]
    have hsi : (pairDims2 B T wf).siIdx (ix2 b t)
        ⟨List.idxOf (⟨0, h0⟩ : Fin (⟨2, ![B, T]⟩ : Shape).rank) (pairDims2 B T wf).startIndexMap,
          List.idxOf_lt_length_iff.2 hm⟩ = ix3 b t (0 : Fin 2) := by
      funext c; refine Fin.ext ?_
      match c with
      | ⟨0, _⟩ => rfl
      | ⟨1, _⟩ => rfl
      | ⟨2, _⟩ => rfl
    rw [hsi]
    rfl
  | ⟨1, h1⟩ =>
    have hc : (⟨1, h1⟩ : Fin (⟨2, ![B, T]⟩ : Shape).rank) ∈ (pairDims2 B T wf).collapsedSliceDims :=
      List.mem_cons_of_mem _ List.mem_cons_self
    have hm : (⟨1, h1⟩ : Fin (⟨2, ![B, T]⟩ : Shape).rank) ∈ (pairDims2 B T wf).startIndexMap :=
      List.mem_cons_of_mem _ List.mem_cons_self
    rw [GatherDims.offCoord_eq_zero _ _ _ (fun h => ((GatherDims.mem_sKept _ _).mp h).1 hc)]
    simp only [Nat.add_zero]
    unfold GatherDims.start
    rw [dif_pos hm]
    have hsi : (pairDims2 B T wf).siIdx (ix2 b t)
        ⟨List.idxOf (⟨1, h1⟩ : Fin (⟨2, ![B, T]⟩ : Shape).rank) (pairDims2 B T wf).startIndexMap,
          List.idxOf_lt_length_iff.2 hm⟩ = ix3 b t (1 : Fin 2) := by
      funext c; refine Fin.ext ?_
      match c with
      | ⟨0, _⟩ => rfl
      | ⟨1, _⟩ => rfl
      | ⟨2, _⟩ => rfl
    rw [hsi]
    rfl

end Cert.LibGatherPairs

end
-- ==== Proof.Blend.lean ====
/-
  The one law that joins the two programs, entry by entry, on the extended reals. With the masks read as 0 or 1:
  a·(1 − m) + b·m is b where m = 1 and a where m = 0, and y·(e·p + (1 − e)) is y·p where e = 1 and y where e = 0 —
  so blending by arithmetic with a 0/1 mask is selection by the mask's bit. Nothing here needs a finite value:
  on the extended reals 0·x = 0 and 1·x = x for every x, 0 + x = x, and 1 − 1 = 0, 1 − 0 = 1 are about reals.
-/
import Idealize.ShloMosaic.PureOps.Ideal
import Idealize.ShloMosaic.PureOps.Ideal.Laws
import Idealize.ShloMosaic.Lib.ValueIdx

noncomputable section

namespace Cert.Blend

open Idealize.ShloMosaic Idealize.ShloMosaic.ValueIdx

/-- The f32 pattern of 1.0 denotes 1. -/
theorem ofBits_one : Ideal.ofBits .f32 0x3F800000#32 = 1 := by
  simp [Ideal.ofBits, Ideal.ieee, -EReal.coe_mul]; norm_num

/-- The f32 pattern of +0.0 denotes 0. -/
theorem ofBits_zero : Ideal.ofBits .f32 0x00000000#32 = 0 := by
  simp [Ideal.ofBits, Ideal.ieee]

/-- A bit read as a float is 1 for the bit 1. -/
theorem uitofp_one : FloatOps.uitofp (F := Ideal) .f32 (1#1 : BitVec 1) = 1 := by
  show (((1#1 : BitVec 1).toNat : ℝ) : EReal) = 1
  simp

/-- A bit read as a float is 0 for the bit 0. -/
theorem uitofp_zero : FloatOps.uitofp (F := Ideal) .f32 (0#1 : BitVec 1) = 0 := by
  show (((0#1 : BitVec 1).toNat : ℝ) : EReal) = 0
  simp

theorem one_sub_one : (1 : EReal) - 1 = 0 := by
  have : ((1 : ℝ) : EReal) - ((1 : ℝ) : EReal) = ((1 - 1 : ℝ) : EReal) := (EReal.coe_sub 1 1).symm
  simpa using this

/-- Blending by arithmetic with 0/1 masks is selection by the masks' bits (the clip applied to both sides). -/
theorem blend (k lo e : BitVec 1) (x xs g lp : EReal) :
    FloatOps.minimumf (F := Ideal) (φ := .f32) (FloatOps.ofBits .f32 0x3F800000#32) (FloatOps.maximumf (FloatOps.ofBits .f32 0x00000000#32)
      (FloatOps.mulf (FloatOps.mulf (FloatOps.addf
          (FloatOps.mulf (FloatOps.mulf x (FloatOps.uitofp .f32 k)) (FloatOps.subf (FloatOps.ofBits .f32 0x3F800000#32) (FloatOps.uitofp .f32 lo)))
          (FloatOps.mulf xs (FloatOps.uitofp .f32 lo))) g)
        (FloatOps.addf (FloatOps.mulf (FloatOps.uitofp .f32 e) lp) (FloatOps.subf (FloatOps.ofBits .f32 0x3F800000#32) (FloatOps.uitofp .f32 e)))))
    = FloatOps.minimumf (F := Ideal) (φ := .f32) (FloatOps.ofBits .f32 0x3F800000#32) (FloatOps.maximumf (FloatOps.ofBits .f32 0x00000000#32)
      (Scalar.select e
        (FloatOps.mulf (FloatOps.mulf (Scalar.select lo xs (FloatOps.mulf x (FloatOps.uitofp .f32 k))) g) lp)
        (FloatOps.mulf (Scalar.select lo xs (FloatOps.mulf x (FloatOps.uitofp .f32 k))) g))) := by
  simp only [Ideal.ofBits_def, ofBits_one, ofBits_zero, Ideal.mulf_def, Ideal.addf_def, Ideal.subf_def]
  by_cases hlo : lo = 1#1 <;> by_cases he : e = 1#1
  · subst hlo; subst he
    simp only [uitofp_one, select_one, one_sub_one, mul_zero, zero_add, mul_one, one_mul, add_zero]
  · subst hlo; obtain rfl := eq_zero_of_ne_one he
    simp only [uitofp_one, uitofp_zero, select_one, select_zero, one_sub_one, sub_zero, mul_zero, zero_add, mul_one, zero_mul]
  · obtain rfl := eq_zero_of_ne_one hlo; subst he
    simp only [uitofp_one, uitofp_zero, select_one, select_zero, one_sub_one, sub_zero, mul_zero, add_zero, mul_one, one_mul]
  · obtain rfl := eq_zero_of_ne_one hlo; obtain rfl := eq_zero_of_ne_one he
    simp only [uitofp_zero, select_zero, sub_zero, mul_zero, add_zero, mul_one, zero_mul, zero_add]

end Cert.Blend

end
-- ==== Proof.Bridge.lean ====
/-
  The bridge between the two programs at the ideal instance: the kernel's result, as one function of its seven operand
  arrays, is the reference's result, entry by entry.  At (b, t, l) every array of either program is read down to scalars:
  both programs read the mel array and the keep mask at the same source frame s(b, t) of the same batch row b (the
  kernel by a two-component start index whose batch component is b itself, the reference by a row gather under a batch
  axis), and the same loop mask, gain, effect mask and low-pass factor; what is left is the scalar law that blending by
  arithmetic with 0/1 masks is selection by their bits.
-/
import proofs.«180310_j25288767439135_1_alg».proof.Proof.SpecAtoms
import proofs.«180310_j25288767439135_1_alg».proof.Proof.LibGatherPairs
import proofs.«180310_j25288767439135_1_alg».proof.Proof.SpecKernel
import proofs.«180310_j25288767439135_1_alg».proof.Proof.Blend

noncomputable section

namespace Cert.Spec

open Idealize.ShloMosaic Idealize.ShloMosaic.ValueIdx Cert.LibGatherPairs

variable {F : FTy → Type} [FloatOps F]

/-! ## Indices and elementwise operations at an index -/

/-- Rank-3 indices with equal coordinates are equal. -/
theorem ix3_ext {n0 n1 n2 : Nat} {a a' : Fin n0} {b b' : Fin n1} {c c' : Fin n2}
    (ha : a.val = a'.val) (hb : b.val = b'.val) (hc : c.val = c'.val) : ix3 a b c = ix3 a' b' c' := by
  obtain rfl := Fin.ext ha; obtain rfl := Fin.ext hb; obtain rfl := Fin.ext hc; rfl

/-- Rank-2 indices with equal coordinates are equal. -/
theorem ix2_ext {n0 n1 : Nat} {a a' : Fin n0} {b b' : Fin n1}
    (ha : a.val = a'.val) (hb : b.val = b'.val) : ix2 a b = ix2 a' b' := by
  obtain rfl := Fin.ext ha; obtain rfl := Fin.ext hb; rfl

/-- The (b, t) part of the index (b, t, l). -/
theorem bt_ix3 (b : Fin 32) (t : Fin 8192) (l : Fin 128) : bt (ix3 b t l) = ix2 b t := by
  funext a
  match a with
  | ⟨0, _⟩ => rfl
  | ⟨1, _⟩ => rfl

/-- A product of arrays at an index is the product of the elements. -/
theorem mulf_at {s : Shape} {φ : FTy} (x y : FVec F s φ) (i : s.Idx) : mulf x y i = FloatOps.mulf (x i) (y i) := rfl
/-- A minimum of arrays at an index is the minimum of the elements. -/
theorem minimumf_at {s : Shape} {φ : FTy} (x y : FVec F s φ) (i : s.Idx) :
    minimumf x y i = FloatOps.minimumf (x i) (y i) := rfl
/-- A maximum of arrays at an index is the maximum of the elements. -/
theorem maximumf_at {s : Shape} {φ : FTy} (x y : FVec F s φ) (i : s.Idx) :
    maximumf x y i = FloatOps.maximumf (x i) (y i) := rfl
/-- A bit array read as floats, at an index, is the element's bit read as a float. -/
theorem uitofp_at {s : Shape} {w : Nat} (x : IVec s w) (i : s.Idx) :
    (uitofp .f32 x : FVec F s .f32) i = FloatOps.uitofp .f32 (x i) := rfl

/-! ## The source frame, and the arrays of both programs read at (b, t, l) -/

/-- The source frame of (b, t): the wrapped source index read as a signed integer and clamped into [0, 8191]. -/
def sK (L : IVec S32x8192 32) (b : Fin 32) (t : Fin 8192) : Fin 8192 :=
  ⟨min (wrap 8192#32 (srcK L) (ix2 b t)).toInt.toNat (8192 - 1), by omega⟩

/-- The masked mel array at (b, t, l): mel times the keep bit of (b, t) read as a float. -/
theorem x10_apply (mel : FVec F S32x8192x128 .f32) (L : IVec S32x8192 32) (b : Fin 32) (t : Fin 8192) (l : Fin 128) :
    x10 mel L (ix3 b t l) = FloatOps.mulf (mel (ix3 b t l)) (FloatOps.uitofp .f32 (keepI L (ix2 b t))) := by
  unfold x10
  rw [mulf_at, bcast_chan_apply, uitofp_at, bcast_unit_apply]

/-- The reference's row gather at (b, t, l) reads the masked array at the source frame of (b, t), in batch row b. -/
theorem x59_apply (mel : FVec F S32x8192x128 .f32) (L : IVec S32x8192 32) (b : Fin 32) (t : Fin 8192) (l : Fin 128) :
    x59 mel L (ix3 b t l) = x10 mel L (ix3 b (sK L b t) l) := by
  show Host.gather (rowDims 32 8192 128 wf_rows) (x10 mel L)
    (broadcastInDim S32x8192x1 ![0, 1] bc_S32x8192_S32x8192x1 (wrap 8192#32 (srcR L))) (ix3 b t l) = _
  rw [gather_row_apply (show 0 < 8192 by decide)]
  refine congrArg (x10 mel L) (ix3_ext rfl ?_ rfl)
  show min ((broadcastInDim S32x8192x1 ![0, 1] bc_S32x8192_S32x8192x1 (wrap 8192#32 (srcR L)))
    (ix3 b t (0 : Fin 1))).toInt.toNat (8192 - 1) = (sK L b t).val
  rw [bcast_unit_apply, srcR_eq]
  rfl

/-- The kernel's gather of mel rows at (b, t, l) reads mel at the source frame of (b, t), in batch row b: the batch
    component of its start index is b itself. -/
theorem xsrcK_apply (mel : FVec F S32x8192x128 .f32) (L : IVec S32x8192 32) (b : Fin 32) (t : Fin 8192) (l : Fin 128) :
    xsrcK mel L (ix3 b t l) = mel (ix3 b (sK L b t) l) := by
  show Host.gather (pairDims3 32 8192 128 wf_pair3) mel (gidxK L) (ix3 b t l) = _
  rw [gather_pair3_apply (show 0 < 32 by decide) (show 0 < 8192 by decide)]
  refine congrArg mel (ix3_ext ?_ ?_ rfl)
  · show min (gidxK L (ix3 b t (0 : Fin 2))).toInt.toNat (32 - 1) = b.val
    rw [gidxK_zero]
    exact wrap_bIdx_clamp b t
  · show min (gidxK L (ix3 b t (1 : Fin 2))).toInt.toNat (8192 - 1) = (sK L b t).val
    rw [gidxK_one]
    rfl

/-- The kernel's gather of the keep mask at (b, t) reads the keep bit at the source frame of (b, t), in batch row b. -/
theorem keepsrcK_apply (L : IVec S32x8192 32) (b : Fin 32) (t : Fin 8192) :
    keepsrcK (F := F) L (ix2 b t) = FloatOps.uitofp .f32 (keepI L (ix2 b (sK L b t))) := by
  show Host.gather (pairDims2 32 8192 wf_pair2) (keepFK (F := F) L) (gidxK L) (ix2 b t) = _
  rw [gather_pair2_apply (show 0 < 32 by decide) (show 0 < 8192 by decide)]
  refine congrArg (keepFK (F := F) L) (ix2_ext ?_ ?_)
  · show min (gidxK L (ix3 b t (0 : Fin 2))).toInt.toNat (32 - 1) = b.val
    rw [gidxK_zero]
    exact wrap_bIdx_clamp b t
  · show min (gidxK L (ix3 b t (1 : Fin 2))).toInt.toNat (8192 - 1) = (sK L b t).val
    rw [gidxK_one]
    rfl

/-- The reference's loop blend at (b, t, l): by the loop bit of (b, t), the masked array at the source frame or at t. -/
theorem x60_apply (mel : FVec F S32x8192x128 .f32) (L : IVec S32x8192 32) (b : Fin 32) (t : Fin 8192) (l : Fin 128) :
    x60 mel L (ix3 b t l) = Scalar.select (loopI L (stK L) (enK L) (ix2 b t))
      (FloatOps.mulf (mel (ix3 b (sK L b t) l)) (FloatOps.uitofp .f32 (keepI L (ix2 b (sK L b t)))))
      (FloatOps.mulf (mel (ix3 b t l)) (FloatOps.uitofp .f32 (keepI L (ix2 b t)))) := by
  unfold x60
  rw [select_apply, chan_apply, x59_apply, x10_apply, x10_apply, loopR_eq]

/-- The reference's gained array at (b, t, l): the loop blend times the gain of (b, t). -/
theorem x82_apply (mel : FVec F S32x8192x128 .f32) (L : IVec S32x8192 32) (b : Fin 32) (t : Fin 8192) (l : Fin 128) :
    x82 mel L (ix3 b t l) = FloatOps.mulf (x60 mel L (ix3 b t l)) (gainK L (ix2 b t)) := by
  unfold x82
  rw [mulf_at, chan_apply, gainR_eq]

/-- The low-pass factor of channel l, in the reference's spelling and in the kernel's. -/
theorem lpRow_apply (l : Fin 128) : (lpRow : FVec F S128 .f32) (ix1 l) = lpK l.val := rfl

/-- The reference's array after the effect at (b, t, l): by the effect bit of (b, t), the gained array times the
    low-pass factor of channel l, or the gained array. -/
theorem x95_apply (mel : FVec F S32x8192x128 .f32) (L : IVec S32x8192 32) (b : Fin 32) (t : Fin 8192) (l : Fin 128) :
    x95 mel L (ix3 b t l) = Scalar.select (effI L (ix2 b t))
      (FloatOps.mulf (x82 mel L (ix3 b t l)) (lpK l.val)) (x82 mel L (ix3 b t l)) := by
  unfold x95
  rw [select_apply, chan_apply, mulf_at, lp3_apply, lpRow_apply]

/-- The reference's result at (b, t, l), read down to scalars. -/
theorem outR_apply (mel : FVec F S32x8192x128 .f32) (L : IVec S32x8192 32) (b : Fin 32) (t : Fin 8192) (l : Fin 128) :
    outR mel L (ix3 b t l)
      = FloatOps.minimumf (FloatOps.ofBits .f32 0x3F800000#32) (FloatOps.maximumf (FloatOps.ofBits .f32 0x00000000#32)
        (Scalar.select (effI L (ix2 b t))
          (FloatOps.mulf (FloatOps.mulf (Scalar.select (loopI L (stK L) (enK L) (ix2 b t))
              (FloatOps.mulf (mel (ix3 b (sK L b t) l)) (FloatOps.uitofp .f32 (keepI L (ix2 b (sK L b t)))))
              (FloatOps.mulf (mel (ix3 b t l)) (FloatOps.uitofp .f32 (keepI L (ix2 b t))))) (gainK L (ix2 b t))) (lpK l.val))
          (FloatOps.mulf (Scalar.select (loopI L (stK L) (enK L) (ix2 b t))
              (FloatOps.mulf (mel (ix3 b (sK L b t) l)) (FloatOps.uitofp .f32 (keepI L (ix2 b (sK L b t)))))
              (FloatOps.mulf (mel (ix3 b t l)) (FloatOps.uitofp .f32 (keepI L (ix2 b t))))) (gainK L (ix2 b t))))) := by
  unfold outR
  rw [minimumf_at, maximumf_at, bcast_const3_apply, bcast_const3_apply, x95_apply, x82_apply, x60_apply]

/-- The kernel's result at (b, t, l), read down to scalars. -/
theorem GK_apply (mel : FVec F S32x8192x128 .f32) (L : IVec S32x8192 32) (b : Fin 32) (t : Fin 8192) (l : Fin 128) :
    GK mel (xsrcK mel L) (keepFK L) (keepsrcK L) (loopFK L) (gainK L) (effFK L) (ix3 b t l)
      = FloatOps.minimumf (FloatOps.ofBits .f32 0x3F800000#32) (FloatOps.maximumf (FloatOps.ofBits .f32 0x00000000#32)
        (FloatOps.mulf (FloatOps.mulf (FloatOps.addf
            (FloatOps.mulf (FloatOps.mulf (mel (ix3 b t l)) (FloatOps.uitofp .f32 (keepI L (ix2 b t))))
              (FloatOps.subf (FloatOps.ofBits .f32 0x3F800000#32) (FloatOps.uitofp .f32 (loopI L (stK L) (enK L) (ix2 b t)))))
            (FloatOps.mulf (FloatOps.mulf (mel (ix3 b (sK L b t) l)) (FloatOps.uitofp .f32 (keepI L (ix2 b (sK L b t)))))
              (FloatOps.uitofp .f32 (loopI L (stK L) (enK L) (ix2 b t))))) (gainK L (ix2 b t)))
          (FloatOps.addf (FloatOps.mulf (FloatOps.uitofp .f32 (effI L (ix2 b t))) (lpK l.val))
            (FloatOps.subf (FloatOps.ofBits .f32 0x3F800000#32) (FloatOps.uitofp .f32 (effI L (ix2 b t))))))) := by
  unfold GK
  rw [bt_ix3, xsrcK_apply, keepsrcK_apply]
  rfl

/-! ## The bridge -/

/-- The kernel's result on its seven operand arrays is the reference's result, at the ideal instance. -/
theorem bridge (mel : FVec Ideal S32x8192x128 .f32) (L : IVec S32x8192 32) :
    GK (F := Ideal) mel (xsrcK mel L) (keepFK L) (keepsrcK L) (loopFK L) (gainK L) (effFK L) = outR mel L := by
  funext i
  obtain ⟨b, t, l, rfl⟩ : ∃ (b : Fin 32) (t : Fin 8192) (l : Fin 128), i = ix3 b t l := ⟨_, _, _, eq_ix3 i⟩
  rw [GK_apply, outR_apply]
  exact Cert.Blend.blend (keepI L (ix2 b t)) (loopI L (stK L) (enK L) (ix2 b t)) (effI L (ix2 b t)) (mel (ix3 b t l))
    (FloatOps.mulf (mel (ix3 b (sK L b t) l)) (FloatOps.uitofp .f32 (keepI L (ix2 b (sK L b t)))))
    (gainK (F := Ideal) L (ix2 b t)) (lpK (F := Ideal) l.val)

end Cert.Spec

end
-- ==== Proof.KernelRun.lean ====
/-
  The kernel's run, read: its result array ends as the reference's function of the two arguments. The frame run
  leaves the output array as the 32 blocks the grid points wrote; the blocks are `GK` of the operand arrays; the
  operand arrays are the specification's terms of the arguments; and `GK` of those is the reference's result (the bridge).
-/
import proofs.«180310_j25288767439135_1_alg».proof.Proof.KernelArrays
import proofs.«180310_j25288767439135_1_alg».proof.Proof.KernelBlocks
import proofs.«180310_j25288767439135_1_alg».proof.Proof.Bridge

noncomputable section

namespace Cert.KernelLeg

open Cert.KernelIdeal Cert.KernelIdeal.Gen Cert.KernelIdeal.Value Idealize.ShloMosaic Idealize.ShloMosaic.TcCoe Idealize.SL.Sem

variable (m : (ℓ : Loc nD τ sig) → Buf (Elt Ideal) ℓ) (ρ : Dev nD → PrngReg)

/-- The output array after the run, as the reference's function of the arguments. -/
theorem final_eq (c : Dev nD) : (dats m 0 c).arrAt 7 cfg0.N
    = Cert.Spec.outR (F := Ideal) (m ((c : Thread nD τ).loc main_arg0)) (m ((c : Thread nD τ).loc main_arg1)) := by
  rw [final7, V_main_arg0, V_xsrc, V_keep, V_keepsrc, V_loop, V_gain, V_eff]
  exact Cert.Spec.bridge _ _

/-- Every weakly fair execution of the idealized kernel terminates with its result at the reference's function of the
    arguments, and the arguments unchanged. -/
theorem run : θ_run defs (onTc (τ := τ) (main (F := Ideal))) ⟨m, fun _ => 0, ρ⟩ fun r => ∀ c : Dev nD,
      r.2.mem ((c : Thread nD τ).loc main_v103) = Cert.Spec.outR (F := Ideal) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_eq m c), (h c).2⟩) (run_blocks m ρ)

end Cert.KernelLeg

end
-- ==== Proof.RefOps.lean ====
import proofs.«180310_j25288767439135_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The operations 1 … 95 of 179: the statements of `main_part0` in order, each call's body written out at the call over the call's record. -/
abbrev ops0 : List (HloOp τ sig (Elt F)) :=
  [ StableHlo.nullary main_c (constantI S1 1 1#1),
    StableHlo.nullary main_c_0 (constantI S1 1 1#1),
    StableHlo.nullary main_v0 (iotaInDim S8192 32 0),
    StableHlo.nullary main_c_1 (constantI S_ 32 0#32),
    StableHlo.unary main_c_1 main_v1 (broadcastInDim S32x8192 ![] bcast_S_S32x8192 : (⟨S_, .i32⟩ : BufTy).Contents (Elt F) → (⟨S32x8192, .i32⟩ : BufTy).Contents (Elt F)),
    StableHlo.binary main_arg1 main_v1 main_v2 (cmpi .eq : (⟨S32x8192, .i32⟩ : BufTy).Contents (Elt F) → (⟨S32x8192, .i32⟩ : BufTy).Contents (Elt F) → (⟨S32x8192, .i1⟩ : BufTy).Contents (Elt F)),
    StableHlo.nullary main_c_2 (constantI S_ 32 7#32),
    StableHlo.unary main_c_2 main_v3 (broadcastInDim S32x8192 ![] bcast_S_S32x8192 : (⟨S_, .i32⟩ : BufTy).Contents (Elt F) → (⟨S32x8192, .i32⟩ : BufTy).Contents (Elt F)),
    StableHlo.binary main_arg1 main_v3 main_v4 (cmpi .eq : (⟨S32x8192, .i32⟩ : BufTy).Contents (Elt F) → (⟨S32x8192, .i32⟩ : BufTy).Contents (Elt F) → (⟨S32x8192, .i1⟩ : BufTy).Contents (Elt F)),
    StableHlo.binary main_v2 main_v4 main_v5 (ori : (⟨S32x8192, .i1⟩ : BufTy).Contents (Elt F) → (⟨S32x8192, .i1⟩ : BufTy).Contents (Elt F) → (⟨S32x8192, .i1⟩ : BufTy).Contents (Elt F)),
    StableHlo.unary main_v5 main_v6 (noti : (⟨S32x8192, .i1⟩ : BufTy).Contents (Elt F) → (⟨S32x8192, .i1⟩ : BufTy).Contents (Elt F)),
    StableHlo.unary main_v6 main_v7 (broadcastInDim S32x8192x1 ![0, 1] bcast_S32x8192_S32x8192x1_0_1 : (⟨S32x8192, .i1⟩ : BufTy).Contents (Elt F) → (⟨S32x8192x1, .i1⟩ : BufTy).Contents (Elt F)),
    StableHlo.unary main_v7 main_v8 (uitofp .f32 : (⟨S32x8192x1, .i1⟩ : BufTy).Contents (Elt F) → (⟨S32x8192x1, .f32⟩ : BufTy).Contents (Elt F)),
    StableHlo.unary main_v8 main_v9 (broadcastInDim S32x8192x128 ![0, 1, 2] bcast_S32x8192x1_S32x8192x128_0_1_2 : (⟨S32x8192x1, .f32⟩ : BufTy).Contents (Elt F) → (⟨S32x8192x128, .f32⟩ : BufTy).Contents (Elt F)),
    StableHlo.binary main_arg0 main_v9 main_v10 (mulf : (⟨S32x8192x128, .f32⟩ : BufTy).Contents (Elt F) → (⟨S32x8192x128, .f32⟩ : BufTy).Contents (Elt F) → (⟨S32x8192x128, .f32⟩ : BufTy).Contents (Elt F)),
    StableHlo.unary main_arg1 main_v11 ((extractStridedSlice S32x8191 ![0, 1] · slices_S32x8192_S32x8191_0_1) : (⟨S32x8192, .i32⟩ : BufTy).Contents (Elt F) → (⟨S32x8191, .i32⟩ : BufTy).Contents (Elt F)),
    StableHlo.unary main_arg1 main_v12 ((extractStridedSlice S32x8191 ![0, 0] · slices_S32x8192_S32x8191_0_0) : (⟨S32x8192, .i32⟩ : BufTy).Contents (Elt F) → (⟨S32x8191, .i32⟩ : BufTy).Contents (Elt F)),
    StableHlo.binary main_v11 main_v12 main_v13 (cmpi .ne : (⟨S32x8191, .i32⟩ : BufTy).Contents (Elt F) → (⟨S32x8191, .i32⟩ : BufTy).Contents (Elt F) → (⟨S32x8191, .i1⟩ : BufTy).Contents (Elt F)),
    StableHlo.unary main_c main_v14 (broadcastInDim S32x1 ![1] bcast_S1_S32x1_1 : (⟨S1, .i1⟩ : BufTy).Contents (Elt F) → (⟨S32x1, .i1⟩ : BufTy).Contents (Elt F)),
    StableHlo.binary main_v14 main_v13 main_v15 ((fun a b => concatenate S32x8192 1 [⟨S32x1, a⟩, ⟨S32x8191, b⟩] concatenates_S32x1_S32x8191_S32x8192_d1) : (⟨S32x1, .i1⟩ : BufTy).Contents (Elt F) → (⟨S32x8191, .i1⟩ : BufTy).Contents (Elt F) → (⟨S32x8192, .i1⟩ : BufTy).Contents (Elt F)),
    StableHlo.unary main_c_0 main_v16 (broadcastInDim S32x1 ![1] bcast_S1_S32x1_1 : (⟨S1, .i1⟩ : BufTy).Contents (Elt F) → (⟨S32x1, .i1⟩ : BufTy).Contents (Elt F)),
    StableHlo.binary main_v13 main_v16 main_v17 ((fun a b => concatenate S32x8192 1 [⟨S32x8191, a⟩, ⟨S32x1, b⟩] concatenates_S32x8191_S32x1_S32x8192_d1) : (⟨S32x8191, .i1⟩ : BufTy).Contents (Elt F) → (⟨S32x1, .i1⟩ : BufTy).Contents (Elt F) → (⟨S32x8192, .i1⟩ : BufTy).Contents (Elt F)),
    StableHlo.nullary main_c_3 (constantI S_ 32 0#32),
    StableHlo.TRef.unary (.of main_c_3 : StableHlo.TRef sig ⟨S_, .i32⟩) main_call0.v0 id,
    StableHlo.TRef.unary main_call0.v0 main_call0.v1 (broadcastInDim S8192 ![] bcast_S_S8192),
    StableHlo.TRef.unary main_call0.v1 main_call0.v2 (broadcastInDim S32x8192 ![1] bcast_S8192_S32x8192_1),
    StableHlo.TRef.unary (.of main_v0 : StableHlo.TRef sig ⟨S8192, .i32⟩) main_call0.v3 (broadcastInDim S32x8192 ![1] bcast_S8192_S32x8192_1),
    StableHlo.TRef.ternary (.of main_v15 : StableHlo.TRef sig ⟨S32x8192, .i1⟩) main_call0.v3 main_call0.v2 main_call0.v4 select,
    StableHlo.TRef.nullary main_call1.c (constantI S_ 32 2147483648#32),
    StableHlo.TRef.unary main_call1.c main_call1.v0 (broadcastInDim S_ ![] bcast_S_S_),
    StableHlo.TRef.binary (.of main_v18 : StableHlo.TRef sig ⟨S32x8192, .i32⟩) main_call1.v0 main_call1.v1 (fun x v => Host.reduceWindow IntOp.maxsi ![1, 8192] ![1, 1] ![0, 8191] ![0, 0] x v reduceWindows_S32x8192_S32x8192_w1s1p0_0_w8192s1p8191_0 h_S_),
    StableHlo.nullary main_c_4 (constantI S_ 32 1#32),
    StableHlo.unary main_c_4 main_v20 (broadcastInDim S8192 ![] bcast_S_S8192 : (⟨S_, .i32⟩ : BufTy).Contents (Elt F) → (⟨S8192, .i32⟩ : BufTy).Contents (Elt F)),
    StableHlo.binary main_v0 main_v20 main_v21 (addi : (⟨S8192, .i32⟩ : BufTy).Contents (Elt F) → (⟨S8192, .i32⟩ : BufTy).Contents (Elt F) → (⟨S8192, .i32⟩ : BufTy).Contents (Elt F)),
    StableHlo.nullary main_c_5 (constantI S_ 32 8192#32),
    StableHlo.TRef.unary (.of main_c_5 : StableHlo.TRef sig ⟨S_, .i32⟩) main_call2.v0 id,
    StableHlo.TRef.unary main_call2.v0 main_call2.v1 (broadcastInDim S8192 ![] bcast_S_S8192),
    StableHlo.TRef.unary main_call2.v1 main_call2.v2 (broadcastInDim S32x8192 ![1] bcast_S8192_S32x8192_1),
    StableHlo.TRef.unary (.of main_v21 : StableHlo.TRef sig ⟨S8192, .i32⟩) main_call2.v3 (broadcastInDim S32x8192 ![1] bcast_S8192_S32x8192_1),
    StableHlo.TRef.ternary (.of main_v17 : StableHlo.TRef sig ⟨S32x8192, .i1⟩) main_call2.v3 main_call2.v2 main_call2.v4 select,
    StableHlo.TRef.unary (.of main_v22 : StableHlo.TRef sig ⟨S32x8192, .i32⟩) main_call3.v0 (Host.reverse [1]),
    StableHlo.TRef.nullary main_call4.c (constantI S_ 32 2147483647#32),
    StableHlo.TRef.unary main_call4.c main_call4.v0 (broadcastInDim S_ ![] bcast_S_S_),
    StableHlo.TRef.binary (.of main_v23 : StableHlo.TRef sig ⟨S32x8192, .i32⟩) main_call4.v0 main_call4.v1 (fun x v => Host.reduceWindow IntOp.minsi ![1, 8192] ![1, 1] ![0, 8191] ![0, 0] x v reduceWindows_S32x8192_S32x8192_w1s1p0_0_w8192s1p8191_0 h_S_),
    StableHlo.TRef.unary (.of main_v24 : StableHlo.TRef sig ⟨S32x8192, .i32⟩) main_call5.v0 (Host.reverse [1]),
    StableHlo.binary main_v25 main_v19 main_v26 (subi : (⟨S32x8192, .i32⟩ : BufTy).Contents (Elt F) → (⟨S32x8192, .i32⟩ : BufTy).Contents (Elt F) → (⟨S32x8192, .i32⟩ : BufTy).Contents (Elt F)),
    StableHlo.unary main_v0 main_v27 (broadcastInDim S1x8192 ![1] bcast_S8192_S1x8192_1 : (⟨S8192, .i32⟩ : BufTy).Contents (Elt F) → (⟨S1x8192, .i32⟩ : BufTy).Contents (Elt F)),
    StableHlo.unary main_v27 main_v28 (broadcastInDim S32x8192 ![0, 1] bcast_S1x8192_S32x8192_0_1 : (⟨S1x8192, .i32⟩ : BufTy).Contents (Elt F) → (⟨S32x8192, .i32⟩ : BufTy).Contents (Elt F)),
    StableHlo.binary main_v28 main_v19 main_v29 (subi : (⟨S32x8192, .i32⟩ : BufTy).Contents (Elt F) → (⟨S32x8192, .i32⟩ : BufTy).Contents (Elt F) → (⟨S32x8192, .i32⟩ : BufTy).Contents (Elt F)),
    StableHlo.unary main_v29 main_v30 (sitofp .f32 : (⟨S32x8192, .i32⟩ : BufTy).Contents (Elt F) → (⟨S32x8192, .f32⟩ : BufTy).Contents (Elt F)),
    StableHlo.nullary main_c_6 (constantI S_ 32 1#32),
    StableHlo.unary main_c_6 main_v31 (broadcastInDim S32x8192 ![] bcast_S_S32x8192 : (⟨S_, .i32⟩ : BufTy).Contents (Elt F) → (⟨S32x8192, .i32⟩ : BufTy).Contents (Elt F)),
    StableHlo.binary main_v26 main_v31 main_v32 (subi : (⟨S32x8192, .i32⟩ : BufTy).Contents (Elt F) → (⟨S32x8192, .i32⟩ : BufTy).Contents (Elt F) → (⟨S32x8192, .i32⟩ : BufTy).Contents (Elt F)),
    StableHlo.nullary main_c_7 (constantI S_ 32 1#32),
    StableHlo.unary main_c_7 main_v33 (broadcastInDim S32x8192 ![] bcast_S_S32x8192 : (⟨S_, .i32⟩ : BufTy).Contents (Elt F) → (⟨S32x8192, .i32⟩ : BufTy).Contents (Elt F)),
    StableHlo.binary main_v32 main_v33 main_v34 (maxsi : (⟨S32x8192, .i32⟩ : BufTy).Contents (Elt F) → (⟨S32x8192, .i32⟩ : BufTy).Contents (Elt F) → (⟨S32x8192, .i32⟩ : BufTy).Contents (Elt F)),
    StableHlo.unary main_v34 main_v35 (sitofp .f32 : (⟨S32x8192, .i32⟩ : BufTy).Contents (Elt F) → (⟨S32x8192, .f32⟩ : BufTy).Contents (Elt F)),
    StableHlo.binary main_v30 main_v35 main_v36 (Host.divf : (⟨S32x8192, .f32⟩ : BufTy).Contents (Elt F) → (⟨S32x8192, .f32⟩ : BufTy).Contents (Elt F) → (⟨S32x8192, .f32⟩ : BufTy).Contents (Elt F)),
    StableHlo.binary main_v26 main_v19 main_v37 (minsi : (⟨S32x8192, .i32⟩ : BufTy).Contents (Elt F) → (⟨S32x8192, .i32⟩ : BufTy).Contents (Elt F) → (⟨S32x8192, .i32⟩ : BufTy).Contents (Elt F)),
    StableHlo.binary main_v19 main_v37 main_v38 (subi : (⟨S32x8192, .i32⟩ : BufTy).Contents (Elt F) → (⟨S32x8192, .i32⟩ : BufTy).Contents (Elt F) → (⟨S32x8192, .i32⟩ : BufTy).Contents (Elt F)),
    StableHlo.nullary main_c_8 (constantI S_ 32 0#32),
    StableHlo.unary main_c_8 main_v39 (broadcastInDim S32x8192 ![] bcast_S_S32x8192 : (⟨S_, .i32⟩ : BufTy).Contents (Elt F) → (⟨S32x8192, .i32⟩ : BufTy).Contents (Elt F)),
    StableHlo.binary main_v37 main_v39 main_v40 (cmpi .sgt : (⟨S32x8192, .i32⟩ : BufTy).Contents (Elt F) → (⟨S32x8192, .i32⟩ : BufTy).Contents (Elt F) → (⟨S32x8192, .i1⟩ : BufTy).Contents (Elt F)),
    StableHlo.nullary main_c_9 (constantI S_ 32 1#32),
    StableHlo.unary main_c_9 main_v41 (broadcastInDim S32x8192 ![] bcast_S_S32x8192 : (⟨S_, .i32⟩ : BufTy).Contents (Elt F) → (⟨S32x8192, .i32⟩ : BufTy).Contents (Elt F)),
    StableHlo.binary main_v37 main_v41 main_v42 (maxsi : (⟨S32x8192, .i32⟩ : BufTy).Contents (Elt F) → (⟨S32x8192, .i32⟩ : BufTy).Contents (Elt F) → (⟨S32x8192, .i32⟩ : BufTy).Contents (Elt F)),
    StableHlo.TRef.nullary main_call6.c (constantI S_ 32 0#32),
    StableHlo.TRef.unary main_call6.c main_call6.v0 (broadcastInDim S32x8192 ![] bcast_S_S32x8192),
    StableHlo.TRef.binary (.of main_v42 : StableHlo.TRef sig ⟨S32x8192, .i32⟩) main_call6.v0 main_call6.v1 (cmpi .eq),
    StableHlo.TRef.nullary main_call6.c_0 (constantI S_ 32 1#32),
    StableHlo.TRef.unary main_call6.c_0 main_call6.v2 (broadcastInDim S8192 ![] bcast_S_S8192),
    StableHlo.TRef.unary main_call6.v2 main_call6.call0.v0 (broadcastInDim S32x8192 ![1] bcast_S8192_S32x8192_1),
    StableHlo.TRef.ternary main_call6.v1 main_call6.call0.v0 (.of main_v42 : StableHlo.TRef sig ⟨S32x8192, .i32⟩) main_call6.call0.v1 select,
    StableHlo.TRef.binary (.of main_v29 : StableHlo.TRef sig ⟨S32x8192, .i32⟩) main_call6.call0.v1 main_call6.v4 Host.remsi,
    StableHlo.TRef.nullary main_call6.c_1 (constantI S_ 32 0#32),
    StableHlo.TRef.unary main_call6.c_1 main_call6.v5 (broadcastInDim S32x8192 ![] bcast_S_S32x8192),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S32x8192 ![] bcast_S_S32x8192),
    StableHlo.TRef.binary main_call6.v4 main_call6.v7 main_call6.v8 (cmpi .slt),
    StableHlo.TRef.nullary main_call6.c_3 (constantI S_ 32 0#32),
    StableHlo.TRef.unary main_call6.c_3 main_call6.v9 (broadcastInDim S32x8192 ![] bcast_S_S32x8192),
    StableHlo.TRef.binary main_call6.call0.v1 main_call6.v9 main_call6.v10 (cmpi .slt),
    StableHlo.TRef.binary main_call6.v8 main_call6.v10 main_call6.v11 (cmpi .ne),
    StableHlo.TRef.binary main_call6.v11 main_call6.v6 main_call6.v12 andi,
    StableHlo.TRef.binary main_call6.v4 main_call6.call0.v1 main_call6.v13 addi,
    StableHlo.TRef.ternary main_call6.v12 main_call6.v13 main_call6.v4 main_call6.v14 select,
    StableHlo.nullary main_c_10 (constantI S_ 32 0#32),
    StableHlo.TRef.unary (.of main_c_10 : StableHlo.TRef sig ⟨S_, .i32⟩) main_call7.v0 id,
    StableHlo.TRef.unary main_call7.v0 main_call7.v1 (broadcastInDim S8192 ![] bcast_S_S8192),
    StableHlo.TRef.unary main_call7.v1 main_call7.v2 (broadcastInDim S32x8192 ![1] bcast_S8192_S32x8192_1),
    StableHlo.TRef.ternary (.of main_v40 : StableHlo.TRef sig ⟨S32x8192, .i1⟩) (.of main_v43 : StableHlo.TRef sig ⟨S32x8192, .i32⟩) main_call7.v2 main_call7.v3 select,
    StableHlo.binary main_v38 main_v44 main_v45 (addi : (⟨S32x8192, .i32⟩ : BufTy).Contents (Elt F) → (⟨S32x8192, .i32⟩ : BufTy).Contents (Elt F) → (⟨S32x8192, .i32⟩ : BufTy).Contents (Elt F)),
    StableHlo.nullary main_c_11 (constantI S_ 32 0#32),
    StableHlo.nullary main_c_12 (constantI S_ 32 8191#32) ]

/-- The operations 96 … 164 of 179: the statements of `main_part1` in order, each call's body written out at the call over the call's record. -/
abbrev ops1 : List (HloOp τ sig (Elt F)) :=
  [ StableHlo.TRef.unary (.of main_c_11 : StableHlo.TRef sig ⟨S_, .i32⟩) main_call8.v0 id,
    StableHlo.TRef.unary main_call8.v0 main_call8.v1 (broadcastInDim S32x8192 ![] bcast_S_S32x8192),
    StableHlo.TRef.binary main_call8.v1 (.of main_v45 : StableHlo.TRef sig ⟨S32x8192, .i32⟩) main_call8.v2 maxsi,
    StableHlo.TRef.unary (.of main_c_12 : StableHlo.TRef sig ⟨S_, .i32⟩) main_call8.v3 id,
    StableHlo.TRef.unary main_call8.v3 main_call8.v4 (broadcastInDim S32x8192 ![] bcast_S_S32x8192),
    StableHlo.TRef.binary main_call8.v4 main_call8.v2 main_call8.v5 minsi,
    StableHlo.nullary main_c_13 (constantI S_ 32 2#32),
    StableHlo.unary main_c_13 main_v47 (broadcastInDim S32x8192 ![] bcast_S_S32x8192 : (⟨S_, .i32⟩ : BufTy).Contents (Elt F) → (⟨S32x8192, .i32⟩ : BufTy).Contents (Elt F)),
    StableHlo.binary main_arg1 main_v47 main_v48 (cmpi .eq : (⟨S32x8192, .i32⟩ : BufTy).Contents (Elt F) → (⟨S32x8192, .i32⟩ : BufTy).Contents (Elt F) → (⟨S32x8192, .i1⟩ : BufTy).Contents (Elt F)),
    StableHlo.nullary main_c_14 (constantI S_ 32 0#32),
    StableHlo.unary main_c_14 main_v49 (broadcastInDim S32x8192 ![] bcast_S_S32x8192 : (⟨S_, .i32⟩ : BufTy).Contents (Elt F) → (⟨S32x8192, .i32⟩ : BufTy).Contents (Elt F)),
    StableHlo.binary main_v37 main_v49 main_v50 (cmpi .sgt : (⟨S32x8192, .i32⟩ : BufTy).Contents (Elt F) → (⟨S32x8192, .i32⟩ : BufTy).Contents (Elt F) → (⟨S32x8192, .i1⟩ : BufTy).Contents (Elt F)),
    StableHlo.binary main_v48 main_v50 main_v51 (andi : (⟨S32x8192, .i1⟩ : BufTy).Contents (Elt F) → (⟨S32x8192, .i1⟩ : BufTy).Contents (Elt F) → (⟨S32x8192, .i1⟩ : BufTy).Contents (Elt F)),
    StableHlo.unary main_v51 main_v52 (broadcastInDim S32x8192x1 ![0, 1] bcast_S32x8192_S32x8192x1_0_1 : (⟨S32x8192, .i1⟩ : BufTy).Contents (Elt F) → (⟨S32x8192x1, .i1⟩ : BufTy).Contents (Elt F)),
    StableHlo.nullary main_c_15 (constantI S_ 32 0#32),
    StableHlo.unary main_c_15 main_v53 (broadcastInDim S32x8192 ![] bcast_S_S32x8192 : (⟨S_, .i32⟩ : BufTy).Contents (Elt F) → (⟨S32x8192, .i32⟩ : BufTy).Contents (Elt F)),
    StableHlo.binary main_v46 main_v53 main_v54 (cmpi .slt : (⟨S32x8192, .i32⟩ : BufTy).Contents (Elt F) → (⟨S32x8192, .i32⟩ : BufTy).Contents (Elt F) → (⟨S32x8192, .i1⟩ : BufTy).Contents (Elt F)),
    StableHlo.nullary main_c_16 (constantI S_ 32 8192#32),
    StableHlo.unary main_c_16 main_v55 (broadcastInDim S32x8192 ![] bcast_S_S32x8192 : (⟨S_, .i32⟩ : BufTy).Contents (Elt F) → (⟨S32x8192, .i32⟩ : BufTy).Contents (Elt F)),
    StableHlo.binary main_v46 main_v55 main_v56 (addi : (⟨S32x8192, .i32⟩ : BufTy).Contents (Elt F) → (⟨S32x8192, .i32⟩ : BufTy).Contents (Elt F) → (⟨S32x8192, .i32⟩ : BufTy).Contents (Elt F)),
    StableHlo.ternary main_v54 main_v56 main_v46 main_v57 (select : (⟨S32x8192, .i1⟩ : BufTy).Contents (Elt F) → (⟨S32x8192, .i32⟩ : BufTy).Contents (Elt F) → (⟨S32x8192, .i32⟩ : BufTy).Contents (Elt F) → (⟨S32x8192, .i32⟩ : BufTy).Contents (Elt F)),
    StableHlo.unary main_v57 main_v58 (broadcastInDim S32x8192x1 ![0, 1] bcast_S32x8192_S32x8192x1_0_1 : (⟨S32x8192, .i32⟩ : BufTy).Contents (Elt F) → (⟨S32x8192x1, .i32⟩ : BufTy).Contents (Elt F)),
    StableHlo.binary main_v10 main_v58 main_v59 ((fun x i => Host.gather gather_S32x8192x128_S32x8192x1_S32x8192x128_2_1_0_0_1_2_11128 x i) : (⟨S32x8192x128, .f32⟩ : BufTy).Contents (Elt F) → (⟨S32x8192x1, .i32⟩ : BufTy).Contents (Elt F) → (⟨S32x8192x128, .f32⟩ : BufTy).Contents (Elt F)),
    StableHlo.TRef.unary (.of main_v52 : StableHlo.TRef sig ⟨S32x8192x1, .i1⟩) main_call9.v0 (broadcastInDim S32x8192x128 ![0, 1, 2] bcast_S32x8192x1_S32x8192x128_0_1_2),
    StableHlo.TRef.ternary main_call9.v0 (.of main_v59 : StableHlo.TRef sig ⟨S32x8192x128, .f32⟩) (.of main_v10 : StableHlo.TRef sig ⟨S32x8192x128, .f32⟩) main_call9.v1 select,
    StableHlo.nullary main_cst (constant S_ .f32 0x3F800000#32),
    StableHlo.unary main_cst main_v61 (broadcastInDim S8192 ![] bcast_S_S8192 : (⟨S_, .f32⟩ : BufTy).Contents (Elt F) → (⟨S8192, .f32⟩ : BufTy).Contents (Elt F)),
    StableHlo.nullary main_c_17 (constantI S_ 32 3#32),
    StableHlo.unary main_c_17 main_v62 (broadcastInDim S32x8192 ![] bcast_S_S32x8192 : (⟨S_, .i32⟩ : BufTy).Contents (Elt F) → (⟨S32x8192, .i32⟩ : BufTy).Contents (Elt F)),
    StableHlo.binary main_arg1 main_v62 main_v63 (cmpi .eq : (⟨S32x8192, .i32⟩ : BufTy).Contents (Elt F) → (⟨S32x8192, .i32⟩ : BufTy).Contents (Elt F) → (⟨S32x8192, .i1⟩ : BufTy).Contents (Elt F)),
    StableHlo.TRef.unary (.of main_v61 : StableHlo.TRef sig ⟨S8192, .f32⟩) main_call10.v0 (broadcastInDim S32x8192 ![1] bcast_S8192_S32x8192_1),
    StableHlo.TRef.ternary (.of main_v63 : StableHlo.TRef sig ⟨S32x8192, .i1⟩) (.of main_v36 : StableHlo.TRef sig ⟨S32x8192, .f32⟩) main_call10.v0 main_call10.v1 select,
    StableHlo.nullary main_c_18 (constantI S_ 32 4#32),
    StableHlo.unary main_c_18 main_v65 (broadcastInDim S32x8192 ![] bcast_S_S32x8192 : (⟨S_, .i32⟩ : BufTy).Contents (Elt F) → (⟨S32x8192, .i32⟩ : BufTy).Contents (Elt F)),
    StableHlo.binary main_arg1 main_v65 main_v66 (cmpi .eq : (⟨S32x8192, .i32⟩ : BufTy).Contents (Elt F) → (⟨S32x8192, .i32⟩ : BufTy).Contents (Elt F) → (⟨S32x8192, .i1⟩ : BufTy).Contents (Elt F)),
    StableHlo.nullary main_cst_19 (constant S_ .f32 0x3F800000#32),
    StableHlo.unary main_cst_19 main_v67 (broadcastInDim S32x8192 ![] bcast_S_S32x8192 : (⟨S_, .f32⟩ : BufTy).Contents (Elt F) → (⟨S32x8192, .f32⟩ : BufTy).Contents (Elt F)),
    StableHlo.binary main_v67 main_v36 main_v68 (subf : (⟨S32x8192, .f32⟩ : BufTy).Contents (Elt F) → (⟨S32x8192, .f32⟩ : BufTy).Contents (Elt F) → (⟨S32x8192, .f32⟩ : BufTy).Contents (Elt F)),
    StableHlo.TRef.ternary (.of main_v66 : StableHlo.TRef sig ⟨S32x8192, .i1⟩) (.of main_v68 : StableHlo.TRef sig ⟨S32x8192, .f32⟩) (.of main_v64 : StableHlo.TRef sig ⟨S32x8192, .f32⟩) main_call11.v0 select,
    StableHlo.nullary main_c_20 (constantI S_ 32 6#32),
    StableHlo.unary main_c_20 main_v70 (broadcastInDim S32x8192 ![] bcast_S_S32x8192 : (⟨S_, .i32⟩ : BufTy).Contents (Elt F) → (⟨S32x8192, .i32⟩ : BufTy).Contents (Elt F)),
    StableHlo.binary main_arg1 main_v70 main_v71 (cmpi .eq : (⟨S32x8192, .i32⟩ : BufTy).Contents (Elt F) → (⟨S32x8192, .i32⟩ : BufTy).Contents (Elt F) → (⟨S32x8192, .i1⟩ : BufTy).Contents (Elt F)),
    StableHlo.nullary main_cst_21 (constant S_ .f32 0x40490FDB#32),
    StableHlo.unary main_cst_21 main_v72 (broadcastInDim S32x8192 ![] bcast_S_S32x8192 : (⟨S_, .f32⟩ : BufTy).Contents (Elt F) → (⟨S32x8192, .f32⟩ : BufTy).Contents (Elt F)),
    StableHlo.binary main_v72 main_v36 main_v73 (mulf : (⟨S32x8192, .f32⟩ : BufTy).Contents (Elt F) → (⟨S32x8192, .f32⟩ : BufTy).Contents (Elt F) → (⟨S32x8192, .f32⟩ : BufTy).Contents (Elt F)),
    StableHlo.unary main_v73 main_v74 (Host.sin : (⟨S32x8192, .f32⟩ : BufTy).Contents (Elt F) → (⟨S32x8192, .f32⟩ : BufTy).Contents (Elt F)),
    StableHlo.nullary main_cst_22 (constant S_ .f32 0x3F000000#32),
    StableHlo.unary main_cst_22 main_v75 (broadcastInDim S32x8192 ![] bcast_S_S32x8192 : (⟨S_, .f32⟩ : BufTy).Contents (Elt F) → (⟨S32x8192, .f32⟩ : BufTy).Contents (Elt F)),
    StableHlo.binary main_v75 main_v74 main_v76 (mulf : (⟨S32x8192, .f32⟩ : BufTy).Contents (Elt F) → (⟨S32x8192, .f32⟩ : BufTy).Contents (Elt F) → (⟨S32x8192, .f32⟩ : BufTy).Contents (Elt F)),
    StableHlo.nullary main_cst_23 (constant S_ .f32 0x3F800000#32),
    StableHlo.unary main_cst_23 main_v77 (broadcastInDim S32x8192 ![] bcast_S_S32x8192 : (⟨S_, .f32⟩ : BufTy).Contents (Elt F) → (⟨S32x8192, .f32⟩ : BufTy).Contents (Elt F)),
    StableHlo.binary main_v77 main_v76 main_v78 (subf : (⟨S32x8192, .f32⟩ : BufTy).Contents (Elt F) → (⟨S32x8192, .f32⟩ : BufTy).Contents (Elt F) → (⟨S32x8192, .f32⟩ : BufTy).Contents (Elt F)),
    StableHlo.TRef.ternary (.of main_v71 : StableHlo.TRef sig ⟨S32x8192, .i1⟩) (.of main_v78 : StableHlo.TRef sig ⟨S32x8192, .f32⟩) (.of main_v69 : StableHlo.TRef sig ⟨S32x8192, .f32⟩) main_call12.v0 select,
    StableHlo.unary main_v79 main_v80 (broadcastInDim S32x8192x1 ![0, 1] bcast_S32x8192_S32x8192x1_0_1 : (⟨S32x8192, .f32⟩ : BufTy).Contents (Elt F) → (⟨S32x8192x1, .f32⟩ : BufTy).Contents (Elt F)),
    StableHlo.unary main_v80 main_v81 (broadcastInDim S32x8192x128 ![0, 1, 2] bcast_S32x8192x1_S32x8192x128_0_1_2 : (⟨S32x8192x1, .f32⟩ : BufTy).Contents (Elt F) → (⟨S32x8192x128, .f32⟩ : BufTy).Contents (Elt F)),
    StableHlo.binary main_v60 main_v81 main_v82 (mulf : (⟨S32x8192x128, .f32⟩ : BufTy).Contents (Elt F) → (⟨S32x8192x128, .f32⟩ : BufTy).Contents (Elt F) → (⟨S32x8192x128, .f32⟩ : BufTy).Contents (Elt F)),
    StableHlo.nullary main_v83 (iotaInDim S128 32 0),
    StableHlo.nullary main_c_24 (constantI S_ 32 64#32),
    StableHlo.unary main_c_24 main_v84 (broadcastInDim S128 ![] bcast_S_S128 : (⟨S_, .i32⟩ : BufTy).Contents (Elt F) → (⟨S128, .i32⟩ : BufTy).Contents (Elt F)),
    StableHlo.binary main_v83 main_v84 main_v85 (cmpi .sge : (⟨S128, .i32⟩ : BufTy).Contents (Elt F) → (⟨S128, .i32⟩ : BufTy).Contents (Elt F) → (⟨S128, .i1⟩ : BufTy).Contents (Elt F)),
    StableHlo.nullary main_cst_25 (constant S_ .f32 0x3E99999A#32),
    StableHlo.nullary main_cst_26 (constant S_ .f32 0x3F800000#32),
    StableHlo.TRef.unary (.of main_cst_25 : StableHlo.TRef sig ⟨S_, .f32⟩) main_call13.v0 (broadcastInDim S128 ![] bcast_S_S128),
    StableHlo.TRef.unary (.of main_cst_26 : StableHlo.TRef sig ⟨S_, .f32⟩) main_call13.v1 (broadcastInDim S128 ![] bcast_S_S128),
    StableHlo.TRef.ternary (.of main_v85 : StableHlo.TRef sig ⟨S128, .i1⟩) main_call13.v0 main_call13.v1 main_call13.v2 select,
    StableHlo.unary main_v86 main_v87 (id : (⟨S128, .f32⟩ : BufTy).Contents (Elt F) → (⟨S128, .f32⟩ : BufTy).Contents (Elt F)),
    StableHlo.nullary main_c_27 (constantI S_ 32 5#32),
    StableHlo.unary main_c_27 main_v88 (broadcastInDim S32x8192 ![] bcast_S_S32x8192 : (⟨S_, .i32⟩ : BufTy).Contents (Elt F) → (⟨S32x8192, .i32⟩ : BufTy).Contents (Elt F)),
    StableHlo.binary main_arg1 main_v88 main_v89 (cmpi .eq : (⟨S32x8192, .i32⟩ : BufTy).Contents (Elt F) → (⟨S32x8192, .i32⟩ : BufTy).Contents (Elt F) → (⟨S32x8192, .i1⟩ : BufTy).Contents (Elt F)) ]

/-- The operations 165 … 179 of 179: the statements of `main_part2` in order, each call's body written out at the call over the call's record. -/
abbrev ops2 : List (HloOp τ sig (Elt F)) :=
  [ StableHlo.unary main_v89 main_v90 (broadcastInDim S32x8192x1 ![0, 1] bcast_S32x8192_S32x8192x1_0_1 : (⟨S32x8192, .i1⟩ : BufTy).Contents (Elt F) → (⟨S32x8192x1, .i1⟩ : BufTy).Contents (Elt F)),
    StableHlo.unary main_v87 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S1x1x128 ![1, 2] bcast_S1x128_S1x1x128_1_2 : (⟨S1x128, .f32⟩ : BufTy).Contents (Elt F) → (⟨S1x1x128, .f32⟩ : BufTy).Contents (Elt F)),
    StableHlo.unary main_v92 main_v93 (broadcastInDim S32x8192x128 ![0, 1, 2] bcast_S1x1x128_S32x8192x128_0_1_2 : (⟨S1x1x128, .f32⟩ : BufTy).Contents (Elt F) → (⟨S32x8192x128, .f32⟩ : BufTy).Contents (Elt F)),
    StableHlo.binary main_v82 main_v93 main_v94 (mulf : (⟨S32x8192x128, .f32⟩ : BufTy).Contents (Elt F) → (⟨S32x8192x128, .f32⟩ : BufTy).Contents (Elt F) → (⟨S32x8192x128, .f32⟩ : BufTy).Contents (Elt F)),
    StableHlo.TRef.unary (.of main_v90 : StableHlo.TRef sig ⟨S32x8192x1, .i1⟩) main_call14.v0 (broadcastInDim S32x8192x128 ![0, 1, 2] bcast_S32x8192x1_S32x8192x128_0_1_2),
    StableHlo.TRef.ternary main_call14.v0 (.of main_v94 : StableHlo.TRef sig ⟨S32x8192x128, .f32⟩) (.of main_v82 : StableHlo.TRef sig ⟨S32x8192x128, .f32⟩) main_call14.v1 select,
    StableHlo.nullary main_cst_28 (constant S_ .f32 0x00000000#32),
    StableHlo.nullary main_cst_29 (constant S_ .f32 0x3F800000#32),
    StableHlo.TRef.unary (.of main_cst_28 : StableHlo.TRef sig ⟨S_, .f32⟩) main_call15.v0 id,
    StableHlo.TRef.unary main_call15.v0 main_call15.v1 (broadcastInDim S32x8192x128 ![] bcast_S_S32x8192x128),
    StableHlo.TRef.binary main_call15.v1 (.of main_v95 : StableHlo.TRef sig ⟨S32x8192x128, .f32⟩) main_call15.v2 maximumf,
    StableHlo.TRef.unary (.of main_cst_29 : StableHlo.TRef sig ⟨S_, .f32⟩) main_call15.v3 id,
    StableHlo.TRef.unary main_call15.v3 main_call15.v4 (broadcastInDim S32x8192x128 ![] bcast_S_S32x8192x128),
    StableHlo.TRef.binary main_call15.v4 main_call15.v2 main_call15.v5 minimumf ]

/-- All 179 operations of @main, in order. -/
abbrev ops : List (HloOp τ sig (Elt F)) := ops0 ++ (ops1 ++ ops2)

end Cert.ReferenceIdeal.RefRun

end
-- ==== Proof.RefRun.lean ====
/-
  The reference program's run: @main is one straight line of 179 host operations.

  `main` runs its three windows in order; each window is a chain of `hlo` steps among which stand calls of the module's
  functions, and a call is its body over that call's buffers. Unfolding every body at its call and re-associating the
  sequencing turns each window into the chain `seq` builds from the window's operation list, so `main c = seq ops` with
  `ops` the three lists in a row. No buffer or semaphore of the signature is scoped and every operation touches TensorCore
  references only, so the line's run is the fold `after ops` over the launch contents, on every device.
-/
import proofs.«180310_j25288767439135_1_alg».proof.Proof.RefOps
import proofs.«180310_j25288767439135_1_alg».proof.Proof.LibAppend

noncomputable section

namespace Cert.ReferenceIdeal.RefRun

open Cert.ReferenceIdeal Idealize.ShloMosaic Idealize.ShloMosaic.TcCoe Idealize.SL.Sem Idealize.ShloMosaic.StableHlo

variable {F : FTy → Type} [FloatOps F]

/-! ## Each window is its operation list

A call `fn.body a… φ` is by definition the chain of the callee's operations over the arguments `a…` and the record `φ`,
ending in `pure ⟨⟩`; `pure_bind` removes that return and `bind_assoc` re-nests `(x >>= f) >>= g` as `x >>= fun a => f a >>= g`,
after which the window and `seq` of its list are the same chain, step for step. -/

set_option maxRecDepth 8192 in
set_option maxHeartbeats 4000000 in
theorem main_part0_eq (c : Dev nD) : main_part0 (F := F) c = seq ops0 := by
  simp only [main_part0, fn_where.body, fn_cummax.body, fn_flip.body, fn_cummin.body, fn_remainder.body, fn_where_0.body,
    fn_where_1.body, seq, bind_assoc, pure_bind]
  rfl

set_option maxRecDepth 8192 in
set_option maxHeartbeats 4000000 in
theorem main_part1_eq (c : Dev nD) : main_part1 (F := F) c = seq ops1 := by
  simp only [main_part1, fn_clip.body, fn_where_2.body, fn_where_3.body, fn_where_4.body, fn_where_5.body,
    seq, bind_assoc, pure_bind]
  rfl

set_option maxRecDepth 8192 in
set_option maxHeartbeats 4000000 in
theorem main_part2_eq (c : Dev nD) : main_part2 (F := F) c = seq ops2 := by
  simp only [main_part2, fn_where_2.body, fn_clip_6.body, seq, bind_assoc, pure_bind]

/-- @main is the straight line of all its operations: a list in parts runs part after part (`seq_append`), and the parts
    are the windows. -/
theorem main_eq (c : Dev nD) : main (F := F) c = seq ops := by
  show main (F := F) c = seq (ops0 ++ (ops1 ++ ops2))
  rw [seq_append, seq_append, ← main_part0_eq c, ← main_part1_eq c, ← main_part2_eq c]
  rfl

/-! ## The side conditions of the run -/

set_option maxRecDepth 8192 in
theorem scopedRefs_eq : (Finset.univ.filter fun b : Ref sig .tc => b.isScoped) = ∅ := by decide
set_option maxRecDepth 8192 in
theorem scopedSems_eq : (Finset.univ.filter fun sm : SemLoc sig => sm.isScoped .tc) = ∅ := by decide

/-! Every operation is one of the four builders (or its typed-reference form, which is the builder at the references'
    buffers), whose buffers are TensorCore references. -/

set_option maxRecDepth 8192 in
theorem ops0_sub : (ops0 : List (HloOp τ sig (Elt F))).Forall fun op => op.bufs ⊆ tcRefs τ sig := by
  simp only [List.Forall, nullary_bufs_sub, unary_bufs_sub, binary_bufs_sub, ternary_bufs_sub, and_self]

set_option maxRecDepth 8192 in
theorem ops1_sub : (ops1 : List (HloOp τ sig (Elt F))).Forall fun op => op.bufs ⊆ tcRefs τ sig := by
  simp only [List.Forall, nullary_bufs_sub, unary_bufs_sub, binary_bufs_sub, ternary_bufs_sub, and_self]

set_option maxRecDepth 8192 in
theorem ops2_sub : (ops2 : List (HloOp τ sig (Elt F))).Forall fun op => op.bufs ⊆ tcRefs τ sig := by
  simp only [List.Forall, nullary_bufs_sub, unary_bufs_sub, binary_bufs_sub, ternary_bufs_sub, and_self]

theorem ops_sub : (ops : List (HloOp τ sig (Elt F))).Forall fun op => op.bufs ⊆ tcRefs τ sig :=
  Cert.ListParts.forall_append ops0_sub (Cert.ListParts.forall_append ops1_sub ops2_sub)

/-! No operation leaves a result undetermined: each builder's set of such buffers is empty by definition. -/

set_option maxRecDepth 8192 in
theorem ops0_fresh : ∀ op ∈ (ops0 : List (HloOp τ sig (Elt F))), op.fresh = ∅ := by
  intro _ h; (repeat (cases h with | head => rfl | tail _ h => ?_)); exact nomatch h

set_option maxRecDepth 8192 in
theorem ops1_fresh : ∀ op ∈ (ops1 : List (HloOp τ sig (Elt F))), op.fresh = ∅ := by
  intro _ h; (repeat (cases h with | head => rfl | tail _ h => ?_)); exact nomatch h

set_option maxRecDepth 8192 in
theorem ops2_fresh : ∀ op ∈ (ops2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ :=
  Cert.ListParts.mem_append_all ops0_fresh (Cert.ListParts.mem_append_all ops1_fresh ops2_fresh)

/-! ## The run -/

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefStretch.lean ====
import proofs.«180310_j25288767439135_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The operations 1 … 45 of 179, in order. -/
abbrev seg0 : List (HloOp τ sig (Elt F)) :=
  [ StableHlo.nullary main_c (constantI S1 1 1#1),
    StableHlo.nullary main_c_0 (constantI S1 1 1#1),
    StableHlo.nullary main_v0 (iotaInDim S8192 32 0),
    StableHlo.nullary main_c_1 (constantI S_ 32 0#32),
    StableHlo.unary main_c_1 main_v1 (broadcastInDim S32x8192 ![] bcast_S_S32x8192 : (⟨S_, .i32⟩ : BufTy).Contents (Elt F) → (⟨S32x8192, .i32⟩ : BufTy).Contents (Elt F)),
    StableHlo.binary main_arg1 main_v1 main_v2 (cmpi .eq : (⟨S32x8192, .i32⟩ : BufTy).Contents (Elt F) → (⟨S32x8192, .i32⟩ : BufTy).Contents (Elt F) → (⟨S32x8192, .i1⟩ : BufTy).Contents (Elt F)),
    StableHlo.nullary main_c_2 (constantI S_ 32 7#32),
    StableHlo.unary main_c_2 main_v3 (broadcastInDim S32x8192 ![] bcast_S_S32x8192 : (⟨S_, .i32⟩ : BufTy).Contents (Elt F) → (⟨S32x8192, .i32⟩ : BufTy).Contents (Elt F)),
    StableHlo.binary main_arg1 main_v3 main_v4 (cmpi .eq : (⟨S32x8192, .i32⟩ : BufTy).Contents (Elt F) → (⟨S32x8192, .i32⟩ : BufTy).Contents (Elt F) → (⟨S32x8192, .i1⟩ : BufTy).Contents (Elt F)),
    StableHlo.binary main_v2 main_v4 main_v5 (ori : (⟨S32x8192, .i1⟩ : BufTy).Contents (Elt F) → (⟨S32x8192, .i1⟩ : BufTy).Contents (Elt F) → (⟨S32x8192, .i1⟩ : BufTy).Contents (Elt F)),
    StableHlo.unary main_v5 main_v6 (noti : (⟨S32x8192, .i1⟩ : BufTy).Contents (Elt F) → (⟨S32x8192, .i1⟩ : BufTy).Contents (Elt F)),
    StableHlo.unary main_v6 main_v7 (broadcastInDim S32x8192x1 ![0, 1] bcast_S32x8192_S32x8192x1_0_1 : (⟨S32x8192, .i1⟩ : BufTy).Contents (Elt F) → (⟨S32x8192x1, .i1⟩ : BufTy).Contents (Elt F)),
    StableHlo.unary main_v7 main_v8 (uitofp .f32 : (⟨S32x8192x1, .i1⟩ : BufTy).Contents (Elt F) → (⟨S32x8192x1, .f32⟩ : BufTy).Contents (Elt F)),
    StableHlo.unary main_v8 main_v9 (broadcastInDim S32x8192x128 ![0, 1, 2] bcast_S32x8192x1_S32x8192x128_0_1_2 : (⟨S32x8192x1, .f32⟩ : BufTy).Contents (Elt F) → (⟨S32x8192x128, .f32⟩ : BufTy).Contents (Elt F)),
    StableHlo.binary main_arg0 main_v9 main_v10 (mulf : (⟨S32x8192x128, .f32⟩ : BufTy).Contents (Elt F) → (⟨S32x8192x128, .f32⟩ : BufTy).Contents (Elt F) → (⟨S32x8192x128, .f32⟩ : BufTy).Contents (Elt F)),
    StableHlo.unary main_arg1 main_v11 ((extractStridedSlice S32x8191 ![0, 1] · slices_S32x8192_S32x8191_0_1) : (⟨S32x8192, .i32⟩ : BufTy).Contents (Elt F) → (⟨S32x8191, .i32⟩ : BufTy).Contents (Elt F)),
    StableHlo.unary main_arg1 main_v12 ((extractStridedSlice S32x8191 ![0, 0] · slices_S32x8192_S32x8191_0_0) : (⟨S32x8192, .i32⟩ : BufTy).Contents (Elt F) → (⟨S32x8191, .i32⟩ : BufTy).Contents (Elt F)),
    StableHlo.binary main_v11 main_v12 main_v13 (cmpi .ne : (⟨S32x8191, .i32⟩ : BufTy).Contents (Elt F) → (⟨S32x8191, .i32⟩ : BufTy).Contents (Elt F) → (⟨S32x8191, .i1⟩ : BufTy).Contents (Elt F)),
    StableHlo.unary main_c main_v14 (broadcastInDim S32x1 ![1] bcast_S1_S32x1_1 : (⟨S1, .i1⟩ : BufTy).Contents (Elt F) → (⟨S32x1, .i1⟩ : BufTy).Contents (Elt F)),
    StableHlo.binary main_v14 main_v13 main_v15 ((fun a b => concatenate S32x8192 1 [⟨S32x1, a⟩, ⟨S32x8191, b⟩] concatenates_S32x1_S32x8191_S32x8192_d1) : (⟨S32x1, .i1⟩ : BufTy).Contents (Elt F) → (⟨S32x8191, .i1⟩ : BufTy).Contents (Elt F) → (⟨S32x8192, .i1⟩ : BufTy).Contents (Elt F)),
    StableHlo.unary main_c_0 main_v16 (broadcastInDim S32x1 ![1] bcast_S1_S32x1_1 : (⟨S1, .i1⟩ : BufTy).Contents (Elt F) → (⟨S32x1, .i1⟩ : BufTy).Contents (Elt F)),
    StableHlo.binary main_v13 main_v16 main_v17 ((fun a b => concatenate S32x8192 1 [⟨S32x8191, a⟩, ⟨S32x1, b⟩] concatenates_S32x8191_S32x1_S32x8192_d1) : (⟨S32x8191, .i1⟩ : BufTy).Contents (Elt F) → (⟨S32x1, .i1⟩ : BufTy).Contents (Elt F) → (⟨S32x8192, .i1⟩ : BufTy).Contents (Elt F)),
    StableHlo.nullary main_c_3 (constantI S_ 32 0#32),
    StableHlo.TRef.unary (.of main_c_3 : StableHlo.TRef sig ⟨S_, .i32⟩) main_call0.v0 id,
    StableHlo.TRef.unary main_call0.v0 main_call0.v1 (broadcastInDim S8192 ![] bcast_S_S8192),
    StableHlo.TRef.unary main_call0.v1 main_call0.v2 (broadcastInDim S32x8192 ![1] bcast_S8192_S32x8192_1),
    StableHlo.TRef.unary (.of main_v0 : StableHlo.TRef sig ⟨S8192, .i32⟩) main_call0.v3 (broadcastInDim S32x8192 ![1] bcast_S8192_S32x8192_1),
    StableHlo.TRef.ternary (.of main_v15 : StableHlo.TRef sig ⟨S32x8192, .i1⟩) main_call0.v3 main_call0.v2 main_call0.v4 select,
    StableHlo.TRef.nullary main_call1.c (constantI S_ 32 2147483648#32),
    StableHlo.TRef.unary main_call1.c main_call1.v0 (broadcastInDim S_ ![] bcast_S_S_),
    StableHlo.TRef.binary (.of main_v18 : StableHlo.TRef sig ⟨S32x8192, .i32⟩) main_call1.v0 main_call1.v1 (fun x v => Host.reduceWindow IntOp.maxsi ![1, 8192] ![1, 1] ![0, 8191] ![0, 0] x v reduceWindows_S32x8192_S32x8192_w1s1p0_0_w8192s1p8191_0 h_S_),
    StableHlo.nullary main_c_4 (constantI S_ 32 1#32),
    StableHlo.unary main_c_4 main_v20 (broadcastInDim S8192 ![] bcast_S_S8192 : (⟨S_, .i32⟩ : BufTy).Contents (Elt F) → (⟨S8192, .i32⟩ : BufTy).Contents (Elt F)),
    StableHlo.binary main_v0 main_v20 main_v21 (addi : (⟨S8192, .i32⟩ : BufTy).Contents (Elt F) → (⟨S8192, .i32⟩ : BufTy).Contents (Elt F) → (⟨S8192, .i32⟩ : BufTy).Contents (Elt F)),
    StableHlo.nullary main_c_5 (constantI S_ 32 8192#32),
    StableHlo.TRef.unary (.of main_c_5 : StableHlo.TRef sig ⟨S_, .i32⟩) main_call2.v0 id,
    StableHlo.TRef.unary main_call2.v0 main_call2.v1 (broadcastInDim S8192 ![] bcast_S_S8192),
    StableHlo.TRef.unary main_call2.v1 main_call2.v2 (broadcastInDim S32x8192 ![1] bcast_S8192_S32x8192_1),
    StableHlo.TRef.unary (.of main_v21 : StableHlo.TRef sig ⟨S8192, .i32⟩) main_call2.v3 (broadcastInDim S32x8192 ![1] bcast_S8192_S32x8192_1),
    StableHlo.TRef.ternary (.of main_v17 : StableHlo.TRef sig ⟨S32x8192, .i1⟩) main_call2.v3 main_call2.v2 main_call2.v4 select,
    StableHlo.TRef.unary (.of main_v22 : StableHlo.TRef sig ⟨S32x8192, .i32⟩) main_call3.v0 (Host.reverse [1]),
    StableHlo.TRef.nullary main_call4.c (constantI S_ 32 2147483647#32),
    StableHlo.TRef.unary main_call4.c main_call4.v0 (broadcastInDim S_ ![] bcast_S_S_),
    StableHlo.TRef.binary (.of main_v23 : StableHlo.TRef sig ⟨S32x8192, .i32⟩) main_call4.v0 main_call4.v1 (fun x v => Host.reduceWindow IntOp.minsi ![1, 8192] ![1, 1] ![0, 8191] ![0, 0] x v reduceWindows_S32x8192_S32x8192_w1s1p0_0_w8192s1p8191_0 h_S_),
    StableHlo.TRef.unary (.of main_v24 : StableHlo.TRef sig ⟨S32x8192, .i32⟩) main_call5.v0 (Host.reverse [1]) ]

/-- The operations 46 … 101 of 179, in order. -/
abbrev seg1 : List (HloOp τ sig (Elt F)) :=
  [ StableHlo.binary main_v25 main_v19 main_v26 (subi : (⟨S32x8192, .i32⟩ : BufTy).Contents (Elt F) → (⟨S32x8192, .i32⟩ : BufTy).Contents (Elt F) → (⟨S32x8192, .i32⟩ : BufTy).Contents (Elt F)),
    StableHlo.unary main_v0 main_v27 (broadcastInDim S1x8192 ![1] bcast_S8192_S1x8192_1 : (⟨S8192, .i32⟩ : BufTy).Contents (Elt F) → (⟨S1x8192, .i32⟩ : BufTy).Contents (Elt F)),
    StableHlo.unary main_v27 main_v28 (broadcastInDim S32x8192 ![0, 1] bcast_S1x8192_S32x8192_0_1 : (⟨S1x8192, .i32⟩ : BufTy).Contents (Elt F) → (⟨S32x8192, .i32⟩ : BufTy).Contents (Elt F)),
    StableHlo.binary main_v28 main_v19 main_v29 (subi : (⟨S32x8192, .i32⟩ : BufTy).Contents (Elt F) → (⟨S32x8192, .i32⟩ : BufTy).Contents (Elt F) → (⟨S32x8192, .i32⟩ : BufTy).Contents (Elt F)),
    StableHlo.unary main_v29 main_v30 (sitofp .f32 : (⟨S32x8192, .i32⟩ : BufTy).Contents (Elt F) → (⟨S32x8192, .f32⟩ : BufTy).Contents (Elt F)),
    StableHlo.nullary main_c_6 (constantI S_ 32 1#32),
    StableHlo.unary main_c_6 main_v31 (broadcastInDim S32x8192 ![] bcast_S_S32x8192 : (⟨S_, .i32⟩ : BufTy).Contents (Elt F) → (⟨S32x8192, .i32⟩ : BufTy).Contents (Elt F)),
    StableHlo.binary main_v26 main_v31 main_v32 (subi : (⟨S32x8192, .i32⟩ : BufTy).Contents (Elt F) → (⟨S32x8192, .i32⟩ : BufTy).Contents (Elt F) → (⟨S32x8192, .i32⟩ : BufTy).Contents (Elt F)),
    StableHlo.nullary main_c_7 (constantI S_ 32 1#32),
    StableHlo.unary main_c_7 main_v33 (broadcastInDim S32x8192 ![] bcast_S_S32x8192 : (⟨S_, .i32⟩ : BufTy).Contents (Elt F) → (⟨S32x8192, .i32⟩ : BufTy).Contents (Elt F)),
    StableHlo.binary main_v32 main_v33 main_v34 (maxsi : (⟨S32x8192, .i32⟩ : BufTy).Contents (Elt F) → (⟨S32x8192, .i32⟩ : BufTy).Contents (Elt F) → (⟨S32x8192, .i32⟩ : BufTy).Contents (Elt F)),
    StableHlo.unary main_v34 main_v35 (sitofp .f32 : (⟨S32x8192, .i32⟩ : BufTy).Contents (Elt F) → (⟨S32x8192, .f32⟩ : BufTy).Contents (Elt F)),
    StableHlo.binary main_v30 main_v35 main_v36 (Host.divf : (⟨S32x8192, .f32⟩ : BufTy).Contents (Elt F) → (⟨S32x8192, .f32⟩ : BufTy).Contents (Elt F) → (⟨S32x8192, .f32⟩ : BufTy).Contents (Elt F)),
    StableHlo.binary main_v26 main_v19 main_v37 (minsi : (⟨S32x8192, .i32⟩ : BufTy).Contents (Elt F) → (⟨S32x8192, .i32⟩ : BufTy).Contents (Elt F) → (⟨S32x8192, .i32⟩ : BufTy).Contents (Elt F)),
    StableHlo.binary main_v19 main_v37 main_v38 (subi : (⟨S32x8192, .i32⟩ : BufTy).Contents (Elt F) → (⟨S32x8192, .i32⟩ : BufTy).Contents (Elt F) → (⟨S32x8192, .i32⟩ : BufTy).Contents (Elt F)),
    StableHlo.nullary main_c_8 (constantI S_ 32 0#32),
    StableHlo.unary main_c_8 main_v39 (broadcastInDim S32x8192 ![] bcast_S_S32x8192 : (⟨S_, .i32⟩ : BufTy).Contents (Elt F) → (⟨S32x8192, .i32⟩ : BufTy).Contents (Elt F)),
    StableHlo.binary main_v37 main_v39 main_v40 (cmpi .sgt : (⟨S32x8192, .i32⟩ : BufTy).Contents (Elt F) → (⟨S32x8192, .i32⟩ : BufTy).Contents (Elt F) → (⟨S32x8192, .i1⟩ : BufTy).Contents (Elt F)),
    StableHlo.nullary main_c_9 (constantI S_ 32 1#32),
    StableHlo.unary main_c_9 main_v41 (broadcastInDim S32x8192 ![] bcast_S_S32x8192 : (⟨S_, .i32⟩ : BufTy).Contents (Elt F) → (⟨S32x8192, .i32⟩ : BufTy).Contents (Elt F)),
    StableHlo.binary main_v37 main_v41 main_v42 (maxsi : (⟨S32x8192, .i32⟩ : BufTy).Contents (Elt F) → (⟨S32x8192, .i32⟩ : BufTy).Contents (Elt F) → (⟨S32x8192, .i32⟩ : BufTy).Contents (Elt F)),
    StableHlo.TRef.nullary main_call6.c (constantI S_ 32 0#32),
    StableHlo.TRef.unary main_call6.c main_call6.v0 (broadcastInDim S32x8192 ![] bcast_S_S32x8192),
    StableHlo.TRef.binary (.of main_v42 : StableHlo.TRef sig ⟨S32x8192, .i32⟩) main_call6.v0 main_call6.v1 (cmpi .eq),
    StableHlo.TRef.nullary main_call6.c_0 (constantI S_ 32 1#32),
    StableHlo.TRef.unary main_call6.c_0 main_call6.v2 (broadcastInDim S8192 ![] bcast_S_S8192),
    StableHlo.TRef.unary main_call6.v2 main_call6.call0.v0 (broadcastInDim S32x8192 ![1] bcast_S8192_S32x8192_1),
    StableHlo.TRef.ternary main_call6.v1 main_call6.call0.v0 (.of main_v42 : StableHlo.TRef sig ⟨S32x8192, .i32⟩) main_call6.call0.v1 select,
    StableHlo.TRef.binary (.of main_v29 : StableHlo.TRef sig ⟨S32x8192, .i32⟩) main_call6.call0.v1 main_call6.v4 Host.remsi,
    StableHlo.TRef.nullary main_call6.c_1 (constantI S_ 32 0#32),
    StableHlo.TRef.unary main_call6.c_1 main_call6.v5 (broadcastInDim S32x8192 ![] bcast_S_S32x8192),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S32x8192 ![] bcast_S_S32x8192),
    StableHlo.TRef.binary main_call6.v4 main_call6.v7 main_call6.v8 (cmpi .slt),
    StableHlo.TRef.nullary main_call6.c_3 (constantI S_ 32 0#32),
    StableHlo.TRef.unary main_call6.c_3 main_call6.v9 (broadcastInDim S32x8192 ![] bcast_S_S32x8192),
    StableHlo.TRef.binary main_call6.call0.v1 main_call6.v9 main_call6.v10 (cmpi .slt),
    StableHlo.TRef.binary main_call6.v8 main_call6.v10 main_call6.v11 (cmpi .ne),
    StableHlo.TRef.binary main_call6.v11 main_call6.v6 main_call6.v12 andi,
    StableHlo.TRef.binary main_call6.v4 main_call6.call0.v1 main_call6.v13 addi,
    StableHlo.TRef.ternary main_call6.v12 main_call6.v13 main_call6.v4 main_call6.v14 select,
    StableHlo.nullary main_c_10 (constantI S_ 32 0#32),
    StableHlo.TRef.unary (.of main_c_10 : StableHlo.TRef sig ⟨S_, .i32⟩) main_call7.v0 id,
    StableHlo.TRef.unary main_call7.v0 main_call7.v1 (broadcastInDim S8192 ![] bcast_S_S8192),
    StableHlo.TRef.unary main_call7.v1 main_call7.v2 (broadcastInDim S32x8192 ![1] bcast_S8192_S32x8192_1),
    StableHlo.TRef.ternary (.of main_v40 : StableHlo.TRef sig ⟨S32x8192, .i1⟩) (.of main_v43 : StableHlo.TRef sig ⟨S32x8192, .i32⟩) main_call7.v2 main_call7.v3 select,
    StableHlo.binary main_v38 main_v44 main_v45 (addi : (⟨S32x8192, .i32⟩ : BufTy).Contents (Elt F) → (⟨S32x8192, .i32⟩ : BufTy).Contents (Elt F) → (⟨S32x8192, .i32⟩ : BufTy).Contents (Elt F)),
    StableHlo.nullary main_c_11 (constantI S_ 32 0#32),
    StableHlo.nullary main_c_12 (constantI S_ 32 8191#32),
    StableHlo.TRef.unary (.of main_c_11 : StableHlo.TRef sig ⟨S_, .i32⟩) main_call8.v0 id,
    StableHlo.TRef.unary main_call8.v0 main_call8.v1 (broadcastInDim S32x8192 ![] bcast_S_S32x8192),
    StableHlo.TRef.binary main_call8.v1 (.of main_v45 : StableHlo.TRef sig ⟨S32x8192, .i32⟩) main_call8.v2 maxsi,
    StableHlo.TRef.unary (.of main_c_12 : StableHlo.TRef sig ⟨S_, .i32⟩) main_call8.v3 id,
    StableHlo.TRef.unary main_call8.v3 main_call8.v4 (broadcastInDim S32x8192 ![] bcast_S_S32x8192),
    StableHlo.TRef.binary main_call8.v4 main_call8.v2 main_call8.v5 minsi ]

/-- The operations 102 … 148 of 179, in order. -/
abbrev seg2 : List (HloOp τ sig (Elt F)) :=
  [ StableHlo.nullary main_c_13 (constantI S_ 32 2#32),
    StableHlo.unary main_c_13 main_v47 (broadcastInDim S32x8192 ![] bcast_S_S32x8192 : (⟨S_, .i32⟩ : BufTy).Contents (Elt F) → (⟨S32x8192, .i32⟩ : BufTy).Contents (Elt F)),
    StableHlo.binary main_arg1 main_v47 main_v48 (cmpi .eq : (⟨S32x8192, .i32⟩ : BufTy).Contents (Elt F) → (⟨S32x8192, .i32⟩ : BufTy).Contents (Elt F) → (⟨S32x8192, .i1⟩ : BufTy).Contents (Elt F)),
    StableHlo.nullary main_c_14 (constantI S_ 32 0#32),
    StableHlo.unary main_c_14 main_v49 (broadcastInDim S32x8192 ![] bcast_S_S32x8192 : (⟨S_, .i32⟩ : BufTy).Contents (Elt F) → (⟨S32x8192, .i32⟩ : BufTy).Contents (Elt F)),
    StableHlo.binary main_v37 main_v49 main_v50 (cmpi .sgt : (⟨S32x8192, .i32⟩ : BufTy).Contents (Elt F) → (⟨S32x8192, .i32⟩ : BufTy).Contents (Elt F) → (⟨S32x8192, .i1⟩ : BufTy).Contents (Elt F)),
    StableHlo.binary main_v48 main_v50 main_v51 (andi : (⟨S32x8192, .i1⟩ : BufTy).Contents (Elt F) → (⟨S32x8192, .i1⟩ : BufTy).Contents (Elt F) → (⟨S32x8192, .i1⟩ : BufTy).Contents (Elt F)),
    StableHlo.unary main_v51 main_v52 (broadcastInDim S32x8192x1 ![0, 1] bcast_S32x8192_S32x8192x1_0_1 : (⟨S32x8192, .i1⟩ : BufTy).Contents (Elt F) → (⟨S32x8192x1, .i1⟩ : BufTy).Contents (Elt F)),
    StableHlo.nullary main_c_15 (constantI S_ 32 0#32),
    StableHlo.unary main_c_15 main_v53 (broadcastInDim S32x8192 ![] bcast_S_S32x8192 : (⟨S_, .i32⟩ : BufTy).Contents (Elt F) → (⟨S32x8192, .i32⟩ : BufTy).Contents (Elt F)),
    StableHlo.binary main_v46 main_v53 main_v54 (cmpi .slt : (⟨S32x8192, .i32⟩ : BufTy).Contents (Elt F) → (⟨S32x8192, .i32⟩ : BufTy).Contents (Elt F) → (⟨S32x8192, .i1⟩ : BufTy).Contents (Elt F)),
    StableHlo.nullary main_c_16 (constantI S_ 32 8192#32),
    StableHlo.unary main_c_16 main_v55 (broadcastInDim S32x8192 ![] bcast_S_S32x8192 : (⟨S_, .i32⟩ : BufTy).Contents (Elt F) → (⟨S32x8192, .i32⟩ : BufTy).Contents (Elt F)),
    StableHlo.binary main_v46 main_v55 main_v56 (addi : (⟨S32x8192, .i32⟩ : BufTy).Contents (Elt F) → (⟨S32x8192, .i32⟩ : BufTy).Contents (Elt F) → (⟨S32x8192, .i32⟩ : BufTy).Contents (Elt F)),
    StableHlo.ternary main_v54 main_v56 main_v46 main_v57 (select : (⟨S32x8192, .i1⟩ : BufTy).Contents (Elt F) → (⟨S32x8192, .i32⟩ : BufTy).Contents (Elt F) → (⟨S32x8192, .i32⟩ : BufTy).Contents (Elt F) → (⟨S32x8192, .i32⟩ : BufTy).Contents (Elt F)),
    StableHlo.unary main_v57 main_v58 (broadcastInDim S32x8192x1 ![0, 1] bcast_S32x8192_S32x8192x1_0_1 : (⟨S32x8192, .i32⟩ : BufTy).Contents (Elt F) → (⟨S32x8192x1, .i32⟩ : BufTy).Contents (Elt F)),
    StableHlo.binary main_v10 main_v58 main_v59 ((fun x i => Host.gather gather_S32x8192x128_S32x8192x1_S32x8192x128_2_1_0_0_1_2_11128 x i) : (⟨S32x8192x128, .f32⟩ : BufTy).Contents (Elt F) → (⟨S32x8192x1, .i32⟩ : BufTy).Contents (Elt F) → (⟨S32x8192x128, .f32⟩ : BufTy).Contents (Elt F)),
    StableHlo.TRef.unary (.of main_v52 : StableHlo.TRef sig ⟨S32x8192x1, .i1⟩) main_call9.v0 (broadcastInDim S32x8192x128 ![0, 1, 2] bcast_S32x8192x1_S32x8192x128_0_1_2),
    StableHlo.TRef.ternary main_call9.v0 (.of main_v59 : StableHlo.TRef sig ⟨S32x8192x128, .f32⟩) (.of main_v10 : StableHlo.TRef sig ⟨S32x8192x128, .f32⟩) main_call9.v1 select,
    StableHlo.nullary main_cst (constant S_ .f32 0x3F800000#32),
    StableHlo.unary main_cst main_v61 (broadcastInDim S8192 ![] bcast_S_S8192 : (⟨S_, .f32⟩ : BufTy).Contents (Elt F) → (⟨S8192, .f32⟩ : BufTy).Contents (Elt F)),
    StableHlo.nullary main_c_17 (constantI S_ 32 3#32),
    StableHlo.unary main_c_17 main_v62 (broadcastInDim S32x8192 ![] bcast_S_S32x8192 : (⟨S_, .i32⟩ : BufTy).Contents (Elt F) → (⟨S32x8192, .i32⟩ : BufTy).Contents (Elt F)),
    StableHlo.binary main_arg1 main_v62 main_v63 (cmpi .eq : (⟨S32x8192, .i32⟩ : BufTy).Contents (Elt F) → (⟨S32x8192, .i32⟩ : BufTy).Contents (Elt F) → (⟨S32x8192, .i1⟩ : BufTy).Contents (Elt F)),
    StableHlo.TRef.unary (.of main_v61 : StableHlo.TRef sig ⟨S8192, .f32⟩) main_call10.v0 (broadcastInDim S32x8192 ![1] bcast_S8192_S32x8192_1),
    StableHlo.TRef.ternary (.of main_v63 : StableHlo.TRef sig ⟨S32x8192, .i1⟩) (.of main_v36 : StableHlo.TRef sig ⟨S32x8192, .f32⟩) main_call10.v0 main_call10.v1 select,
    StableHlo.nullary main_c_18 (constantI S_ 32 4#32),
    StableHlo.unary main_c_18 main_v65 (broadcastInDim S32x8192 ![] bcast_S_S32x8192 : (⟨S_, .i32⟩ : BufTy).Contents (Elt F) → (⟨S32x8192, .i32⟩ : BufTy).Contents (Elt F)),
    StableHlo.binary main_arg1 main_v65 main_v66 (cmpi .eq : (⟨S32x8192, .i32⟩ : BufTy).Contents (Elt F) → (⟨S32x8192, .i32⟩ : BufTy).Contents (Elt F) → (⟨S32x8192, .i1⟩ : BufTy).Contents (Elt F)),
    StableHlo.nullary main_cst_19 (constant S_ .f32 0x3F800000#32),
    StableHlo.unary main_cst_19 main_v67 (broadcastInDim S32x8192 ![] bcast_S_S32x8192 : (⟨S_, .f32⟩ : BufTy).Contents (Elt F) → (⟨S32x8192, .f32⟩ : BufTy).Contents (Elt F)),
    StableHlo.binary main_v67 main_v36 main_v68 (subf : (⟨S32x8192, .f32⟩ : BufTy).Contents (Elt F) → (⟨S32x8192, .f32⟩ : BufTy).Contents (Elt F) → (⟨S32x8192, .f32⟩ : BufTy).Contents (Elt F)),
    StableHlo.TRef.ternary (.of main_v66 : StableHlo.TRef sig ⟨S32x8192, .i1⟩) (.of main_v68 : StableHlo.TRef sig ⟨S32x8192, .f32⟩) (.of main_v64 : StableHlo.TRef sig ⟨S32x8192, .f32⟩) main_call11.v0 select,
    StableHlo.nullary main_c_20 (constantI S_ 32 6#32),
    StableHlo.unary main_c_20 main_v70 (broadcastInDim S32x8192 ![] bcast_S_S32x8192 : (⟨S_, .i32⟩ : BufTy).Contents (Elt F) → (⟨S32x8192, .i32⟩ : BufTy).Contents (Elt F)),
    StableHlo.binary main_arg1 main_v70 main_v71 (cmpi .eq : (⟨S32x8192, .i32⟩ : BufTy).Contents (Elt F) → (⟨S32x8192, .i32⟩ : BufTy).Contents (Elt F) → (⟨S32x8192, .i1⟩ : BufTy).Contents (Elt F)),
    StableHlo.nullary main_cst_21 (constant S_ .f32 0x40490FDB#32),
    StableHlo.unary main_cst_21 main_v72 (broadcastInDim S32x8192 ![] bcast_S_S32x8192 : (⟨S_, .f32⟩ : BufTy).Contents (Elt F) → (⟨S32x8192, .f32⟩ : BufTy).Contents (Elt F)),
    StableHlo.binary main_v72 main_v36 main_v73 (mulf : (⟨S32x8192, .f32⟩ : BufTy).Contents (Elt F) → (⟨S32x8192, .f32⟩ : BufTy).Contents (Elt F) → (⟨S32x8192, .f32⟩ : BufTy).Contents (Elt F)),
    StableHlo.unary main_v73 main_v74 (Host.sin : (⟨S32x8192, .f32⟩ : BufTy).Contents (Elt F) → (⟨S32x8192, .f32⟩ : BufTy).Contents (Elt F)),
    StableHlo.nullary main_cst_22 (constant S_ .f32 0x3F000000#32),
    StableHlo.unary main_cst_22 main_v75 (broadcastInDim S32x8192 ![] bcast_S_S32x8192 : (⟨S_, .f32⟩ : BufTy).Contents (Elt F) → (⟨S32x8192, .f32⟩ : BufTy).Contents (Elt F)),
    StableHlo.binary main_v75 main_v74 main_v76 (mulf : (⟨S32x8192, .f32⟩ : BufTy).Contents (Elt F) → (⟨S32x8192, .f32⟩ : BufTy).Contents (Elt F) → (⟨S32x8192, .f32⟩ : BufTy).Contents (Elt F)),
    StableHlo.nullary main_cst_23 (constant S_ .f32 0x3F800000#32),
    StableHlo.unary main_cst_23 main_v77 (broadcastInDim S32x8192 ![] bcast_S_S32x8192 : (⟨S_, .f32⟩ : BufTy).Contents (Elt F) → (⟨S32x8192, .f32⟩ : BufTy).Contents (Elt F)),
    StableHlo.binary main_v77 main_v76 main_v78 (subf : (⟨S32x8192, .f32⟩ : BufTy).Contents (Elt F) → (⟨S32x8192, .f32⟩ : BufTy).Contents (Elt F) → (⟨S32x8192, .f32⟩ : BufTy).Contents (Elt F)),
    StableHlo.TRef.ternary (.of main_v71 : StableHlo.TRef sig ⟨S32x8192, .i1⟩) (.of main_v78 : StableHlo.TRef sig ⟨S32x8192, .f32⟩) (.of main_v69 : StableHlo.TRef sig ⟨S32x8192, .f32⟩) main_call12.v0 select ]

/-- The operations 149 … 179 of 179, in order. -/
abbrev seg3 : List (HloOp τ sig (Elt F)) :=
  [ StableHlo.unary main_v79 main_v80 (broadcastInDim S32x8192x1 ![0, 1] bcast_S32x8192_S32x8192x1_0_1 : (⟨S32x8192, .f32⟩ : BufTy).Contents (Elt F) → (⟨S32x8192x1, .f32⟩ : BufTy).Contents (Elt F)),
    StableHlo.unary main_v80 main_v81 (broadcastInDim S32x8192x128 ![0, 1, 2] bcast_S32x8192x1_S32x8192x128_0_1_2 : (⟨S32x8192x1, .f32⟩ : BufTy).Contents (Elt F) → (⟨S32x8192x128, .f32⟩ : BufTy).Contents (Elt F)),
    StableHlo.binary main_v60 main_v81 main_v82 (mulf : (⟨S32x8192x128, .f32⟩ : BufTy).Contents (Elt F) → (⟨S32x8192x128, .f32⟩ : BufTy).Contents (Elt F) → (⟨S32x8192x128, .f32⟩ : BufTy).Contents (Elt F)),
    StableHlo.nullary main_v83 (iotaInDim S128 32 0),
    StableHlo.nullary main_c_24 (constantI S_ 32 64#32),
    StableHlo.unary main_c_24 main_v84 (broadcastInDim S128 ![] bcast_S_S128 : (⟨S_, .i32⟩ : BufTy).Contents (Elt F) → (⟨S128, .i32⟩ : BufTy).Contents (Elt F)),
    StableHlo.binary main_v83 main_v84 main_v85 (cmpi .sge : (⟨S128, .i32⟩ : BufTy).Contents (Elt F) → (⟨S128, .i32⟩ : BufTy).Contents (Elt F) → (⟨S128, .i1⟩ : BufTy).Contents (Elt F)),
    StableHlo.nullary main_cst_25 (constant S_ .f32 0x3E99999A#32),
    StableHlo.nullary main_cst_26 (constant S_ .f32 0x3F800000#32),
    StableHlo.TRef.unary (.of main_cst_25 : StableHlo.TRef sig ⟨S_, .f32⟩) main_call13.v0 (broadcastInDim S128 ![] bcast_S_S128),
    StableHlo.TRef.unary (.of main_cst_26 : StableHlo.TRef sig ⟨S_, .f32⟩) main_call13.v1 (broadcastInDim S128 ![] bcast_S_S128),
    StableHlo.TRef.ternary (.of main_v85 : StableHlo.TRef sig ⟨S128, .i1⟩) main_call13.v0 main_call13.v1 main_call13.v2 select,
    StableHlo.unary main_v86 main_v87 (id : (⟨S128, .f32⟩ : BufTy).Contents (Elt F) → (⟨S128, .f32⟩ : BufTy).Contents (Elt F)),
    StableHlo.nullary main_c_27 (constantI S_ 32 5#32),
    StableHlo.unary main_c_27 main_v88 (broadcastInDim S32x8192 ![] bcast_S_S32x8192 : (⟨S_, .i32⟩ : BufTy).Contents (Elt F) → (⟨S32x8192, .i32⟩ : BufTy).Contents (Elt F)),
    StableHlo.binary main_arg1 main_v88 main_v89 (cmpi .eq : (⟨S32x8192, .i32⟩ : BufTy).Contents (Elt F) → (⟨S32x8192, .i32⟩ : BufTy).Contents (Elt F) → (⟨S32x8192, .i1⟩ : BufTy).Contents (Elt F)),
    StableHlo.unary main_v89 main_v90 (broadcastInDim S32x8192x1 ![0, 1] bcast_S32x8192_S32x8192x1_0_1 : (⟨S32x8192, .i1⟩ : BufTy).Contents (Elt F) → (⟨S32x8192x1, .i1⟩ : BufTy).Contents (Elt F)),
    StableHlo.unary main_v87 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S1x1x128 ![1, 2] bcast_S1x128_S1x1x128_1_2 : (⟨S1x128, .f32⟩ : BufTy).Contents (Elt F) → (⟨S1x1x128, .f32⟩ : BufTy).Contents (Elt F)),
    StableHlo.unary main_v92 main_v93 (broadcastInDim S32x8192x128 ![0, 1, 2] bcast_S1x1x128_S32x8192x128_0_1_2 : (⟨S1x1x128, .f32⟩ : BufTy).Contents (Elt F) → (⟨S32x8192x128, .f32⟩ : BufTy).Contents (Elt F)),
    StableHlo.binary main_v82 main_v93 main_v94 (mulf : (⟨S32x8192x128, .f32⟩ : BufTy).Contents (Elt F) → (⟨S32x8192x128, .f32⟩ : BufTy).Contents (Elt F) → (⟨S32x8192x128, .f32⟩ : BufTy).Contents (Elt F)),
    StableHlo.TRef.unary (.of main_v90 : StableHlo.TRef sig ⟨S32x8192x1, .i1⟩) main_call14.v0 (broadcastInDim S32x8192x128 ![0, 1, 2] bcast_S32x8192x1_S32x8192x128_0_1_2),
    StableHlo.TRef.ternary main_call14.v0 (.of main_v94 : StableHlo.TRef sig ⟨S32x8192x128, .f32⟩) (.of main_v82 : StableHlo.TRef sig ⟨S32x8192x128, .f32⟩) main_call14.v1 select,
    StableHlo.nullary main_cst_28 (constant S_ .f32 0x00000000#32),
    StableHlo.nullary main_cst_29 (constant S_ .f32 0x3F800000#32),
    StableHlo.TRef.unary (.of main_cst_28 : StableHlo.TRef sig ⟨S_, .f32⟩) main_call15.v0 id,
    StableHlo.TRef.unary main_call15.v0 main_call15.v1 (broadcastInDim S32x8192x128 ![] bcast_S_S32x8192x128),
    StableHlo.TRef.binary main_call15.v1 (.of main_v95 : StableHlo.TRef sig ⟨S32x8192x128, .f32⟩) main_call15.v2 maximumf,
    StableHlo.TRef.unary (.of main_cst_29 : StableHlo.TRef sig ⟨S_, .f32⟩) main_call15.v3 id,
    StableHlo.TRef.unary main_call15.v3 main_call15.v4 (broadcastInDim S32x8192x128 ![] bcast_S_S32x8192x128),
    StableHlo.TRef.binary main_call15.v4 main_call15.v2 main_call15.v5 minimumf ]

/-- The operations 1 … 22 of 179, in order. -/
abbrev part0 : List (HloOp τ sig (Elt F)) :=
  [ StableHlo.nullary main_c (constantI S1 1 1#1),
    StableHlo.nullary main_c_0 (constantI S1 1 1#1),
    StableHlo.nullary main_v0 (iotaInDim S8192 32 0),
    StableHlo.nullary main_c_1 (constantI S_ 32 0#32),
    StableHlo.unary main_c_1 main_v1 (broadcastInDim S32x8192 ![] bcast_S_S32x8192 : (⟨S_, .i32⟩ : BufTy).Contents (Elt F) → (⟨S32x8192, .i32⟩ : BufTy).Contents (Elt F)),
    StableHlo.binary main_arg1 main_v1 main_v2 (cmpi .eq : (⟨S32x8192, .i32⟩ : BufTy).Contents (Elt F) → (⟨S32x8192, .i32⟩ : BufTy).Contents (Elt F) → (⟨S32x8192, .i1⟩ : BufTy).Contents (Elt F)),
    StableHlo.nullary main_c_2 (constantI S_ 32 7#32),
    StableHlo.unary main_c_2 main_v3 (broadcastInDim S32x8192 ![] bcast_S_S32x8192 : (⟨S_, .i32⟩ : BufTy).Contents (Elt F) → (⟨S32x8192, .i32⟩ : BufTy).Contents (Elt F)),
    StableHlo.binary main_arg1 main_v3 main_v4 (cmpi .eq : (⟨S32x8192, .i32⟩ : BufTy).Contents (Elt F) → (⟨S32x8192, .i32⟩ : BufTy).Contents (Elt F) → (⟨S32x8192, .i1⟩ : BufTy).Contents (Elt F)),
    StableHlo.binary main_v2 main_v4 main_v5 (ori : (⟨S32x8192, .i1⟩ : BufTy).Contents (Elt F) → (⟨S32x8192, .i1⟩ : BufTy).Contents (Elt F) → (⟨S32x8192, .i1⟩ : BufTy).Contents (Elt F)),
    StableHlo.unary main_v5 main_v6 (noti : (⟨S32x8192, .i1⟩ : BufTy).Contents (Elt F) → (⟨S32x8192, .i1⟩ : BufTy).Contents (Elt F)),
    StableHlo.unary main_v6 main_v7 (broadcastInDim S32x8192x1 ![0, 1] bcast_S32x8192_S32x8192x1_0_1 : (⟨S32x8192, .i1⟩ : BufTy).Contents (Elt F) → (⟨S32x8192x1, .i1⟩ : BufTy).Contents (Elt F)),
    StableHlo.unary main_v7 main_v8 (uitofp .f32 : (⟨S32x8192x1, .i1⟩ : BufTy).Contents (Elt F) → (⟨S32x8192x1, .f32⟩ : BufTy).Contents (Elt F)),
    StableHlo.unary main_v8 main_v9 (broadcastInDim S32x8192x128 ![0, 1, 2] bcast_S32x8192x1_S32x8192x128_0_1_2 : (⟨S32x8192x1, .f32⟩ : BufTy).Contents (Elt F) → (⟨S32x8192x128, .f32⟩ : BufTy).Contents (Elt F)),
    StableHlo.binary main_arg0 main_v9 main_v10 (mulf : (⟨S32x8192x128, .f32⟩ : BufTy).Contents (Elt F) → (⟨S32x8192x128, .f32⟩ : BufTy).Contents (Elt F) → (⟨S32x8192x128, .f32⟩ : BufTy).Contents (Elt F)),
    StableHlo.unary main_arg1 main_v11 ((extractStridedSlice S32x8191 ![0, 1] · slices_S32x8192_S32x8191_0_1) : (⟨S32x8192, .i32⟩ : BufTy).Contents (Elt F) → (⟨S32x8191, .i32⟩ : BufTy).Contents (Elt F)),
    StableHlo.unary main_arg1 main_v12 ((extractStridedSlice S32x8191 ![0, 0] · slices_S32x8192_S32x8191_0_0) : (⟨S32x8192, .i32⟩ : BufTy).Contents (Elt F) → (⟨S32x8191, .i32⟩ : BufTy).Contents (Elt F)),
    StableHlo.binary main_v11 main_v12 main_v13 (cmpi .ne : (⟨S32x8191, .i32⟩ : BufTy).Contents (Elt F) → (⟨S32x8191, .i32⟩ : BufTy).Contents (Elt F) → (⟨S32x8191, .i1⟩ : BufTy).Contents (Elt F)),
    StableHlo.unary main_c main_v14 (broadcastInDim S32x1 ![1] bcast_S1_S32x1_1 : (⟨S1, .i1⟩ : BufTy).Contents (Elt F) → (⟨S32x1, .i1⟩ : BufTy).Contents (Elt F)),
    StableHlo.binary main_v14 main_v13 main_v15 ((fun a b => concatenate S32x8192 1 [⟨S32x1, a⟩, ⟨S32x8191, b⟩] concatenates_S32x1_S32x8191_S32x8192_d1) : (⟨S32x1, .i1⟩ : BufTy).Contents (Elt F) → (⟨S32x8191, .i1⟩ : BufTy).Contents (Elt F) → (⟨S32x8192, .i1⟩ : BufTy).Contents (Elt F)),
    StableHlo.unary main_c_0 main_v16 (broadcastInDim S32x1 ![1] bcast_S1_S32x1_1 : (⟨S1, .i1⟩ : BufTy).Contents (Elt F) → (⟨S32x1, .i1⟩ : BufTy).Contents (Elt F)),
    StableHlo.binary main_v13 main_v16 main_v17 ((fun a b => concatenate S32x8192 1 [⟨S32x8191, a⟩, ⟨S32x1, b⟩] concatenates_S32x8191_S32x1_S32x8192_d1) : (⟨S32x8191, .i1⟩ : BufTy).Contents (Elt F) → (⟨S32x1, .i1⟩ : BufTy).Contents (Elt F) → (⟨S32x8192, .i1⟩ : BufTy).Contents (Elt F)) ]

/-- The operations 23 … 31 of 179, in order. -/
abbrev part1 : List (HloOp τ sig (Elt F)) :=
  [ StableHlo.nullary main_c_3 (constantI S_ 32 0#32),
    StableHlo.TRef.unary (.of main_c_3 : StableHlo.TRef sig ⟨S_, .i32⟩) main_call0.v0 id,
    StableHlo.TRef.unary main_call0.v0 main_call0.v1 (broadcastInDim S8192 ![] bcast_S_S8192),
    StableHlo.TRef.unary main_call0.v1 main_call0.v2 (broadcastInDim S32x8192 ![1] bcast_S8192_S32x8192_1),
    StableHlo.TRef.unary (.of main_v0 : StableHlo.TRef sig ⟨S8192, .i32⟩) main_call0.v3 (broadcastInDim S32x8192 ![1] bcast_S8192_S32x8192_1),
    StableHlo.TRef.ternary (.of main_v15 : StableHlo.TRef sig ⟨S32x8192, .i1⟩) main_call0.v3 main_call0.v2 main_call0.v4 select,
    StableHlo.TRef.nullary main_call1.c (constantI S_ 32 2147483648#32),
    StableHlo.TRef.unary main_call1.c main_call1.v0 (broadcastInDim S_ ![] bcast_S_S_),
    StableHlo.TRef.binary (.of main_v18 : StableHlo.TRef sig ⟨S32x8192, .i32⟩) main_call1.v0 main_call1.v1 (fun x v => Host.reduceWindow IntOp.maxsi ![1, 8192] ![1, 1] ![0, 8191] ![0, 0] x v reduceWindows_S32x8192_S32x8192_w1s1p0_0_w8192s1p8191_0 h_S_) ]

/-- The operations 32 … 40 of 179, in order. -/
abbrev part2 : List (HloOp τ sig (Elt F)) :=
  [ StableHlo.nullary main_c_4 (constantI S_ 32 1#32),
    StableHlo.unary main_c_4 main_v20 (broadcastInDim S8192 ![] bcast_S_S8192 : (⟨S_, .i32⟩ : BufTy).Contents (Elt F) → (⟨S8192, .i32⟩ : BufTy).Contents (Elt F)),
    StableHlo.binary main_v0 main_v20 main_v21 (addi : (⟨S8192, .i32⟩ : BufTy).Contents (Elt F) → (⟨S8192, .i32⟩ : BufTy).Contents (Elt F) → (⟨S8192, .i32⟩ : BufTy).Contents (Elt F)),
    StableHlo.nullary main_c_5 (constantI S_ 32 8192#32),
    StableHlo.TRef.unary (.of main_c_5 : StableHlo.TRef sig ⟨S_, .i32⟩) main_call2.v0 id,
    StableHlo.TRef.unary main_call2.v0 main_call2.v1 (broadcastInDim S8192 ![] bcast_S_S8192),
    StableHlo.TRef.unary main_call2.v1 main_call2.v2 (broadcastInDim S32x8192 ![1] bcast_S8192_S32x8192_1),
    StableHlo.TRef.unary (.of main_v21 : StableHlo.TRef sig ⟨S8192, .i32⟩) main_call2.v3 (broadcastInDim S32x8192 ![1] bcast_S8192_S32x8192_1),
    StableHlo.TRef.ternary (.of main_v17 : StableHlo.TRef sig ⟨S32x8192, .i1⟩) main_call2.v3 main_call2.v2 main_call2.v4 select ]

/-- The operations 41 … 45 of 179, in order. -/
abbrev part3 : List (HloOp τ sig (Elt F)) :=
  [ StableHlo.TRef.unary (.of main_v22 : StableHlo.TRef sig ⟨S32x8192, .i32⟩) main_call3.v0 (Host.reverse [1]),
    StableHlo.TRef.nullary main_call4.c (constantI S_ 32 2147483647#32),
    StableHlo.TRef.unary main_call4.c main_call4.v0 (broadcastInDim S_ ![] bcast_S_S_),
    StableHlo.TRef.binary (.of main_v23 : StableHlo.TRef sig ⟨S32x8192, .i32⟩) main_call4.v0 main_call4.v1 (fun x v => Host.reduceWindow IntOp.minsi ![1, 8192] ![1, 1] ![0, 8191] ![0, 0] x v reduceWindows_S32x8192_S32x8192_w1s1p0_0_w8192s1p8191_0 h_S_),
    StableHlo.TRef.unary (.of main_v24 : StableHlo.TRef sig ⟨S32x8192, .i32⟩) main_call5.v0 (Host.reverse [1]) ]

/-- The operations 46 … 66 of 179, in order. -/
abbrev part4 : List (HloOp τ sig (Elt F)) :=
  [ StableHlo.binary main_v25 main_v19 main_v26 (subi : (⟨S32x8192, .i32⟩ : BufTy).Contents (Elt F) → (⟨S32x8192, .i32⟩ : BufTy).Contents (Elt F) → (⟨S32x8192, .i32⟩ : BufTy).Contents (Elt F)),
    StableHlo.unary main_v0 main_v27 (broadcastInDim S1x8192 ![1] bcast_S8192_S1x8192_1 : (⟨S8192, .i32⟩ : BufTy).Contents (Elt F) → (⟨S1x8192, .i32⟩ : BufTy).Contents (Elt F)),
    StableHlo.unary main_v27 main_v28 (broadcastInDim S32x8192 ![0, 1] bcast_S1x8192_S32x8192_0_1 : (⟨S1x8192, .i32⟩ : BufTy).Contents (Elt F) → (⟨S32x8192, .i32⟩ : BufTy).Contents (Elt F)),
    StableHlo.binary main_v28 main_v19 main_v29 (subi : (⟨S32x8192, .i32⟩ : BufTy).Contents (Elt F) → (⟨S32x8192, .i32⟩ : BufTy).Contents (Elt F) → (⟨S32x8192, .i32⟩ : BufTy).Contents (Elt F)),
    StableHlo.unary main_v29 main_v30 (sitofp .f32 : (⟨S32x8192, .i32⟩ : BufTy).Contents (Elt F) → (⟨S32x8192, .f32⟩ : BufTy).Contents (Elt F)),
    StableHlo.nullary main_c_6 (constantI S_ 32 1#32),
    StableHlo.unary main_c_6 main_v31 (broadcastInDim S32x8192 ![] bcast_S_S32x8192 : (⟨S_, .i32⟩ : BufTy).Contents (Elt F) → (⟨S32x8192, .i32⟩ : BufTy).Contents (Elt F)),
    StableHlo.binary main_v26 main_v31 main_v32 (subi : (⟨S32x8192, .i32⟩ : BufTy).Contents (Elt F) → (⟨S32x8192, .i32⟩ : BufTy).Contents (Elt F) → (⟨S32x8192, .i32⟩ : BufTy).Contents (Elt F)),
    StableHlo.nullary main_c_7 (constantI S_ 32 1#32),
    StableHlo.unary main_c_7 main_v33 (broadcastInDim S32x8192 ![] bcast_S_S32x8192 : (⟨S_, .i32⟩ : BufTy).Contents (Elt F) → (⟨S32x8192, .i32⟩ : BufTy).Contents (Elt F)),
    StableHlo.binary main_v32 main_v33 main_v34 (maxsi : (⟨S32x8192, .i32⟩ : BufTy).Contents (Elt F) → (⟨S32x8192, .i32⟩ : BufTy).Contents (Elt F) → (⟨S32x8192, .i32⟩ : BufTy).Contents (Elt F)),
    StableHlo.unary main_v34 main_v35 (sitofp .f32 : (⟨S32x8192, .i32⟩ : BufTy).Contents (Elt F) → (⟨S32x8192, .f32⟩ : BufTy).Contents (Elt F)),
    StableHlo.binary main_v30 main_v35 main_v36 (Host.divf : (⟨S32x8192, .f32⟩ : BufTy).Contents (Elt F) → (⟨S32x8192, .f32⟩ : BufTy).Contents (Elt F) → (⟨S32x8192, .f32⟩ : BufTy).Contents (Elt F)),
    StableHlo.binary main_v26 main_v19 main_v37 (minsi : (⟨S32x8192, .i32⟩ : BufTy).Contents (Elt F) → (⟨S32x8192, .i32⟩ : BufTy).Contents (Elt F) → (⟨S32x8192, .i32⟩ : BufTy).Contents (Elt F)),
    StableHlo.binary main_v19 main_v37 main_v38 (subi : (⟨S32x8192, .i32⟩ : BufTy).Contents (Elt F) → (⟨S32x8192, .i32⟩ : BufTy).Contents (Elt F) → (⟨S32x8192, .i32⟩ : BufTy).Contents (Elt F)),
    StableHlo.nullary main_c_8 (constantI S_ 32 0#32),
    StableHlo.unary main_c_8 main_v39 (broadcastInDim S32x8192 ![] bcast_S_S32x8192 : (⟨S_, .i32⟩ : BufTy).Contents (Elt F) → (⟨S32x8192, .i32⟩ : BufTy).Contents (Elt F)),
    StableHlo.binary main_v37 main_v39 main_v40 (cmpi .sgt : (⟨S32x8192, .i32⟩ : BufTy).Contents (Elt F) → (⟨S32x8192, .i32⟩ : BufTy).Contents (Elt F) → (⟨S32x8192, .i1⟩ : BufTy).Contents (Elt F)),
    StableHlo.nullary main_c_9 (constantI S_ 32 1#32),
    StableHlo.unary main_c_9 main_v41 (broadcastInDim S32x8192 ![] bcast_S_S32x8192 : (⟨S_, .i32⟩ : BufTy).Contents (Elt F) → (⟨S32x8192, .i32⟩ : BufTy).Contents (Elt F)),
    StableHlo.binary main_v37 main_v41 main_v42 (maxsi : (⟨S32x8192, .i32⟩ : BufTy).Contents (Elt F) → (⟨S32x8192, .i32⟩ : BufTy).Contents (Elt F) → (⟨S32x8192, .i32⟩ : BufTy).Contents (Elt F)) ]

/-- The operations 67 … 87 of 179, in order. -/
abbrev part5 : List (HloOp τ sig (Elt F)) :=
  [ StableHlo.TRef.nullary main_call6.c (constantI S_ 32 0#32),
    StableHlo.TRef.unary main_call6.c main_call6.v0 (broadcastInDim S32x8192 ![] bcast_S_S32x8192),
    StableHlo.TRef.binary (.of main_v42 : StableHlo.TRef sig ⟨S32x8192, .i32⟩) main_call6.v0 main_call6.v1 (cmpi .eq),
    StableHlo.TRef.nullary main_call6.c_0 (constantI S_ 32 1#32),
    StableHlo.TRef.unary main_call6.c_0 main_call6.v2 (broadcastInDim S8192 ![] bcast_S_S8192),
    StableHlo.TRef.unary main_call6.v2 main_call6.call0.v0 (broadcastInDim S32x8192 ![1] bcast_S8192_S32x8192_1),
    StableHlo.TRef.ternary main_call6.v1 main_call6.call0.v0 (.of main_v42 : StableHlo.TRef sig ⟨S32x8192, .i32⟩) main_call6.call0.v1 select,
    StableHlo.TRef.binary (.of main_v29 : StableHlo.TRef sig ⟨S32x8192, .i32⟩) main_call6.call0.v1 main_call6.v4 Host.remsi,
    StableHlo.TRef.nullary main_call6.c_1 (constantI S_ 32 0#32),
    StableHlo.TRef.unary main_call6.c_1 main_call6.v5 (broadcastInDim S32x8192 ![] bcast_S_S32x8192),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S32x8192 ![] bcast_S_S32x8192),
    StableHlo.TRef.binary main_call6.v4 main_call6.v7 main_call6.v8 (cmpi .slt),
    StableHlo.TRef.nullary main_call6.c_3 (constantI S_ 32 0#32),
    StableHlo.TRef.unary main_call6.c_3 main_call6.v9 (broadcastInDim S32x8192 ![] bcast_S_S32x8192),
    StableHlo.TRef.binary main_call6.call0.v1 main_call6.v9 main_call6.v10 (cmpi .slt),
    StableHlo.TRef.binary main_call6.v8 main_call6.v10 main_call6.v11 (cmpi .ne),
    StableHlo.TRef.binary main_call6.v11 main_call6.v6 main_call6.v12 andi,
    StableHlo.TRef.binary main_call6.v4 main_call6.call0.v1 main_call6.v13 addi,
    StableHlo.TRef.ternary main_call6.v12 main_call6.v13 main_call6.v4 main_call6.v14 select ]

/-- The operations 88 … 93 of 179, in order. -/
abbrev part6 : List (HloOp τ sig (Elt F)) :=
  [ StableHlo.nullary main_c_10 (constantI S_ 32 0#32),
    StableHlo.TRef.unary (.of main_c_10 : StableHlo.TRef sig ⟨S_, .i32⟩) main_call7.v0 id,
    StableHlo.TRef.unary main_call7.v0 main_call7.v1 (broadcastInDim S8192 ![] bcast_S_S8192),
    StableHlo.TRef.unary main_call7.v1 main_call7.v2 (broadcastInDim S32x8192 ![1] bcast_S8192_S32x8192_1),
    StableHlo.TRef.ternary (.of main_v40 : StableHlo.TRef sig ⟨S32x8192, .i1⟩) (.of main_v43 : StableHlo.TRef sig ⟨S32x8192, .i32⟩) main_call7.v2 main_call7.v3 select,
    StableHlo.binary main_v38 main_v44 main_v45 (addi : (⟨S32x8192, .i32⟩ : BufTy).Contents (Elt F) → (⟨S32x8192, .i32⟩ : BufTy).Contents (Elt F) → (⟨S32x8192, .i32⟩ : BufTy).Contents (Elt F)) ]

/-- The operations 94 … 101 of 179, in order. -/
abbrev part7 : List (HloOp τ sig (Elt F)) :=
  [ StableHlo.nullary main_c_11 (constantI S_ 32 0#32),
    StableHlo.nullary main_c_12 (constantI S_ 32 8191#32),
    StableHlo.TRef.unary (.of main_c_11 : StableHlo.TRef sig ⟨S_, .i32⟩) main_call8.v0 id,
    StableHlo.TRef.unary main_call8.v0 main_call8.v1 (broadcastInDim S32x8192 ![] bcast_S_S32x8192),
    StableHlo.TRef.binary main_call8.v1 (.of main_v45 : StableHlo.TRef sig ⟨S32x8192, .i32⟩) main_call8.v2 maxsi,
    StableHlo.TRef.unary (.of main_c_12 : StableHlo.TRef sig ⟨S_, .i32⟩) main_call8.v3 id,
    StableHlo.TRef.unary main_call8.v3 main_call8.v4 (broadcastInDim S32x8192 ![] bcast_S_S32x8192),
    StableHlo.TRef.binary main_call8.v4 main_call8.v2 main_call8.v5 minsi ]

end Cert.ReferenceIdeal.RefRun

end
-- ==== Proof.RefOut.lean ====
/-
  What the reference's line of operations leaves in the buffers, read back for every valuation.

  The two arguments are written by no operation, so they keep their contents. The result buffer holds the operations'
  composed term of the two arguments' contents: the fold over the list is unrolled, each operation's result at its own
  buffer is its function of the contents of the buffers it reads, at any other buffer what was there, and what is left
  is the reference's result as the common chain spells it.
-/
import proofs.«180310_j25288767439135_1_alg».proof.Proof.RefOps
import proofs.«180310_j25288767439135_1_alg».proof.Proof.RefStretch
import proofs.«180310_j25288767439135_1_alg».proof.Proof.LibAppend
import proofs.«180310_j25288767439135_1_alg».proof.Proof.SpecPrograms

-- one declaration at a time: each read-back holds a long term while it is checked
set_option Elab.async false

noncomputable section

/-! ## Three steps of the common chain with their inputs as arguments

The chain's own definitions take the labels and compute the runs' bounds, the loop length, the source frame and the
fraction inside themselves. Read in stretches, the line of operations has those already in buffers; the three
functions below are the chain's last steps over such given values, and at the chain's own values they are the chain. -/

namespace Cert.Spec.Stage

open Idealize.ShloMosaic

variable {F : FTy → Type} [FloatOps F]

/-- The frame position t at every (b, t), from the positions `io` along a row. -/
def idxOf (io : IVec S8192 32) : IVec S32x8192 32 :=
  broadcastInDim S32x8192 ![0, 1] bc_S1x8192_S32x8192 (broadcastInDim S1x8192 ![1] bc_S8192_S1x8192 io)

/-- The run's first frame, from where a run starts (`c`) and the positions along a row. -/
def stOf (c : IVec S32x8192 1) (io : IVec S8192 32) : IVec S32x8192 32 :=
  start (select c (spread io) (spread (cRow 0#32)))

/-- t + 1 where a run ends (`l`), else 8192, from the positions along a row. -/
def w1Of (l : IVec S32x8192 1) (io : IVec S8192 32) : IVec S32x8192 32 :=
  select l (spread (addi io (cRow 1#32))) (spread (cRow 8192#32))

/-- The frame's position inside its run. -/
def posOf (io : IVec S8192 32) (st : IVec S32x8192 32) : IVec S32x8192 32 := subi (idxOf io) st

/-- The frame's fraction inside its run. -/
def fracOf (io : IVec S8192 32) (st en : IVec S32x8192 32) : FVec F S32x8192 .f32 :=
  Host.divf (sitofp .f32 (posOf io st)) (sitofp .f32 (maxsi (subi (segLen st en) (cI 1#32)) (cI 1#32)))

/-- The source frame before the clamp, from the loop length `lp` at its three uses and the remainder `r`. -/
def preOf (d : IVec S32x8192 32) (p : IVec S32x8192 1) (r : IVec S32x8192 32) : IVec S32x8192 32 :=
  addi d (select p r (spread (cRow 0#32)))

/-- The clamp into [0, 8191]. -/
def clampOf (s : IVec S32x8192 32) : IVec S32x8192 32 := minsi (cI 8191#32) (maxsi (cI 0#32) s)

/-- The gain from the fraction `fr`: `fr` at label 3, 1 − `fr` at 4, 1 − ½·sin(π·`fr`) at 6, else `oneF`. -/
def gainOf (oneF : FVec F S32x8192 .f32) (L : IVec S32x8192 32) (fr : FVec F S32x8192 .f32) : FVec F S32x8192 .f32 :=
  select (cmpi .eq L (cI 6#32))
    (subf (cF 0x3F800000#32) (mulf (cF 0x3F000000#32) (Host.sin (mulf (cF 0x40490FDB#32) fr))))
    (select (cmpi .eq L (cI 4#32)) (subf (cF 0x3F800000#32) fr)
      (select (cmpi .eq L (cI 3#32)) fr oneF))

/-- The loop blended in by selection, from the loop length `lp`, the source frame `s` and the masked array `x`. -/
def x60Of (L lp s : IVec S32x8192 32) (x : FVec F S32x8192x128 .f32) : FVec F S32x8192x128 .f32 :=
  select (chan (andi (cmpi .eq L (cI 2#32)) (cmpi .sgt lp (cI 0#32))))
    (Host.gather gRows x (broadcastInDim S32x8192x1 ![0, 1] bc_S32x8192_S32x8192x1 (wrap 8192#32 s))) x

/-- The result from the blended array `y`, the gain `g` and the labels: times the gain, the low-pass factor where the
    label is 5, clipped into [0, 1]. -/
def outOf (y : FVec F S32x8192x128 .f32) (g : FVec F S32x8192 .f32) (L : IVec S32x8192 32) : FVec F S32x8192x128 .f32 :=
  minimumf (broadcastInDim S32x8192x128 ![] bc_S_S32x8192x128 (constant S_ .f32 0x3F800000#32))
    (maximumf (broadcastInDim S32x8192x128 ![] bc_S_S32x8192x128 (constant S_ .f32 0x00000000#32))
      (select (chan (effI L)) (mulf (mulf y (chan g)) (lp3 (F := F))) (mulf y (chan g))))

end Cert.Spec.Stage

namespace Cert.ReferenceIdeal.RefRun

open Cert.ReferenceIdeal Idealize.ShloMosaic Idealize.ShloMosaic.TcCoe Idealize.SL.Sem Idealize.ShloMosaic.StableHlo

variable {F : FTy → Type} [FloatOps F]

/-! ## The arguments are left alone -/

set_option maxRecDepth 8192 in
set_option maxHeartbeats 4000000 in
/-- No operation writes the first argument's buffer. -/
theorem arg0_eq (V : Valuation τ sig (Elt F)) :
    after ops V (main_arg0 : DevRef τ sig) = V (main_arg0 : DevRef τ sig) := by
  simp only [ops, ops0, ops1, ops2, List.cons_append, List.nil_append]
  after_results_simp

set_option maxRecDepth 8192 in
set_option maxHeartbeats 4000000 in
/-- No operation writes the second argument's buffer. -/
theorem arg1_eq (V : Valuation τ sig (Elt F)) :
    after ops V (main_arg1 : DevRef τ sig) = V (main_arg1 : DevRef τ sig) := by
  simp only [ops, ops0, ops1, ops2, List.cons_append, List.nil_append]
  after_results_simp

/-! ## The line in four stretches

The same 179 operations cut after the 45th (the runs' bounds are in their buffers), the 101st (the source frame, the
fraction, the loop length) and the 148th (the blended array, the gain). A stretch is read from an ARBITRARY valuation
`W`: what it takes from an earlier stretch stays the atom `W b`, so each term is short, and the unrolled fold inside a
`concatenate`'s operand list (which rewriting cannot enter) is at most the first stretch long. -/

set_option maxRecDepth 16384 in
set_option maxHeartbeats 4000000 in
/-- The windows' lists and the stretches' lists are the same list. -/
theorem ops_eq_segs : (ops : List (HloOp τ sig (Elt F))) = seg0 ++ (seg1 ++ (seg2 ++ seg3)) := by
  simp only [ops, ops0, ops1, ops2, seg0, seg1, seg2, seg3, List.cons_append, List.nil_append]

/-! ### The first 101 operations, cut finer

A `concatenate` keeps the unrolled fold inside its operand list, and a call's operations carry their values through the
typed references' transports; checking either is dear, and dearer the more of them one equation holds. So the first two
stretches are read in eight parts: the plain operations up to the two concatenations; the two calls that give the run's
first frame; the call that marks the runs' ends; the three that give the exclusive end; the plain arithmetic on the
bounds; the remainder call alone; the selection and the sum; the clamp. -/

set_option maxRecDepth 16384 in
set_option maxHeartbeats 4000000 in
/-- The first two stretches' lists and the eight parts' lists are the same list. -/
theorem segs01_eq_parts : (seg0 ++ (seg1 ++ (seg2 ++ seg3)) : List (HloOp τ sig (Elt F)))
    = part0 ++ (part1 ++ (part2 ++ (part3 ++ (part4 ++ (part5 ++ (part6 ++ (part7 ++ (seg2 ++ seg3)))))))) := by
  simp only [seg0, seg1, part0, part1, part2, part3, part4, part5, part6, part7, List.cons_append, List.nil_append]

set_option maxRecDepth 16384 in
set_option maxHeartbeats 1000000 in
/-- The frame positions along a row. -/
theorem part0_v0 (W : Valuation τ sig (Elt F)) :
    after part0 W (main_v0 : DevRef τ sig) = iotaInDim Cert.Spec.S8192 32 0 := by
  simp only [part0]
  after_results_simp

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 1000000 in
/-- The masked mel array. -/
theorem part0_v10 (W : Valuation τ sig (Elt F)) :
    after part0 W (main_v10 : DevRef τ sig) = Cert.Spec.x10 (W (main_arg0 : DevRef τ sig)) (W (main_arg1 : DevRef τ sig)) := by
  simp only [part0]
  after_results_simp
  rfl

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 1000000 in
/-- Where a run starts. -/
theorem part0_v15 (W : Valuation τ sig (Elt F)) :
    after part0 W (main_v15 : DevRef τ sig) = Cert.Spec.change Cert.Spec.onesR (W (main_arg1 : DevRef τ sig)) := by
  simp only [part0]
  after_results_simp
  rfl

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 1000000 in
/-- Where a run ends. -/
theorem part0_v17 (W : Valuation τ sig (Elt F)) :
    after part0 W (main_v17 : DevRef τ sig) = Cert.Spec.last Cert.Spec.onesR (W (main_arg1 : DevRef τ sig)) := by
  simp only [part0]
  after_results_simp
  rfl

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 1000000 in
/-- The run's first frame. -/
theorem part1_v19 (W : Valuation τ sig (Elt F)) :
    after part1 W (main_v19 : DevRef τ sig) = Cert.Spec.Stage.stOf (W (main_v15 : DevRef τ sig)) (W (main_v0 : DevRef τ sig)) := by
  simp only [part1]
  after_results_simp
  rfl

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 1000000 in
/-- t + 1 where a run ends, else 8192. -/
theorem part2_v22 (W : Valuation τ sig (Elt F)) :
    after part2 W (main_v22 : DevRef τ sig) = Cert.Spec.Stage.w1Of (W (main_v17 : DevRef τ sig)) (W (main_v0 : DevRef τ sig)) := by
  simp only [part2]
  after_results_simp
  rfl

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 4000000 in
/-- The run's exclusive end. -/
theorem part3_v25 (W : Valuation τ sig (Elt F)) :
    after part3 W (main_v25 : DevRef τ sig) = Cert.Spec.endx (W (main_v22 : DevRef τ sig)) := by
  simp only [part3]
  after_results_simp
  rfl

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 1000000 in
/-- The position inside the run. -/
theorem part4_v29 (W : Valuation τ sig (Elt F)) :
    after part4 W (main_v29 : DevRef τ sig) = Cert.Spec.Stage.posOf (W (main_v0 : DevRef τ sig)) (W (main_v19 : DevRef τ sig)) := by
  simp only [part4]
  after_results_simp
  rfl

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 1000000 in
/-- The fraction inside the run. -/
theorem part4_v36 (W : Valuation τ sig (Elt F)) :
    after part4 W (main_v36 : DevRef τ sig) = Cert.Spec.Stage.fracOf (F := F) (W (main_v0 : DevRef τ sig)) (W (main_v19 : DevRef τ sig)) (W (main_v25 : DevRef τ sig)) := by
  simp only [part4]
  after_results_simp
  rfl

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 1000000 in
/-- The loop length. -/
theorem part4_v37 (W : Valuation τ sig (Elt F)) :
    after part4 W (main_v37 : DevRef τ sig) = Cert.Spec.lpLen (W (main_v19 : DevRef τ sig)) (W (main_v25 : DevRef τ sig)) := by
  simp only [part4]
  after_results_simp
  rfl

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 1000000 in
/-- The run's first frame less the loop length. -/
theorem part4_v38 (W : Valuation τ sig (Elt F)) :
    after part4 W (main_v38 : DevRef τ sig) = subi (W (main_v19 : DevRef τ sig)) (Cert.Spec.lpLen (W (main_v19 : DevRef τ sig)) (W (main_v25 : DevRef τ sig))) := by
  simp only [part4]
  after_results_simp
  rfl

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 1000000 in
/-- The loop length is positive. -/
theorem part4_v40 (W : Valuation τ sig (Elt F)) :
    after part4 W (main_v40 : DevRef τ sig) = cmpi .sgt (Cert.Spec.lpLen (W (main_v19 : DevRef τ sig)) (W (main_v25 : DevRef τ sig))) (Cert.Spec.cI 0#32) := by
  simp only [part4]
  after_results_simp
  rfl

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 1000000 in
/-- The loop length, at least 1. -/
theorem part4_v42 (W : Valuation τ sig (Elt F)) :
    after part4 W (main_v42 : DevRef τ sig) = maxsi (Cert.Spec.lpLen (W (main_v19 : DevRef τ sig)) (W (main_v25 : DevRef τ sig))) (Cert.Spec.cI 1#32) := by
  simp only [part4]
  after_results_simp
  rfl

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 4000000 in
/-- The position modulo the loop length. -/
theorem part5_v43 (W : Valuation τ sig (Elt F)) :
    after part5 W (main_v43 : DevRef τ sig) = Cert.Spec.pymod (Cert.Spec.spread (Cert.Spec.cRow 1#32)) (W (main_v29 : DevRef τ sig)) (W (main_v42 : DevRef τ sig)) := by
  simp only [part5]
  after_results_simp
  rfl

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 1000000 in
/-- The source frame before the clamp. -/
theorem part6_v45 (W : Valuation τ sig (Elt F)) :
    after part6 W (main_v45 : DevRef τ sig) = Cert.Spec.Stage.preOf (W (main_v38 : DevRef τ sig)) (W (main_v40 : DevRef τ sig)) (W (main_v43 : DevRef τ sig)) := by
  simp only [part6]
  after_results_simp
  rfl

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 4000000 in
/-- The source frame. -/
theorem part7_v46 (W : Valuation τ sig (Elt F)) :
    after part7 W (main_v46 : DevRef τ sig) = Cert.Spec.Stage.clampOf (W (main_v45 : DevRef τ sig)) := by
  simp only [part7]
  after_results_simp
  rfl

/-! ### What each part leaves alone -/

set_option maxRecDepth 16384 in
set_option maxHeartbeats 400000 in
/-- No operation of this stretch writes that buffer. -/
theorem part0_keep_arg1 (W : Valuation τ sig (Elt F)) :
    after part0 W (main_arg1 : DevRef τ sig) = W (main_arg1 : DevRef τ sig) := by
  simp only [part0]
  after_results_simp

set_option maxRecDepth 16384 in
set_option maxHeartbeats 400000 in
/-- No operation of this stretch writes that buffer. -/
theorem part1_keep_arg1 (W : Valuation τ sig (Elt F)) :
    after part1 W (main_arg1 : DevRef τ sig) = W (main_arg1 : DevRef τ sig) := by
  simp only [part1]
  after_results_simp

set_option maxRecDepth 16384 in
set_option maxHeartbeats 400000 in
/-- No operation of this stretch writes that buffer. -/
theorem part2_keep_arg1 (W : Valuation τ sig (Elt F)) :
    after part2 W (main_arg1 : DevRef τ sig) = W (main_arg1 : DevRef τ sig) := by
  simp only [part2]
  after_results_simp

set_option maxRecDepth 16384 in
set_option maxHeartbeats 400000 in
/-- No operation of this stretch writes that buffer. -/
theorem part3_keep_arg1 (W : Valuation τ sig (Elt F)) :
    after part3 W (main_arg1 : DevRef τ sig) = W (main_arg1 : DevRef τ sig) := by
  simp only [part3]
  after_results_simp

set_option maxRecDepth 16384 in
set_option maxHeartbeats 400000 in
/-- No operation of this stretch writes that buffer. -/
theorem part4_keep_arg1 (W : Valuation τ sig (Elt F)) :
    after part4 W (main_arg1 : DevRef τ sig) = W (main_arg1 : DevRef τ sig) := by
  simp only [part4]
  after_results_simp

set_option maxRecDepth 16384 in
set_option maxHeartbeats 400000 in
/-- No operation of this stretch writes that buffer. -/
theorem part5_keep_arg1 (W : Valuation τ sig (Elt F)) :
    after part5 W (main_arg1 : DevRef τ sig) = W (main_arg1 : DevRef τ sig) := by
  simp only [part5]
  after_results_simp

set_option maxRecDepth 16384 in
set_option maxHeartbeats 400000 in
/-- No operation of this stretch writes that buffer. -/
theorem part6_keep_arg1 (W : Valuation τ sig (Elt F)) :
    after part6 W (main_arg1 : DevRef τ sig) = W (main_arg1 : DevRef τ sig) := by
  simp only [part6]
  after_results_simp

set_option maxRecDepth 16384 in
set_option maxHeartbeats 400000 in
/-- No operation of this stretch writes that buffer. -/
theorem part7_keep_arg1 (W : Valuation τ sig (Elt F)) :
    after part7 W (main_arg1 : DevRef τ sig) = W (main_arg1 : DevRef τ sig) := by
  simp only [part7]
  after_results_simp

set_option maxRecDepth 16384 in
set_option maxHeartbeats 400000 in
/-- No operation of this stretch writes that buffer. -/
theorem part1_keep_v10 (W : Valuation τ sig (Elt F)) :
    after part1 W (main_v10 : DevRef τ sig) = W (main_v10 : DevRef τ sig) := by
  simp only [part1]
  after_results_simp

set_option maxRecDepth 16384 in
set_option maxHeartbeats 400000 in
/-- No operation of this stretch writes that buffer. -/
theorem part2_keep_v10 (W : Valuation τ sig (Elt F)) :
    after part2 W (main_v10 : DevRef τ sig) = W (main_v10 : DevRef τ sig) := by
  simp only [part2]
  after_results_simp

set_option maxRecDepth 16384 in
set_option maxHeartbeats 400000 in
/-- No operation of this stretch writes that buffer. -/
theorem part3_keep_v10 (W : Valuation τ sig (Elt F)) :
    after part3 W (main_v10 : DevRef τ sig) = W (main_v10 : DevRef τ sig) := by
  simp only [part3]
  after_results_simp

set_option maxRecDepth 16384 in
set_option maxHeartbeats 400000 in
/-- No operation of this stretch writes that buffer. -/
theorem part4_keep_v10 (W : Valuation τ sig (Elt F)) :
    after part4 W (main_v10 : DevRef τ sig) = W (main_v10 : DevRef τ sig) := by
  simp only [part4]
  after_results_simp

set_option maxRecDepth 16384 in
set_option maxHeartbeats 400000 in
/-- No operation of this stretch writes that buffer. -/
theorem part5_keep_v10 (W : Valuation τ sig (Elt F)) :
    after part5 W (main_v10 : DevRef τ sig) = W (main_v10 : DevRef τ sig) := by
  simp only [part5]
  after_results_simp

set_option maxRecDepth 16384 in
set_option maxHeartbeats 400000 in
/-- No operation of this stretch writes that buffer. -/
theorem part6_keep_v10 (W : Valuation τ sig (Elt F)) :
    after part6 W (main_v10 : DevRef τ sig) = W (main_v10 : DevRef τ sig) := by
  simp only [part6]
  after_results_simp

set_option maxRecDepth 16384 in
set_option maxHeartbeats 400000 in
/-- No operation of this stretch writes that buffer. -/
theorem part7_keep_v10 (W : Valuation τ sig (Elt F)) :
    after part7 W (main_v10 : DevRef τ sig) = W (main_v10 : DevRef τ sig) := by
  simp only [part7]
  after_results_simp

set_option maxRecDepth 16384 in
set_option maxHeartbeats 400000 in
/-- No operation of this stretch writes that buffer. -/
theorem part5_keep_v37 (W : Valuation τ sig (Elt F)) :
    after part5 W (main_v37 : DevRef τ sig) = W (main_v37 : DevRef τ sig) := by
  simp only [part5]
  after_results_simp

set_option maxRecDepth 16384 in
set_option maxHeartbeats 400000 in
/-- No operation of this stretch writes that buffer. -/
theorem part5_keep_v36 (W : Valuation τ sig (Elt F)) :
    after part5 W (main_v36 : DevRef τ sig) = W (main_v36 : DevRef τ sig) := by
  simp only [part5]
  after_results_simp

set_option maxRecDepth 16384 in
set_option maxHeartbeats 400000 in
/-- No operation of this stretch writes that buffer. -/
theorem part6_keep_v37 (W : Valuation τ sig (Elt F)) :
    after part6 W (main_v37 : DevRef τ sig) = W (main_v37 : DevRef τ sig) := by
  simp only [part6]
  after_results_simp

set_option maxRecDepth 16384 in
set_option maxHeartbeats 400000 in
/-- No operation of this stretch writes that buffer. -/
theorem part6_keep_v36 (W : Valuation τ sig (Elt F)) :
    after part6 W (main_v36 : DevRef τ sig) = W (main_v36 : DevRef τ sig) := by
  simp only [part6]
  after_results_simp

set_option maxRecDepth 16384 in
set_option maxHeartbeats 400000 in
/-- No operation of this stretch writes that buffer. -/
theorem part7_keep_v37 (W : Valuation τ sig (Elt F)) :
    after part7 W (main_v37 : DevRef τ sig) = W (main_v37 : DevRef τ sig) := by
  simp only [part7]
  after_results_simp

set_option maxRecDepth 16384 in
set_option maxHeartbeats 400000 in
/-- No operation of this stretch writes that buffer. -/
theorem part7_keep_v36 (W : Valuation τ sig (Elt F)) :
    after part7 W (main_v36 : DevRef τ sig) = W (main_v36 : DevRef τ sig) := by
  simp only [part7]
  after_results_simp

set_option maxRecDepth 16384 in
set_option maxHeartbeats 400000 in
/-- No operation of this stretch writes that buffer. -/
theorem part5_keep_v40 (W : Valuation τ sig (Elt F)) :
    after part5 W (main_v40 : DevRef τ sig) = W (main_v40 : DevRef τ sig) := by
  simp only [part5]
  after_results_simp

set_option maxRecDepth 16384 in
set_option maxHeartbeats 400000 in
/-- No operation of this stretch writes that buffer. -/
theorem part5_keep_v38 (W : Valuation τ sig (Elt F)) :
    after part5 W (main_v38 : DevRef τ sig) = W (main_v38 : DevRef τ sig) := by
  simp only [part5]
  after_results_simp

set_option maxRecDepth 16384 in
set_option maxHeartbeats 400000 in
/-- No operation of this stretch writes that buffer. -/
theorem part2_keep_v19 (W : Valuation τ sig (Elt F)) :
    after part2 W (main_v19 : DevRef τ sig) = W (main_v19 : DevRef τ sig) := by
  simp only [part2]
  after_results_simp

set_option maxRecDepth 16384 in
set_option maxHeartbeats 400000 in
/-- No operation of this stretch writes that buffer. -/
theorem part3_keep_v19 (W : Valuation τ sig (Elt F)) :
    after part3 W (main_v19 : DevRef τ sig) = W (main_v19 : DevRef τ sig) := by
  simp only [part3]
  after_results_simp

set_option maxRecDepth 16384 in
set_option maxHeartbeats 400000 in
/-- No operation of this stretch writes that buffer. -/
theorem part1_keep_v0 (W : Valuation τ sig (Elt F)) :
    after part1 W (main_v0 : DevRef τ sig) = W (main_v0 : DevRef τ sig) := by
  simp only [part1]
  after_results_simp

set_option maxRecDepth 16384 in
set_option maxHeartbeats 400000 in
/-- No operation of this stretch writes that buffer. -/
theorem part2_keep_v0 (W : Valuation τ sig (Elt F)) :
    after part2 W (main_v0 : DevRef τ sig) = W (main_v0 : DevRef τ sig) := by
  simp only [part2]
  after_results_simp

set_option maxRecDepth 16384 in
set_option maxHeartbeats 400000 in
/-- No operation of this stretch writes that buffer. -/
theorem part3_keep_v0 (W : Valuation τ sig (Elt F)) :
    after part3 W (main_v0 : DevRef τ sig) = W (main_v0 : DevRef τ sig) := by
  simp only [part3]
  after_results_simp

set_option maxRecDepth 16384 in
set_option maxHeartbeats 400000 in
/-- No operation of this stretch writes that buffer. -/
theorem part1_keep_v17 (W : Valuation τ sig (Elt F)) :
    after part1 W (main_v17 : DevRef τ sig) = W (main_v17 : DevRef τ sig) := by
  simp only [part1]
  after_results_simp

/-! ### Stretch 2: the loop blended in, and the gain -/

set_option maxRecDepth 16384 in
set_option maxHeartbeats 1000000 in
/-- The labels are left alone. -/
theorem seg2_arg1 (W : Valuation τ sig (Elt F)) :
    after seg2 W (main_arg1 : DevRef τ sig) = W (main_arg1 : DevRef τ sig) := by
  simp only [seg2]
  after_results_simp

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 1000000 in
/-- The masked array with the loop blended in. -/
theorem seg2_v60 (W : Valuation τ sig (Elt F)) :
    after seg2 W (main_v60 : DevRef τ sig) = Cert.Spec.Stage.x60Of (W (main_arg1 : DevRef τ sig)) (W (main_v37 : DevRef τ sig)) (W (main_v46 : DevRef τ sig)) (W (main_v10 : DevRef τ sig)) := by
  simp only [seg2]
  after_results_simp
  rfl

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 1000000 in
/-- The gain. -/
theorem seg2_v79 (W : Valuation τ sig (Elt F)) :
    after seg2 W (main_v79 : DevRef τ sig) = Cert.Spec.Stage.gainOf (Cert.Spec.oneFR (F := F)) (W (main_arg1 : DevRef τ sig)) (W (main_v36 : DevRef τ sig)) := by
  simp only [seg2]
  after_results_simp
  rfl

/-! ### Stretch 3: the gain, the effect, the clip -/

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 1000000 in
/-- The result. -/
theorem seg3_v96 (W : Valuation τ sig (Elt F)) :
    after seg3 W (main_v96 : DevRef τ sig) = Cert.Spec.Stage.outOf (W (main_v60 : DevRef τ sig)) (W (main_v79 : DevRef τ sig)) (W (main_arg1 : DevRef τ sig)) := by
  simp only [seg3]
  after_results_simp
  rfl

/-! ## The result buffer -/

attribute [local irreducible] Host.reduceWindow Host.gather Host.reverse concatenate Host.remsi Host.divf Host.sin
  minimumf maximumf select mulf subf broadcastInDim constant constantI cmpi andi ori noti uitofp sitofp
  extractStridedSlice iotaInDim addi subi maxsi minsi in
set_option maxRecDepth 16384 in
set_option maxHeartbeats 4000000 in
/-- After the whole line the result buffer holds the reference's result of the two arguments' contents: part by part
    (`after` of a list in parts is `after` of the parts in turn), each part's inputs being the earlier parts' outputs;
    (rewritten from the last part back to the first, so that each part's inputs are in sight when its turn comes);
    what is left is the chain's steps applied to one another, which unfolds to the chain's own spelling. -/
theorem out_eq (V : Valuation τ sig (Elt F)) :
    after ops V (main_v96 : DevRef τ sig)
      = Cert.Spec.outR (V (main_arg0 : DevRef τ sig)) (V (main_arg1 : DevRef τ sig)) := by
  rw [ops_eq_segs, segs01_eq_parts]
  simp only [Cert.ListParts.after_append]
  rw [seg3_v96]
  rw [seg2_v60, seg2_v79, seg2_arg1]
  rw [part7_v46, part7_keep_arg1, part7_keep_v37, part7_keep_v10, part7_keep_v36]
  rw [part6_v45, part6_keep_arg1, part6_keep_v37, part6_keep_v10, part6_keep_v36]
  rw [part5_v43, part5_keep_v38, part5_keep_v40, part5_keep_arg1, part5_keep_v37, part5_keep_v10, part5_keep_v36]
  rw [part4_v29, part4_v42, part4_v38, part4_v40, part4_v37, part4_v36, part4_keep_arg1, part4_keep_v10]
  rw [part3_v25, part3_keep_v19, part3_keep_v0, part3_keep_arg1, part3_keep_v10]
  rw [part2_v22, part2_keep_v19, part2_keep_v0, part2_keep_arg1, part2_keep_v10]
  rw [part1_v19, part1_keep_v17, part1_keep_v0, part1_keep_arg1, part1_keep_v10]
  rw [part0_v15, part0_v17, part0_v0, part0_v10, part0_keep_arg1]
  rfl

end Cert.ReferenceIdeal.RefRun

end
-- ==== Proof.lean ====
/-
  The certificate: a label-conditioned editor of a mel spectrogram (cut, loop, fades, low-pass, clip) as a tiled
  kernel, against its plain array reference.

  Both programs derive, from the labels alone, the run of equal labels each frame lies in, the frame's fraction
  inside it, a source frame for the loop, a gain and three 0/1 masks, by the same integer and float operations
  (Spec); they differ in how constants are spread over the [32, 8192] grid (SpecAtoms: equal as arrays), in how the
  source frame is gathered (the kernel: mel and the keep mask separately at a (row, frame) pair; the reference: rows
  of the masked array under a batch axis — the same entries), and in how the masks act (the kernel: arithmetic with
  0 and 1; the reference: selection). Entry by entry the two results are one extended real (Blend, Bridge); no value
  need be finite for that, so the precondition is never opened. The kernel's result array is assembled from its 32
  blocks (KernelBlocks) over the arrays its host operations leave (KernelArrays); the reference's is its operations'
  composed term (RefRun, RefOut). The three frames are the generated ones and the reference's run with its result
  dropped; the idealization rewrote nothing, so its claim is empty.
-/
import proofs.«180310_j25288767439135_1_alg».proof.Defs
import proofs.«180310_j25288767439135_1_alg».proof.Proof.Gen.Kernel
import proofs.«180310_j25288767439135_1_alg».proof.Proof.Gen.Kernel.Skeleton
import proofs.«180310_j25288767439135_1_alg».proof.Proof.Gen.Kernel.Launch
import proofs.«180310_j25288767439135_1_alg».proof.Proof.Gen.Kernel.Points
import proofs.«180310_j25288767439135_1_alg».proof.Proof.Gen.Kernel.Frame
import proofs.«180310_j25288767439135_1_alg».proof.Proof.Gen.KernelIdeal
import proofs.«180310_j25288767439135_1_alg».proof.Proof.Gen.KernelIdeal.Skeleton
import proofs.«180310_j25288767439135_1_alg».proof.Proof.Gen.KernelIdeal.Launch
import proofs.«180310_j25288767439135_1_alg».proof.Proof.Gen.KernelIdeal.Points
import proofs.«180310_j25288767439135_1_alg».proof.Proof.Gen.KernelIdeal.Frame
import proofs.«180310_j25288767439135_1_alg».proof.Proof.Gen.ReferenceIdeal
import proofs.«180310_j25288767439135_1_alg».proof.Proof.Gen.Pre_finite_inputs
import proofs.«180310_j25288767439135_1_alg».proof.Proof.KernelRun
import proofs.«180310_j25288767439135_1_alg».proof.Proof.RefRun
import proofs.«180310_j25288767439135_1_alg».proof.Proof.RefOut
import Idealize.ShloMosaic.Adequacy
import Idealize.ShloMosaic.Init

noncomputable section

namespace Cert.Proof

open Idealize.ShloMosaic Idealize.ShloMosaic.StableHlo Idealize.ShloMosaic.TcCoe Idealize.SL.Sem

/-- The reference's run with its result at the specification's term and its arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v96)
          = Cert.Spec.outR (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  (θ_run Cert.ReferenceIdeal.defs _ _).mono
    (fun r h c => ⟨(h c Cert.ReferenceIdeal.main_v96).trans (Cert.ReferenceIdeal.RefRun.out_eq _), (h c Cert.ReferenceIdeal.main_arg0).trans (Cert.ReferenceIdeal.RefRun.arg0_eq _),
      (h c Cert.ReferenceIdeal.main_arg1).trans (Cert.ReferenceIdeal.RefRun.arg1_eq _)⟩)
    (Cert.ReferenceIdeal.RefRun.run_main (F := Ideal) m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (ref_run m ρ)

/-- Both idealized programs end, from memories agreeing on the arguments, with the same result: the reference's
    function of the arguments. -/
theorem algebraic : Cert.algebraic_KernelIdeal_ReferenceIdeal := by
  intro m ρ m' ρ' _ hagree
  refine ⟨fun c => Cert.Spec.outR (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelLeg.run m ρ, ?_⟩
  refine (θ_run Cert.ReferenceIdeal.defs _ _).mono (fun _ h c => ⟨(h c).1.trans ?_, (h c).2⟩) (ref_run m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
